-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S4096x200 : Shape := ⟨2, ![4096, 200]⟩
abbrev S1000000x100 : Shape := ⟨2, ![1000000, 100]⟩
abbrev S_ : Shape := ⟨0, ![]⟩

class Facts : Prop where
  bcast_S_S1000000x100 : S_.BroadcastsInDim S1000000x100 (![] : Fin 0 → Fin S1000000x100.rank)
  reducesTo_S1000000x100_S_d0_1 : S1000000x100.ReducesTo [0, 1] S_
  h_S_ : 0 < S_.numel
  bcast_S_S4096x200 : S_.BroadcastsInDim S4096x200 (![] : Fin 0 → Fin S4096x200.rank)
  reducesTo_S4096x200_S_d0_1 : S4096x200.ReducesTo [0, 1] S_

variable [Facts]

def fn {F : FTy → Type} [FloatOps F] (main_arg0 : IVec S4096x200 32) (main_arg1 : FVec F S1000000x100 .f32) : IVec S_ 1 :=
  let main_v0 : FVec F S1000000x100 .f32 := Host.absf main_arg1
  let main_cst : FVec F S_ .f32 := constant S_ .f32 0x7F800000#32
  let main_v1 : FVec F S1000000x100 .f32 := broadcastInDim S1000000x100 ![] bcast_S_S1000000x100 main_cst
  let main_v2 : IVec S1000000x100 1 := cmpf .olt main_v0 main_v1
  let main_c : IVec S_ 1 := constantI S_ 1 1#1
  let main_v3 : IVec S_ 1 := (fun x v => Host.reduce IntOp.andi x v reducesTo_S1000000x100_S_d0_1 h_S_) main_v2 main_c
  let main_c_0 : IVec S_ 32 := constantI S_ 32 0#32
  let main_v4 : IVec S4096x200 32 := broadcastInDim S4096x200 ![] bcast_S_S4096x200 main_c_0
  let main_v5 : IVec S4096x200 1 := cmpi .sge main_arg0 main_v4
  let main_c_1 : IVec S_ 32 := constantI S_ 32 999999#32
  let main_v6 : IVec S4096x200 32 := broadcastInDim S4096x200 ![] bcast_S_S4096x200 main_c_1
  let main_v7 : IVec S4096x200 1 := cmpi .sle main_arg0 main_v6
  let main_v8 : IVec S4096x200 1 := andi main_v5 main_v7
  let main_c_2 : IVec S_ 1 := constantI S_ 1 1#1
  let main_v9 : IVec S_ 1 := (fun x v => Host.reduce IntOp.andi x v reducesTo_S4096x200_S_d0_1 h_S_) main_v8 main_c_2
  let main_v10 : IVec S_ 1 := andi main_v3 main_v9
  main_v10
-- ==== Kernel.lean ====
abbrev S4096x200 : Shape := ⟨2, ![4096, 200]⟩
abbrev S1000000x100 : Shape := ⟨2, ![1000000, 100]⟩
abbrev S819200 : Shape := ⟨1, ![819200]⟩
abbrev S100x1000000 : Shape := ⟨2, ![100, 1000000]⟩
abbrev S1000000x128 : Shape := ⟨2, ![1000000, 128]⟩
abbrev S100x4096 : Shape := ⟨2, ![100, 4096]⟩
abbrev S4096x128 : Shape := ⟨2, ![4096, 128]⟩
abbrev S4096x100 : Shape := ⟨2, ![4096, 100]⟩
abbrev S819200x128 : Shape := ⟨2, ![819200, 128]⟩
abbrev S400 : Shape := ⟨1, ![400]⟩
abbrev S400x128 : Shape := ⟨2, ![400, 128]⟩
abbrev S_ : Shape := ⟨0, ![]⟩
abbrev S819200x100 : Shape := ⟨2, ![819200, 100]⟩
abbrev S4096x200x100 : Shape := ⟨3, ![4096, 200, 100]⟩

abbrev nBuf : Table → Nat
  | .hbm => 8
  | .local .tc .vmem => 4
  | .local .scVector .vmem => 4
  | _ => 0

abbrev bufTy : (tb : Table) → Fin (nBuf tb) → BufTy
  | .hbm, ⟨0, _⟩ => ⟨S4096x200, .i32⟩
  | .hbm, ⟨1, _⟩ => ⟨S1000000x100, .f32⟩
  | .hbm, ⟨2, _⟩ => ⟨S819200, .i32⟩
  | .hbm, ⟨3, _⟩ => ⟨S100x1000000, .f32⟩
  | .hbm, ⟨4, _⟩ => ⟨S1000000x128, .f32⟩
  | .hbm, ⟨5, _⟩ => ⟨S819200x128, .f32⟩
  | .hbm, ⟨6, _⟩ => ⟨S819200x100, .f32⟩
  | .hbm, ⟨7, _⟩ => ⟨S4096x200x100, .f32⟩
  | .local .tc .vmem, ⟨0, _⟩ => ⟨S100x4096, .f32⟩
  | .local .tc .vmem, ⟨1, _⟩ => ⟨S100x4096, .f32⟩
  | .local .tc .vmem, ⟨2, _⟩ => ⟨S4096x128, .f32⟩
  | .local .tc .vmem, ⟨3, _⟩ => ⟨S4096x128, .f32⟩
  | .local .scVector .vmem, ⟨0, _⟩ => ⟨S400, .i32⟩
  | .local .scVector .vmem, ⟨1, _⟩ => ⟨S400, .i32⟩
  | .local .scVector .vmem, ⟨2, _⟩ => ⟨S400x128, .f32⟩
  | .local .scVector .vmem, ⟨3, _⟩ => ⟨S400x128, .f32⟩
  | _, _ => ⟨S4096x200, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 11 → Bool
  | ⟨0, _⟩ => true
  | ⟨1, _⟩ => true
  | ⟨2, _⟩ => true
  | ⟨3, _⟩ => true
  | ⟨4, _⟩ => false
  | ⟨5, _⟩ => false
  | ⟨6, _⟩ => false
  | ⟨7, _⟩ => false
  | ⟨8, _⟩ => false
  | ⟨9, _⟩ => false
  | ⟨10, _⟩ => false
  | _ => false

abbrev sig : RefSig :=
  ofTables nBuf rfl bufTy 4 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v0_scv : Ref sig .scVector := ⟨.hbm, 2, rfl⟩
abbrev main_v2_scv : Ref sig .scVector := ⟨.hbm, 4, rfl⟩
abbrev main_v3_scv : Ref sig .scVector := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem0_1 : DmaSem sig := 1
abbrev cc0_sem1_0 : DmaSem sig := 2
abbrev cc0_sem1_1 : DmaSem sig := 3
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S100x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c0_i32 : BitVec 32 := 0#32
  let v3 : BitVec 32 := Scalar.addi v2 c0_i32
  ![v3.toNat]
@[reducible] def k1_t1_loop : Scf.Loop 32 :=
  let c0_i32_2 : BitVec 32 := 0#32
  let c32_i32 : BitVec 32 := 32#32
  let v5 : BitVec 32 := Scalar.addi c0_i32_2 c32_i32
  let c1_i32 : BitVec 32 := 1#32
  ⟨c0_i32_2, v5, c1_i32⟩
def k1_off2 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_4 : BitVec 32 := 2#32
  let c0_i32_2 : BitVec 32 := 0#32
  let c1_i32 : BitVec 32 := 1#32
  let arg11 : BitVec 32 := Scf.iv c0_i32_2 c1_i32 k1_t1
  let v6 : BitVec 32 := Scalar.muli c2_i32_4 arg11
  let c1_i32_5 : BitVec 32 := 1#32
  let v7 : BitVec 32 := Scalar.addi v6 c1_i32_5
  let c400_i32 : BitVec 32 := 400#32
  let v8 : BitVec 32 := Scalar.muli v7 c400_i32
  let v9 : BitVec 32 := Scalar.addi v2 v8
  ![v9.toNat]
def k1_off3 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_4 : BitVec 32 := 2#32
  let c0_i32_2 : BitVec 32 := 0#32
  let c1_i32 : BitVec 32 := 1#32
  let arg11 : BitVec 32 := Scf.iv c0_i32_2 c1_i32 k1_t1
  let v6 : BitVec 32 := Scalar.muli c2_i32_4 arg11
  let c400_i32_8 : BitVec 32 := 400#32
  let v11 : BitVec 32 := Scalar.muli v6 c400_i32_8
  let v12 : BitVec 32 := Scalar.addi v2 v11
  let c0_i32_16_r2 : BitVec 32 := 0#32
  ![v12.toNat, 0]
def k1_cond1 (k1_t1 : Fin k1_t1_loop.trips) : BitVec 1 :=
  let c0_i32_2 : BitVec 32 := 0#32
  let c1_i32 : BitVec 32 := 1#32
  let arg11 : BitVec 32 := Scf.iv c0_i32_2 c1_i32 k1_t1
  let c31_i32 : BitVec 32 := 31#32
  let v14 : BitVec 1 := Scalar.cmpi .slt arg11 c31_i32
  let v15 : BitVec 32 := Scalar.extui v14
  let c0_i32_11 : BitVec 32 := 0#32
  let v16 : BitVec 1 := Scalar.cmpi .ne v15 c0_i32_11
  v16

def k1_off4 (i : grid1.Coords) (k1_t1 : Fin k1_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_4 : BitVec 32 := 2#32
  let c0_i32_2 : BitVec 32 := 0#32
  let c1_i32 : BitVec 32 := 1#32
  let arg11 : BitVec 32 := Scf.iv c0_i32_2 c1_i32 k1_t1
  let v6 : BitVec 32 := Scalar.muli c2_i32_4 arg11
  let c2_i32_16 : BitVec 32 := 2#32
  let v21 : BitVec 32 := Scalar.addi v6 c2_i32_16
  let c400_i32_17 : BitVec 32 := 400#32
  let v22 : BitVec 32 := Scalar.muli v21 c400_i32_17
  let v23 : BitVec 32 := Scalar.addi v2 v22
  ![v23.toNat]
def k1_off5 (i : grid1.Coords) (k1_t1 : Fin k1_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c25600_i32 : BitVec 32 := 25600#32
  let v2 : BitVec 32 := Scalar.muli v1 c25600_i32
  let c2_i32_4 : BitVec 32 := 2#32
  let c0_i32_2 : BitVec 32 := 0#32
  let c1_i32 : BitVec 32 := 1#32
  let arg11 : BitVec 32 := Scf.iv c0_i32_2 c1_i32 k1_t1
  let v6 : BitVec 32 := Scalar.muli c2_i32_4 arg11
  let c1_i32_12 : BitVec 32 := 1#32
  let v17 : BitVec 32 := Scalar.addi v6 c1_i32_12
  let c400_i32_13 : BitVec 32 := 400#32
  let v18 : BitVec 32 := Scalar.muli v17 c400_i32_13
  let v19 : BitVec 32 := Scalar.addi v2 v18
  let c0_i32_16_r4 : BitVec 32 := 0#32
  ![v19.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S4096x200_S819200 : S4096x200.ShapeCasts S819200
  transposes_S1000000x100_S100x1000000_1_0 : S1000000x100.Transposes [1, 0] S100x1000000
  inb_S100x4096_S100x4096_0_0 : ∀ a, (![0, 0] : Fin 2 → Nat) a + S100x4096.size a ≤ S100x4096.size a
  h_S100x4096 : 0 < S100x4096.numel
  shapeCasts_S100x4096_S100x4096 : S100x4096.ShapeCasts S100x4096
  transposes_S100x4096_p1_0_S4096x100 : S100x4096.Transposes [1, 0] S4096x100
  inb_S4096x128_S4096x100_0_0 : ∀ a, (![0, 0] : Fin 2 → Nat) a + S4096x100.size a ≤ S4096x128.size a
  h_S4096x100 : 0 < S4096x100.numel
  inb_S1000000x128_S1000000x128_0_0 : ∀ a, (![0, 0] : Fin 2 → Nat) a + S1000000x128.size a ≤ S1000000x128.size a
  gathers_S1000000x128_S400x128 : S1000000x128.Gathers 0 S400x128
  slices_S819200x128_S819200x100_0_0 : S819200x128.Slices ![0, 0] S819200x100
  shapeCasts_S819200x100_S4096x200x100 : S819200x100.ShapeCasts S4096x200x100
  hcc1_scratch4 : 4 + S_.numel ≤ 11
  hcc1_scratch5 : 5 + S_.numel ≤ 11
  hcc1_scoped0 : 6 + S_.numel ≤ 11
  hcc1_scoped1 : 7 + S_.numel ≤ 11
  hcc1_scoped2 : 8 + S_.numel ≤ 11
  hcc1_scoped3 : 9 + S_.numel ≤ 11
  hcc1_scoped4 : 10 + S_.numel ≤ 11
  hscKind : ∀ q, scKind q ≠ .tc
  hscCore : ∀ q, scNCore q ≤ τ.nSC
  hscSub : ∀ q, scNSub q ≤ τ.nSub
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S100x4096.size a < S100x1000000.size a
  hwx0_0 : ∀ i : grid0.Coords, EltTy.bits .f32 = 32 ∨ (Rect.unit (s := S100x1000000) (fun a => cc0_transform_0 i a * S100x4096.size a) (fun a => (Pipeline.Clip.of (cc0_transform_0 i a) (S100x4096.size a) (S100x1000000.size a)).extent (S100x4096.size a)) fun a => Pipeline.Clip.inb (Pipeline.Clip.ok_of (hstart0_0 i a))).WholeWords (EltTy.packing .f32)
  hwxs0_0 : ∀ i : grid0.Coords, EltTy.bits .f32 = 32 ∨ (Rect.unit (s := S100x4096) (fun _ => 0) (fun a => (Pipeline.Clip.of (cc0_transform_0 i a) (S100x4096.size a) (S100x1000000.size a)).extent (S100x4096.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S1000000x128.size a
  hwx0_1 : ∀ i : grid0.Coords, EltTy.bits .f32 = 32 ∨ (Rect.unit (s := S1000000x128) (fun a => cc0_transform_1 i a * S4096x128.size a) (fun a => (Pipeline.Clip.of (cc0_transform_1 i a) (S4096x128.size a) (S1000000x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S1000000x128.size a)).extent (S4096x128.size a)) fun a => (Nat.zero_add _).trans_le (Pipeline.Clip.extent_le (Pipeline.Clip.ok_of (hstart0_1 i a)))).WholeWords (EltTy.packing .f32)
  hcore1 : grid1.bound 0 ≤ τ.nSC
  hsub1 : grid1.bound 1 ≤ τ.nSub
  k1_off1_inb : ∀ i : grid1.Coords, ∀ a, (k1_off1 i) a + S400.size a ≤ S819200.size a
  k1_t1_ok : k1_t1_loop.OK
  k1_off2_inb : ∀ (i : grid1.Coords) (k1_t1 : Fin k1_t1_loop.trips), ∀ a, (k1_off2 i k1_t1) a + S400.size a ≤ S819200.size a
  k1_off3_inb : ∀ (i : grid1.Coords) (k1_t1 : Fin k1_t1_loop.trips), ∀ a, (k1_off3 i k1_t1) a + S400x128.size a ≤ S819200x128.size a
  k1_off4_inb : ∀ (i : grid1.Coords) (k1_t1 : Fin k1_t1_loop.trips), ∀ (k1_h1 : k1_cond1 k1_t1 = 1#1), ∀ a, (k1_off4 i k1_t1) a + S400.size a ≤ S819200.size a
  k1_off5_inb : ∀ (i : grid1.Coords) (k1_t1 : Fin k1_t1_loop.trips), ∀ a, (k1_off5 i k1_t1) a + S400x128.size a ≤ S819200x128.size a

variable [Facts₀]

abbrev cc1_scratch4 : DmaSems sig S_ := SemArray.consecutive 4 S_ hcc1_scratch4
abbrev cc1_scratch5 : DmaSems sig S_ := SemArray.consecutive 5 S_ hcc1_scratch5
abbrev cc1_scoped0 : DmaSems sig S_ := SemArray.consecutive 6 S_ hcc1_scoped0
abbrev cc1_scoped1 : DmaSems sig S_ := SemArray.consecutive 7 S_ hcc1_scoped1
abbrev cc1_scoped2 : DmaSems sig S_ := SemArray.consecutive 8 S_ hcc1_scoped2
abbrev cc1_scoped3 : DmaSems sig S_ := SemArray.consecutive 9 S_ hcc1_scoped3
abbrev cc1_scoped4 : DmaSems sig S_ := SemArray.consecutive 10 S_ hcc1_scoped4

abbrev win0_0 : Pipeline.Window sig grid0 :=
  Pipeline.Window.ofSpecClip (Memref.whole main_v1) S100x4096.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_v2) S4096x128.size cc0_transform_1 reads0_1 true false 2 stage0_1 sem0_1
    hrank0 hreads0_1 hstart0_1 nbuf0_1 (Memref.isWhole_whole _) hwx0_1 hwxs0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S4096x200 : Shape := ⟨2, ![4096, 200]⟩
abbrev S1000000x100 : Shape := ⟨2, ![1000000, 100]⟩
abbrev S_ : Shape := ⟨0, ![]⟩
abbrev S4096x200x1 : Shape := ⟨3, ![4096, 200, 1]⟩
abbrev S1 : Shape := ⟨1, ![1]⟩
abbrev S1x1x1 : Shape := ⟨3, ![1, 1, 1]⟩
abbrev S4096x200x100 : Shape := ⟨3, ![4096, 200, 100]⟩

abbrev nBuf : Space → Nat
  | .hbm => 25
  | .vmem => 0
  | .smem => 0
  | _ => 0

abbrev bufTy : (tb : Table) → Fin (tcTables nBuf tb) → BufTy
  | .hbm, ⟨0, _⟩ => ⟨S4096x200, .i32⟩
  | .hbm, ⟨1, _⟩ => ⟨S1000000x100, .f32⟩
  | .hbm, ⟨2, _⟩ => ⟨S_, .i32⟩
  | .hbm, ⟨3, _⟩ => ⟨S4096x200, .i32⟩
  | .hbm, ⟨4, _⟩ => ⟨S4096x200, .i1⟩
  | .hbm, ⟨5, _⟩ => ⟨S_, .i32⟩
  | .hbm, ⟨6, _⟩ => ⟨S4096x200, .i32⟩
  | .hbm, ⟨7, _⟩ => ⟨S4096x200, .i32⟩
  | .hbm, ⟨8, _⟩ => ⟨S4096x200, .i32⟩
  | .hbm, ⟨9, _⟩ => ⟨S4096x200x1, .i32⟩
  | .hbm, ⟨10, _⟩ => ⟨S1, .i32⟩
  | .hbm, ⟨11, _⟩ => ⟨S_, .i32⟩
  | .hbm, ⟨12, _⟩ => ⟨S4096x200x1, .i32⟩
  | .hbm, ⟨13, _⟩ => ⟨S4096x200x1, .i1⟩
  | .hbm, ⟨14, _⟩ => ⟨S1x1x1, .i32⟩
  | .hbm, ⟨15, _⟩ => ⟨S4096x200x1, .i32⟩
  | .hbm, ⟨16, _⟩ => ⟨S4096x200x1, .i1⟩
  | .hbm, ⟨17, _⟩ => ⟨S4096x200x1, .i1⟩
  | .hbm, ⟨18, _⟩ => ⟨S_, .i1⟩
  | .hbm, ⟨19, _⟩ => ⟨S4096x200, .i1⟩
  | .hbm, ⟨20, _⟩ => ⟨S4096x200x100, .f32⟩
  | .hbm, ⟨21, _⟩ => ⟨S4096x200x100, .i1⟩
  | .hbm, ⟨22, _⟩ => ⟨S_, .f32⟩
  | .hbm, ⟨23, _⟩ => ⟨S4096x200x100, .f32⟩
  | .hbm, ⟨24, _⟩ => ⟨S4096x200x100, .f32⟩
  | _, _ => ⟨S4096x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]

class Facts₀ : Prop where
  bcast_S_S4096x200 : S_.BroadcastsInDim S4096x200 (![] : Fin 0 → Fin S4096x200.rank)
  bcast_S4096x200_S4096x200x1_0_1 : S4096x200.BroadcastsInDim S4096x200x1 (![0, 1] : Fin 2 → Fin S4096x200x1.rank)
  bcast_S_S4096x200x1 : S_.BroadcastsInDim S4096x200x1 (![] : Fin 0 → Fin S4096x200x1.rank)
  bcast_S1_S1x1x1_2 : S1.BroadcastsInDim S1x1x1 (![2] : Fin 1 → Fin S1x1x1.rank)
  bcast_S1x1x1_S4096x200x1_0_1_2 : S1x1x1.BroadcastsInDim S4096x200x1 (![0, 1, 2] : Fin 3 → Fin S4096x200x1.rank)
  reducesTo_S4096x200x1_S4096x200_d2 : S4096x200x1.ReducesTo [2] S4096x200
  h_S_ : 0 < S_.numel
  bcast_S4096x200_S4096x200x100_0_1 : S4096x200.BroadcastsInDim S4096x200x100 (![0, 1] : Fin 2 → Fin S4096x200x100.rank)
  bcast_S_S4096x200x100 : S_.BroadcastsInDim S4096x200x100 (![] : Fin 0 → Fin S4096x200x100.rank)
  gather_S1000000x100_S4096x200x1_S4096x200x100_2_0_n_n_0_2_1100_wf : GatherDims.WF S1000000x100 S4096x200x1 S4096x200x100 [2] [0] [] [0] [] 2 ![1, 100]

variable [Facts₀]

def gather_S1000000x100_S4096x200x1_S4096x200x100_2_0_n_n_0_2_1100 : GatherDims S1000000x100 S4096x200x1 S4096x200x100 where
  offsetDims := [2]
  collapsedSliceDims := [0]
  operandBatchingDims := []
  startIndicesBatchingDims := []
  startIndexMap := [0]
  indexVectorDim := 2
  sliceSizes := ![1, 100]
  wf := gather_S1000000x100_S4096x200x1_S4096x200x100_2_0_n_n_0_2_1100_wf

class Facts : Prop extends Facts₀ where

variable [Facts]
-- ==== Proof.Spec.lean ====
/-
  The function both programs compute. For a table of 1000000 rows of 100 entries and a 4096 × 200 array of row numbers,
  the result at (b, s, e) is entry e of the row that the word at (b, s) names. The word is read as a signed integer and
  brought into the table's rows, 0 … 999999; where every word already names a row (`IdxOK`) that reading is the word's
  own value.
-/
import Idealize.ShloMosaic.Lib.ValueIdx

noncomputable section

namespace Cert.Spec

open Idealize.ShloMosaic Idealize.ShloMosaic.ValueIdx

/-- The row of the table a word names: its signed value, brought into 0 … 999999. -/
def rowIx (w : BitVec 32) : Fin 1000000 := ⟨min w.toInt.toNat (1000000 - 1), by omega⟩

/-- The lookup: at (b, s, e), entry e of row `idx[b, s]` of the table. -/
def G {α : Type} (idx : (⟨2, ![4096, 200]⟩ : Shape).Idx → BitVec 32) (tab : (⟨2, ![1000000, 100]⟩ : Shape).Idx → α) :
    (⟨3, ![4096, 200, 100]⟩ : Shape).Idx → α :=
  fun i => tab (ix2 (rowIx (idx (ix2 (i 0) (i 1)))) (i 2))

theorem G_apply {α : Type} (idx : (⟨2, ![4096, 200]⟩ : Shape).Idx → BitVec 32) (tab : (⟨2, ![1000000, 100]⟩ : Shape).Idx → α)
    (b : Fin 4096) (s : Fin 200) (e : Fin 100) : G idx tab (ix3 b s e) = tab (ix2 (rowIx (idx (ix2 b s))) e) := rfl

/-- Every word names a row of the table: as a signed integer it lies in 0 … 999999. -/
def IdxOK (idx : (⟨2, ![4096, 200]⟩ : Shape).Idx → BitVec 32) : Prop := ∀ j, 0 ≤ (idx j).toInt ∧ (idx j).toInt ≤ 999999

/-- A word that names a row is that row's number. -/
theorem rowIx_val {w : BitVec 32} (h0 : 0 ≤ w.toInt) (h1 : w.toInt ≤ 999999) : (rowIx w).val = w.toNat := by
  have e : w.toInt = (w.toNat : Int) := by
    rw [BitVec.toInt_eq_toNat_cond] at h0 ⊢
    split at h0 <;> rename_i hlt
    · rw [if_pos hlt]
    · exfalso; have := w.isLt; omega
  show min w.toInt.toNat (1000000 - 1) = w.toNat
  rw [e] at h1 ⊢
  omega

theorem toNat_lt_of_ok {w : BitVec 32} (h0 : 0 ≤ w.toInt) (h1 : w.toInt ≤ 999999) : w.toNat < 1000000 := by
  have := rowIx_val h0 h1; have := (rowIx w).isLt; omega

end Cert.Spec

end
-- ==== Proof.PreIdx.lean ====
/-
  The precondition read back. The precondition function is the conjunction of two facts: every entry of the table is
  finite, and every word of the index array lies in 0 … 999999 (the conjunction over the whole array of the two signed
  comparisons). Its being all ones gives the second fact word by word; the first is not used, so nothing is asked of
  the float values.
-/
import proofs.«206924_g7387343749612_cont_9to1c4b_603_14_alg».proof.Pre_input_domain
import proofs.«206924_g7387343749612_cont_9to1c4b_603_14_alg».proof.Proof.Gen.Pre_input_domain
import proofs.«206924_g7387343749612_cont_9to1c4b_603_14_alg».proof.Proof.Spec
import Idealize.ShloMosaic.Lib.ValueIdx
import Idealize.ShloMosaic.Lib.ReduceAll

noncomputable section

namespace Cert.PreIdx

open Idealize.ShloMosaic

/-- The precondition's second conjunct, read back: every word of the index array lies in 0 … 999999. -/
theorem idxOK_of_fn {F : FTy → Type} [FloatOps F] (a0 : IVec Cert.Pre_input_domain.S4096x200 32)
    (a1 : FVec F Cert.Pre_input_domain.S1000000x100 .f32)
    (h : @Cert.Pre_input_domain.fn Cert.Pre_input_domain.Gen.facts F _ a0 a1 = fun _ => 1#1) : Cert.Spec.IdxOK a0 := by
  intro j
  have h0 := congrFun h ValueIdx.ix0
  dsimp only [Cert.Pre_input_domain.fn] at h0
  change IntOp.andi _ _ = 1#1 at h0
  have h1 := (IntOp.andi_eq_one.1 h0).2
  haveI : Subsingleton Cert.Pre_input_domain.S_.Idx := ⟨fun a b => funext fun d => d.elim0⟩
  have h2 := Host.reduce_andi_all _ _ _ _ _ h1 j
  change IntOp.andi (IntOp.cmpi .sge (a0 j) 0#32) (IntOp.cmpi .sle (a0 j) 999999#32) = 1#1 at h2
  rw [IntOp.andi_eq_one, IntOp.cmpi_sge, IntOp.cmpi_sle] at h2
  have hz : (0#32 : BitVec 32).toInt = 0 := by decide
  have hm : (999999#32 : BitVec 32).toInt = 999999 := by decide
  rw [hz, hm] at h2
  exact h2

end Cert.PreIdx

end
-- ==== Proof.RefOut.lean ====
/-
  The reference's result as one term of its two arguments. The words of the index array that are below zero are moved
  up by the number of rows; the moved words, on a trailing unit axis, are the start indices of a gather of whole rows
  of the table; a start index is accepted when it lies in 0 … 999999, and where it is not accepted the result is a
  constant instead of the gathered row.
-/
import proofs.«206924_g7387343749612_cont_9to1c4b_603_14_alg».proof.ReferenceIdeal

noncomputable section

namespace Cert.RefSide

open Cert.ReferenceIdeal Idealize.ShloMosaic

variable {F : FTy → Type} [FloatOps F] [Cert.ReferenceIdeal.Facts]
open Cert.ReferenceIdeal.Facts₀ Cert.ReferenceIdeal.Facts

/-- The words, those below zero moved up by 1000000. -/
def wrapped (idx : IVec S4096x200 32) : IVec S4096x200 32 :=
  select (cmpi .slt idx (broadcastInDim S4096x200 ![] bcast_S_S4096x200 (constantI S_ 32 0#32)))
    (addi idx (broadcastInDim S4096x200 ![] bcast_S_S4096x200 (constantI S_ 32 1000000#32))) idx

/-- The start indices of the gather: the moved words on a trailing unit axis. -/
def starts (idx : IVec S4096x200 32) : IVec S4096x200x1 32 :=
  broadcastInDim S4096x200x1 ![0, 1] bcast_S4096x200_S4096x200x1_0_1 (wrapped idx)

/-- Start index by start index: it lies in 0 … 999999. -/
def inRange (idx : IVec S4096x200 32) : IVec S4096x200x1 1 :=
  andi (cmpi .sge (starts idx) (broadcastInDim S4096x200x1 ![] bcast_S_S4096x200x1 (constantI S_ 32 0#32)))
    (cmpi .sle (starts idx) (broadcastInDim S4096x200x1 ![0, 1, 2] bcast_S1x1x1_S4096x200x1_0_1_2
      (broadcastInDim S1x1x1 ![2] bcast_S1_S1x1x1_2 (constantI S1 32 999999#32))))

/-- Word by word: its start index is accepted (the conjunction over the unit axis). -/
def mask (idx : IVec S4096x200 32) : IVec S4096x200 1 :=
  Host.reduce IntOp.andi (inRange idx) (constantI S_ 1 1#1) reducesTo_S4096x200x1_S4096x200_d2 h_S_

/-- The reference's result: the gathered rows where the start index is accepted, a constant elsewhere. -/
def out (idx : IVec S4096x200 32) (tab : FVec F S1000000x100 .f32) : FVec F S4096x200x100 .f32 :=
  select (broadcastInDim S4096x200x100 ![0, 1] bcast_S4096x200_S4096x200x100_0_1 (mask idx))
    (Host.gather gather_S1000000x100_S4096x200x1_S4096x200x100_2_0_n_n_0_2_1100 tab (starts idx))
    (broadcastInDim S4096x200x100 ![] bcast_S_S4096x200x100 (constant S_ .f32 0x7FC00000#32))

end Cert.RefSide

end
-- ==== Proof.RefOps.lean ====
/-
  The reference's @main as a straight line of its twenty-three host operations, the two calls unfolded at their sites,
  and its run: every weakly fair execution terminates with the result buffer at the composed term `out` of the two
  arguments' launch contents and the arguments unchanged.
-/
import proofs.«206924_g7387343749612_cont_9to1c4b_603_14_alg».proof.Proof.Gen.ReferenceIdeal
import proofs.«206924_g7387343749612_cont_9to1c4b_603_14_alg».proof.Proof.RefOut
import Idealize.ShloMosaic.Lib.StableHlo.Run

noncomputable section

namespace Cert.RefSide

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- @main's operations in order, the calls unfolded: the lookup's six before the inner call (the zero and its splat,
    the comparison with it, the row count and its splat, the sum), the inner call's one select, then the lookup's
    sixteen after it. -/
abbrev ops : List (HloOp τ sig (Elt F)) :=
  [ TRef.nullary main_call0.c (constantI S_ 32 0#32),
    TRef.unary main_call0.c main_call0.v0 (broadcastInDim S4096x200 ![] bcast_S_S4096x200),
    TRef.binary (.of main_arg0) main_call0.v0 main_call0.v1 (cmpi .slt),
    TRef.nullary main_call0.c_0 (constantI S_ 32 1000000#32),
    TRef.unary main_call0.c_0 main_call0.v2 (broadcastInDim S4096x200 ![] bcast_S_S4096x200),
    TRef.binary (.of main_arg0) main_call0.v2 main_call0.v3 addi,
    TRef.ternary main_call0.v1 main_call0.v3 (.of main_arg0) main_call0.call0.v0 select,
    TRef.unary main_call0.call0.v0 main_call0.v5 (broadcastInDim S4096x200x1 ![0, 1] bcast_S4096x200_S4096x200x1_0_1),
    TRef.nullary main_call0.c_1 (constantI S1 32 999999#32),
    TRef.nullary main_call0.c_2 (constantI S_ 32 0#32),
    TRef.unary main_call0.c_2 main_call0.v6 (broadcastInDim S4096x200x1 ![] bcast_S_S4096x200x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4096x200x1 ![0, 1, 2] bcast_S1x1x1_S4096x200x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4096x200x1_S4096x200_d2 h_S_),
    TRef.binary (.of main_arg1) main_call0.v5 main_call0.v13 (fun x i => Host.gather gather_S1000000x100_S4096x200x1_S4096x200x100_2_0_n_n_0_2_1100 x i),
    TRef.unary main_call0.v12 main_call0.v14 (broadcastInDim S4096x200x100 ![0, 1] bcast_S4096x200_S4096x200x100_0_1),
    TRef.nullary main_call0.cst (constant S_ .f32 0x7FC00000#32),
    TRef.unary main_call0.cst main_call0.v15 (broadcastInDim S4096x200x100 ![] bcast_S_S4096x200x100),
    TRef.ternary main_call0.v14 main_call0.v13 main_call0.v15 main_call0.v16 select ]

set_option maxRecDepth 1024 in
/-- @main is that straight line: the two functions' definitions unfolded at their calls, both sides are one chain of
    steps once sequencing is reassociated. -/
theorem main_eq (c : Dev nD) : main (F := F) c = seq ops := by
  simp only [main, fn_take.body, fn_where.body, seq, bind_assoc, pure_bind]

attribute [local irreducible] Host.reduce Host.gather in
set_option maxHeartbeats 1600000 in
/-- The fold at the result buffer is `out` of the arguments: each operation's result read at the buffer it writes, at
    any other buffer what was there; what is left are the typed references' transports, the identity at these literal
    references. The reduction and the gather are kept folded meanwhile: the equation never looks inside them. -/
theorem out_eq (V : Valuation τ sig (Elt F)) :
    after ops V (main_v0 : DevRef τ sig) = out (V (main_arg0 : DevRef τ sig)) (V (main_arg1 : DevRef τ sig)) := by
  after_results_simp
  rfl

set_option maxHeartbeats 1600000 in
/-- No operation writes the first argument. -/
theorem arg0_eq (V : Valuation τ sig (Elt F)) :
    after ops V (main_arg0 : DevRef τ sig) = V (main_arg0 : DevRef τ sig) := by
  after_results_simp

set_option maxHeartbeats 1600000 in
/-- No operation writes the second argument. -/
theorem arg1_eq (V : Valuation τ sig (Elt F)) :
    after ops V (main_arg1 : DevRef τ sig) = V (main_arg1 : DevRef τ sig) := by
  after_results_simp

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub ..⟩

/-- From any memory with zero counters every weakly fair execution of @main terminates, with the result buffer at
    `out` of the arguments' launch contents and the arguments unchanged. -/
theorem run_out (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0)
          = out (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (out_eq _), (h c main_arg0).trans (arg0_eq _),
      (h c main_arg1).trans (arg1_eq _)⟩)
    (run_seq scopedRefs_eq scopedSems_eq defs main (fun _ => ops) main_eq (fun _ => ops_sub) m ρ)

end Cert.RefSide

end
-- ==== Proof.LibGatherRows3.lean ====
/-
  A row lookup as a gather, read at an index. For a table `x : [N, E]` and start indices `idx : [B, S, 1]`, the gather
  whose slices are whole rows (slice sizes `[1, E]`, the row axis collapsed, the start index naming the row, the index
  vector on the trailing unit axis, the row's entries on result axis 2) has, at `(b, s, e)`, the table's entry `e` of
  the row `idx[b, s, 0]` read as a signed integer and clamped into `[0, N − 1]`.
-/
import Idealize.ShloMosaic.Lib.ValueIdx

noncomputable section

namespace Cert.Proof.LibGatherRows3

open Idealize.ShloMosaic Idealize.ShloMosaic.ValueIdx

variable {α : Type}

/-- The dimension numbers of a whole-row gather from `[N, E]` at `[B, S, 1]` start indices into `[B, S, E]`. -/
abbrev rowsDims (N E B S : Nat)
    (wf : GatherDims.WF ⟨2, ![N, E]⟩ ⟨3, ![B, S, 1]⟩ ⟨3, ![B, S, E]⟩ [2] [0] [] [0] [] 2 ![1, E]) :
    GatherDims ⟨2, ![N, E]⟩ ⟨3, ![B, S, 1]⟩ ⟨3, ![B, S, E]⟩ where
  offsetDims := [2]
  collapsedSliceDims := [0]
  operandBatchingDims := []
  startIndicesBatchingDims := []
  startIndexMap := [0]
  indexVectorDim := 2
  sliceSizes := ![1, E]
  wf := wf

/-- THE ROW GATHER READ AT `(b, s, e)`: entry `e` of the row the start index `idx[b, s, 0]` names, the start index read
    signed and clamped into `[0, N − 1]`. -/
theorem gather_rows_apply {N E B S w : Nat} (hN : 0 < N)
    (wf : GatherDims.WF ⟨2, ![N, E]⟩ ⟨3, ![B, S, 1]⟩ ⟨3, ![B, S, E]⟩ [2] [0] [] [0] [] 2 ![1, E])
    (x : (⟨2, ![N, E]⟩ : Shape).Idx → α) (idx : IVec ⟨3, ![B, S, 1]⟩ w) (b : Fin B) (s : Fin S) (e : Fin E) :
    Host.gather (rowsDims N E B S wf) x idx (ix3 b s e)
      = x (ix2 ⟨min (idx (ix3 b s (0 : Fin 1))).toInt.toNat (N - 1), by omega⟩ e) := by
  unfold Host.gather
  congr 1
  funext a
  refine Fin.ext ?_
  show (rowsDims N E B S wf).start (ix3 b s e) idx a + (rowsDims N E B S wf).batchCoord (ix3 b s e) a
      + (rowsDims N E B S wf).offCoord (ix3 b s e) a = _
  rw [GatherDims.batchCoord_eq_zero _ _ _ List.not_mem_nil]
  have ha : a = (0 : Fin 2) ∨ a = (1 : Fin 2) := by
    rcases a with ⟨v, hv⟩
    have hv2 : v < 2 := hv
    rcases (by omega : v = 0 ∨ v = 1) with rfl | rfl
    · exact Or.inl rfl
    · exact Or.inr rfl
  rcases ha with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E B S wf).startIndexMap from List.mem_singleton.mpr rfl)]
    have hsi : (rowsDims N E B S wf).siIdx (ix3 b s e) ⟨List.idxOf (0 : Fin 2) (rowsDims N E B S wf).startIndexMap,
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi]
    rfl
  · have h10 : (1 : Fin 2) ≠ 0 := by decide
    unfold GatherDims.start
    rw [dif_neg (show (1 : Fin 2) ∉ (rowsDims N E B S wf).startIndexMap from
      fun h => h10 (List.mem_singleton.mp h))]
    simp only [Nat.zero_add]
    unfold GatherDims.offCoord
    rw [dif_pos ((GatherDims.mem_sKept _ _).mpr ⟨fun h => h10 (List.mem_singleton.mp h), List.not_mem_nil⟩)]
    rfl

end Cert.Proof.LibGatherRows3

end
-- ==== Proof.RefValue.lean ====
/-
  The reference's result where every word names a row. No word is below zero, so no word is moved; every start index
  lies in 0 … 999999, so every start index is accepted; the result at (b, s, e) is then the gathered row's entry e,
  which is entry e of the row the word at (b, s) names.
-/
import proofs.«206924_g7387343749612_cont_9to1c4b_603_14_alg».proof.Proof.RefOut
import proofs.«206924_g7387343749612_cont_9to1c4b_603_14_alg».proof.Proof.Spec
import proofs.«206924_g7387343749612_cont_9to1c4b_603_14_alg».proof.Proof.LibGatherRows3
import Idealize.ShloMosaic.Lib.ValueIdx
import Idealize.ShloMosaic.Lib.Affine
import Idealize.ShloMosaic.Lib.Pipeline.Value
import Idealize.ShloMosaic.PureOps.Reduce

noncomputable section

namespace Cert.RefSide

open Cert.ReferenceIdeal Idealize.ShloMosaic Idealize.ShloMosaic.ValueIdx

variable {F : FTy → Type} [FloatOps F] [Cert.ReferenceIdeal.Facts]
open Cert.ReferenceIdeal.Facts₀ Cert.ReferenceIdeal.Facts

/-- A left fold by `and` from 1 over words that are all 1 is 1. -/
theorem foldl_andi_all_one {ι : Type} (f : ι → BitVec 1) :
    ∀ (l : List ι) (init : BitVec 1), init = 1#1 → (∀ n ∈ l, f n = 1#1) →
      l.foldl (fun r n => IntOp.andi r (f n)) init = 1#1
  | [], _, hi, _ => hi
  | a :: l, init, hi, hl => by
    rw [List.foldl_cons]
    refine foldl_andi_all_one f l _ ?_ (fun n hn => hl n (List.mem_cons_of_mem _ hn))
    exact IntOp.andi_eq_one.2 ⟨hi, hl a List.mem_cons_self⟩

/-- A word that is not below zero is not moved. -/
theorem wrapped_apply (idx : IVec S4096x200 32) (hok : Cert.Spec.IdxOK idx) (b : Fin 4096) (s : Fin 200) :
    wrapped idx (ix2 b s) = idx (ix2 b s) := by
  have hc : IntOp.cmpi .slt (idx (ix2 b s)) 0#32 = 0#1 := by
    refine eq_zero_of_ne_one fun h1 => ?_
    have h0 := (hok (ix2 b s)).1
    rw [IntOp.cmpi_slt] at h1
    have hz : (0#32 : BitVec 32).toInt = 0 := by decide
    rw [hz] at h1
    omega
  show Scalar.select (IntOp.cmpi .slt (idx (ix2 b s)) 0#32) _ _ = _
  rw [hc, select_zero]

/-- The start index at (b, s, 0) is the word at (b, s). -/
theorem starts_apply (idx : IVec S4096x200 32) (hok : Cert.Spec.IdxOK idx) (b : Fin 4096) (s : Fin 200) (z : Fin 1) :
    starts idx (ix3 b s z) = idx (ix2 b s) := by
  unfold starts
  rw [broadcastInDim_apply _ _ _ (ix3 b s z) (ix2 b s) (fun a => match a with | ⟨0, _⟩ => rfl | ⟨1, _⟩ => rfl)]
  exact wrapped_apply idx hok b s

/-- Every start index lies in 0 … 999999. -/
theorem inRange_apply (idx : IVec S4096x200 32) (hok : Cert.Spec.IdxOK idx) (b : Fin 4096) (s : Fin 200) (z : Fin 1) :
    inRange idx (ix3 b s z) = 1#1 := by
  show IntOp.andi (IntOp.cmpi .sge (starts idx (ix3 b s z)) 0#32) (IntOp.cmpi .sle (starts idx (ix3 b s z)) 999999#32) = 1#1
  rw [starts_apply idx hok b s z, IntOp.andi_eq_one, IntOp.cmpi_sge, IntOp.cmpi_sle]
  have hz : (0#32 : BitVec 32).toInt = 0 := by decide
  have hm : (999999#32 : BitVec 32).toInt = 999999 := by decide
  rw [hz, hm]
  exact hok (ix2 b s)

/-- Every start index is accepted. -/
theorem mask_apply (idx : IVec S4096x200 32) (hok : Cert.Spec.IdxOK idx) (b : Fin 4096) (s : Fin 200) :
    mask idx (ix2 b s) = 1#1 := by
  unfold mask
  rw [Host.reduce_eq_foldl]
  refine foldl_andi_all_one (inRange idx) _ _ rfl fun i _ => ?_
  rw [eq_ix3 i]
  exact inRange_apply idx hok _ _ _

/-- THE RESULT AT (b, s, e): entry e of the row the word at (b, s) names. -/
theorem out_apply (idx : IVec S4096x200 32) (tab : FVec F S1000000x100 .f32) (hok : Cert.Spec.IdxOK idx)
    (b : Fin 4096) (s : Fin 200) (e : Fin 100) :
    out idx tab (ix3 b s e) = tab (ix2 (Cert.Spec.rowIx (idx (ix2 b s))) e) := by
  unfold out
  rw [select_apply,
    broadcastInDim_apply _ _ (mask idx) (ix3 b s e) (ix2 b s) (fun a => match a with | ⟨0, _⟩ => rfl | ⟨1, _⟩ => rfl),
    mask_apply idx hok b s, select_one]
  refine (Cert.Proof.LibGatherRows3.gather_rows_apply (N := 1000000) (E := 100) (B := 4096) (S := 200) (by decide)
    gather_S1000000x100_S4096x200x1_S4096x200x100_2_0_n_n_0_2_1100_wf tab (starts idx) b s e).trans ?_
  refine congrArg tab (congrArg (fun r : Fin 1000000 => (ix2 r e : S1000000x100.Idx)) (Fin.ext ?_))
  show min (starts idx (ix3 b s 0)).toInt.toNat (1000000 - 1) = _
  rw [starts_apply idx hok b s 0]
  rfl

/-- Where every word names a row the reference's result is the lookup. -/
theorem out_eq_G (idx : IVec S4096x200 32) (tab : FVec F S1000000x100 .f32) (hok : Cert.Spec.IdxOK idx) :
    out idx tab = Cert.Spec.G idx tab := by
  funext i
  obtain ⟨b, s, e, rfl⟩ : ∃ (b : Fin 4096) (s : Fin 200) (e : Fin 100), i = ix3 b s e := ⟨i 0, i 1, i 2, eq_ix3 i⟩
  exact (out_apply idx tab hok b s e).trans (Cert.Spec.G_apply idx tab b s e).symm

end Cert.RefSide

end
-- ==== Proof.RefRun.lean ====
/-
  The reference's run and its value. The reference looks each word of the index array up in the table: a word below
  zero is first moved up by the number of rows, the word is then checked to name a row, the rows are gathered, and
  where the check fails the result is a constant. Where every word already names a row, no word moves, every check
  passes, and the result at (b, s, e) is entry e of the row the word at (b, s) names. The precondition says exactly
  that every word names a row.
-/
import proofs.«206924_g7387343749612_cont_9to1c4b_603_14_alg».proof.Defs
import proofs.«206924_g7387343749612_cont_9to1c4b_603_14_alg».proof.Proof.Gen.ReferenceIdeal
import proofs.«206924_g7387343749612_cont_9to1c4b_603_14_alg».proof.Proof.Gen.Pre_input_domain
import proofs.«206924_g7387343749612_cont_9to1c4b_603_14_alg».proof.Proof.Spec
import proofs.«206924_g7387343749612_cont_9to1c4b_603_14_alg».proof.Proof.PreIdx
import proofs.«206924_g7387343749612_cont_9to1c4b_603_14_alg».proof.Proof.RefOps
import proofs.«206924_g7387343749612_cont_9to1c4b_603_14_alg».proof.Proof.RefValue

noncomputable section

namespace Cert.RefSide
open Idealize.ShloMosaic Idealize.SL.Sem

/-- the precondition gives the index range -/
theorem idxOK_of_pre (m : (ℓ : Loc Cert.ReferenceIdeal.nD Cert.ReferenceIdeal.τ Cert.ReferenceIdeal.sig) → Buf (Elt Ideal) ℓ)
    (h : Cert.Pre_ReferenceIdeal (hPre_input_domain := Cert.Pre_input_domain.Gen.facts) m) (c : Dev Cert.ReferenceIdeal.nD) :
    Cert.Spec.IdxOK (m ((c.tc : Thread Cert.ReferenceIdeal.nD Cert.ReferenceIdeal.τ).loc Cert.ReferenceIdeal.main_arg0)) :=
  Cert.PreIdx.idxOK_of_fn _ _ (h c)

/-- Where every word names a row: every weakly fair execution of the reference terminates with the result buffer at
    the lookup of the two arguments' launch contents, and the arguments unchanged. -/
theorem run (m : (ℓ : Loc Cert.ReferenceIdeal.nD Cert.ReferenceIdeal.τ Cert.ReferenceIdeal.sig) → Buf (Elt Ideal) ℓ) (g : Dev Cert.ReferenceIdeal.nD → PrngReg)
    (hok : ∀ c : Dev Cert.ReferenceIdeal.nD, Cert.Spec.IdxOK (m ((c.tc : Thread Cert.ReferenceIdeal.nD Cert.ReferenceIdeal.τ).loc Cert.ReferenceIdeal.main_arg0))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0)
          = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run (Cert.ReferenceIdeal.defs (F := Ideal)) _ _).mono
    (fun _ h c => ⟨(h c).1.trans (out_eq_G _ _ (hok c)), (h c).2.1, (h c).2.2⟩)
    (run_out (F := Ideal) m g)

end Cert.RefSide

end
-- ==== Proof.KBCommon.lean ====
/-
  The launch set-up shared by the modules that prove the program's run: the program as a SparseCore configuration, the
  proof's resource algebra (the launch handshakes' rounds, the table-padding pipeline's rounds, the transfers' counters),
  the arrays' places in memory, how the flat index array and the output array divide among the 32 vector subcores
  (subcore s of core c works on rows [25600·(2s+c), 25600·(2s+c+1)), in 64 chunks of 400 rows), and what each handshake
  of the one SparseCore call carries.
-/
import proofs.«206924_g7387343749612_cont_9to1c4b_603_14_alg».proof.Defs
import proofs.«206924_g7387343749612_cont_9to1c4b_603_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206924_g7387343749612_cont_9to1c4b_603_14_alg».proof.Proof.Gen.Kernel
import proofs.«206924_g7387343749612_cont_9to1c4b_603_14_alg».proof.Proof.Gen.Kernel.Skeleton
import proofs.«206924_g7387343749612_cont_9to1c4b_603_14_alg».proof.Proof.Gen.Kernel.Launch
import proofs.«206924_g7387343749612_cont_9to1c4b_603_14_alg».proof.Proof.Gen.Kernel.Points

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The padding pipeline's staging cells' rounds. -/
abbrev UP : Type := URounds (GSem nD τ sig) Unit
abbrev UU : Type := UP × (UH × Counters)

local notation "𝕄" => MT nD τ sig (HIx 1) (Elt F) ℕ UU ℕ

abbrev EP : Emb UP (MT nD τ sig (HIx 1) (Elt F) ℕ UU ℕ) := embL
abbrev EHC : Emb (UH × Counters) (MT nD τ sig (HIx 1) (Elt F) ℕ UU ℕ) := embR
abbrev EH : Emb UH (MT nD τ sig (HIx 1) (Elt F) ℕ UU ℕ) := (Emb.inl : Emb UH (UH × Counters)).trans EHC

/-! ## The launch memory and the buffers -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

/-- The flat index array, the padded table and the output as a vector subcore names them. -/
abbrev iV : Memref sig .scVector .hbm S819200 .i32 := Memref.whole main_v0_scv
abbrev tV : Memref sig .scVector .hbm S1000000x128 .f32 := Memref.whole main_v2_scv
abbrev oV : Memref sig .scVector .hbm S819200x128 .f32 := Memref.whole main_v3_scv

/-! ## The chunks: 2048 blocks of 400 rows -/

theorem idiv : 2048 ∣ S819200.size 0 := ⟨400, rfl⟩
theorem odiv : 2048 ∣ S819200x128.size 0 := ⟨400, rfl⟩
/-- Chunk `n` of the flat index array: entries [400n, 400n + 400). -/
abbrev iChunk (n : Fin 2048) : Rect S819200 := Rect.part (s := S819200) (a₀ := 0) idiv n
/-- Chunk `n` of the output: rows [400n, 400n + 400), all 128 columns. -/
abbrev oChunk (n : Fin 2048) : Rect S819200x128 := Rect.part (s := S819200x128) (a₀ := 0) odiv n
abbrev oChunkSet (n : Fin 2048) : Finset S819200x128.Idx := ((oV).view.slice (oChunk n)).set

/-- The chunk that vector subcore `i` of core `c` handles at step `g` (of 64): number `64·(2i + c) + g`. -/
def cn (c : Fin 2) (i : Fin 16) (g : Fin 64) : Fin 2048 := ⟨64 * (2 * i.val + c.val) + g.val, by omega⟩

/-! ## What the arrays hold -/

/-- The flat index array: the index array's entries in row-major order. -/
abbrev flatIdx (d : Dev nD) : Buf (Elt F) (v0Loc d) :=
  (shapeCast S819200 (m (a0Loc d) : IVec S4096x200 32) shapeCasts_S4096x200_S819200 : IVec S819200 32)

/-- The padded table is right: its first 100 columns are the table's. -/
def PadOK (d : Dev nD) (fp : Buf (Elt F) (v2Loc d)) : Prop :=
  ∀ (r : Fin 1000000) (e : Fin 100), (fp : S1000000x128.Idx → Elt F .f32) (ValueIdx.ix2 r (Fin.castLE (by decide) e))
    = (m (a1Loc d) : S1000000x100.Idx → Elt F .f32) (ValueIdx.ix2 r e)

/-- Row `r` of the output is right: its first 100 columns are the table's row that flat index `r` names. -/
def RowOK (d : Dev nD) (f : Buf (Elt F) (v3Loc d)) (r : Fin 819200) : Prop :=
  ∀ e : Fin 100, (f : S819200x128.Idx → Elt F .f32) (ValueIdx.ix2 r (Fin.castLE (by decide) e))
    = (m (a1Loc d) : S1000000x100.Idx → Elt F .f32)
        (ValueIdx.ix2 (Cert.Spec.rowIx ((flatIdx m d : S819200.Idx → BitVec 32) (ValueIdx.ix1 r))) e)

/-- Chunk `n` of the output is right. -/
def ChunkOK (d : Dev nD) (f : Buf (Elt F) (v3Loc d)) (n : Fin 2048) : Prop :=
  ∀ k : Fin 400, RowOK m d f ⟨400 * n.val + k.val, by omega⟩

/-- Every word of the index array names a row of the table. -/
def PreOK : Prop := ∀ d : Dev nD, Cert.Spec.IdxOK (m (a0Loc d) : S4096x200.Idx → BitVec 32)

/-! ## Shares: the index array and the padded table are read by every vector subcore -/

/-- Core `c`'s share, and within it subcore `i`'s. -/
abbrev coreShare (c : Fin 2) : PosShare TreeShare := Transfers.shareTok fullShare 2 c
abbrev tileShare (c : Fin 2) (i : Fin 16) : PosShare TreeShare := Transfers.shareTok (coreShare c) 16 i

variable [FloatOps F]

/-! ## What the handshakes carry -/

/-- What a vector subcore is handed: read shares of the flat index array and of a right padded table, and its 64
    chunks of the output. -/
abbrev goA (d : Dev nD) (c : Fin 2) (i : Fin 16) : sProp 𝕄 :=
  iprop(∃ fp : Buf (Elt F) (v2Loc d), ⌜PadOK m d fp⌝ ∗ (v0Loc d ↦{tileShare c i} flatIdx m d) ∗ (v2Loc d ↦{tileShare c i} fp)
    ∗ bigSep Finset.univ fun g : Fin 64 => v3Loc d ↦[oChunkSet (cn c i g)]{fullShare} m (v3Loc d))
/-- What it hands back: its 64 chunks of the output, each right. -/
abbrev tdA (d : Dev nD) (c : Fin 2) (i : Fin 16) : sProp 𝕄 :=
  iprop(bigSep Finset.univ fun g : Fin 64 => iprop(∃ f : Buf (Elt F) (v3Loc d), ⌜ChunkOK m d f (cn c i g)⌝ ∗ v3Loc d ↦[oChunkSet (cn c i g)]{fullShare} f))

def P : (K (F := F)).Pay (nD := nD) (Val := Elt F) (Name := ℕ) (U := UU) where
  st := fun q d c => match q with | 0 => bigSep Finset.univ fun i : Fin 16 => goA m d (Fin.cast nCore_zero c) i
  dn := fun q d c => match q with | 0 => bigSep Finset.univ fun i : Fin 16 => tdA m d (Fin.cast nCore_zero c) i
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goA m d (Fin.cast nCore_zero c) i))
  dn q d c := match q with
    | 0 => (inferInstance : BI.Storable (upEmb : UEmb _ 𝕄) (bigSep Finset.univ fun i : Fin 16 => tdA m d (Fin.cast nCore_zero c) i))
  go q d c i := match q with
    | 0 => (inferInstance : BI.Storable (upEmb : UEmb _ 𝕄) (goA m d (Fin.cast nCore_zero c) (Fin.cast nSub_zero i)))
  td q d c i := match q with
    | 0 => (inferInstance : BI.Storable (upEmb : UEmb _ 𝕄) (tdA m d (Fin.cast nCore_zero c) (Fin.cast nSub_zero i)))

end Cert.Kernel.Hand

end
-- ==== Proof.KBSplit.lean ====
/-
  How the arrays divide among the vector subcores and come back together. The output's 819200 rows are 2048 chunks of
  400 rows, pairwise disjoint and covering it; numbering them by (core, subcore, step) is a bijection with 0 … 2047. Held
  chunk by chunk, each chunk right, the output is held whole with every row right. A read share of an array divides into
  one per core and then one per subcore.
-/
import proofs.«206924_g7387343749612_cont_9to1c4b_603_14_alg».proof.Proof.KBCommon

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- (core, subcore, step) ↦ chunk number is a bijection onto 0 … 2047. -/
def chunkEquiv : Fin 2 × Fin 16 × Fin 64 ≃ Fin 2048 where
  toFun t := cn t.1 t.2.1 t.2.2
  invFun n := (⟨(n.val / 64) % 2, by omega⟩, ⟨n.val / 128, by omega⟩, ⟨n.val % 64, by omega⟩)
  left_inv := by
    rintro ⟨c, i, g⟩
    have hc := c.isLt; have hi := i.isLt; have hg := g.isLt
    refine Prod.ext (Fin.ext ?_) (Prod.ext (Fin.ext ?_) (Fin.ext ?_))
    · show (64 * (2 * i.val + c.val) + g.val) / 64 % 2 = c.val; omega
    · show (64 * (2 * i.val + c.val) + g.val) / 128 = i.val; omega
    · show (64 * (2 * i.val + c.val) + g.val) % 64 = g.val; omega
  right_inv := by
    intro n
    refine Fin.ext ?_
    show 64 * (2 * (n.val / 128) + n.val / 64 % 2) + n.val % 64 = n.val
    omega

theorem chunkEquiv_apply (c : Fin 2) (i : Fin 16) (g : Fin 64) : chunkEquiv (c, i, g) = cn c i g := rfl

theorem oChunkSet_eq (n : Fin 2048) : oChunkSet n = (oChunk n).set := by
  show ((View.whole (main_v3_scv : Ref sig .scVector)).slice (oChunk n)).set = _
  rw [View.set_slice]; exact Finset.map_refl

theorem oChunks_disjoint : ∀ i ∈ (Finset.univ : Finset (Fin 2048)), ∀ j ∈ (Finset.univ : Finset (Fin 2048)), i ≠ j → Disjoint (oChunkSet i) (oChunkSet j) :=
  fun i _ j _ h => by rw [oChunkSet_eq, oChunkSet_eq]; exact Rect.part_disjoint odiv h

theorem oChunks_cover : (Finset.univ : Finset (Fin 2048)).biUnion oChunkSet = Finset.univ :=
  (Finset.biUnion_congr rfl fun i _ => oChunkSet_eq i).trans (Rect.biUnion_part odiv)

/-- Row `400n + k`, any column, lies in chunk `n`. -/
theorem mem_oChunkSet (n : Fin 2048) (k : Fin 400) (col : Fin 128) (h : 400 * n.val + k.val < 819200) :
    (ValueIdx.ix2 (⟨400 * n.val + k.val, h⟩ : Fin 819200) col : S819200x128.Idx) ∈ oChunkSet n := by
  rw [oChunkSet_eq]
  refine Rect.mem_set_unit.mpr fun a => ?_
  match a with
  | ⟨0, _⟩ =>
    show n.val * (819200 / 2048) ≤ 400 * n.val + k.val ∧ 400 * n.val + k.val < n.val * (819200 / 2048) + 819200 / 2048
    have := k.isLt; omega
  | ⟨1, _⟩ =>
    show 0 * 128 ≤ col.val ∧ col.val < 0 * 128 + 128
    have := col.isLt; omega

/-- The output held whole is its 2048 chunks held, grouped by core, subcore and step. -/
theorem v3_chunks (d : Dev nD) (f : Buf (Elt F) (v3Loc d)) :
    (v3Loc d ↦{fullShare} f : sProp 𝕄)
      = bigSep Finset.univ fun c : Fin 2 => bigSep Finset.univ fun i : Fin 16 => bigSep Finset.univ fun g : Fin 64 =>
          v3Loc d ↦[oChunkSet (cn c i g)]{fullShare} f := by
  have h1 : (v3Loc d ↦{fullShare} f : sProp 𝕄) = bigSep Finset.univ fun n : Fin 2048 => v3Loc d ↦[oChunkSet n]{fullShare} f := by
    rw [← pointsTo_biUnion Finset.univ (ℓ := v3Loc d) oChunkSet oChunks_disjoint, oChunks_cover]; try rfl
  rw [h1, bigSep_univ_equiv chunkEquiv, bigSep_univ_prod]
  refine bigSep_congr fun c _ => ?_
  rw [bigSep_univ_prod]
  rfl

/-- The chunks held, each right, are the output held whole with every chunk right. -/
theorem v3_join (m : (ℓ : Loc nD τ sig) → Buf (Elt F) ℓ) (d : Dev nD) :
    (bigSep Finset.univ fun c : Fin 2 => bigSep Finset.univ fun i : Fin 16 => bigSep Finset.univ fun g : Fin 64 =>
        iprop(∃ f : Buf (Elt F) (v3Loc d), ⌜ChunkOK m d f (cn c i g)⌝ ∗ v3Loc d ↦[oChunkSet (cn c i g)]{fullShare} f))
      ⊢ (iprop(∃ f : Buf (Elt F) (v3Loc d), ⌜∀ n, ChunkOK m d f n⌝ ∗ v3Loc d ↦{fullShare} f) : sProp 𝕄) := by
  have h1 : (bigSep Finset.univ fun c : Fin 2 => bigSep Finset.univ fun i : Fin 16 => bigSep Finset.univ fun g : Fin 64 =>
        (iprop(∃ f : Buf (Elt F) (v3Loc d), ⌜ChunkOK m d f (cn c i g)⌝ ∗ v3Loc d ↦[oChunkSet (cn c i g)]{fullShare} f) : sProp 𝕄))
      = bigSep Finset.univ fun n : Fin 2048 => iprop(∃ f : Buf (Elt F) (v3Loc d), ⌜ChunkOK m d f n⌝ ∗ v3Loc d ↦[oChunkSet n]{fullShare} f) := by
    rw [bigSep_univ_equiv chunkEquiv (fun n : Fin 2048 => (iprop(∃ f : Buf (Elt F) (v3Loc d), ⌜ChunkOK m d f n⌝ ∗ v3Loc d ↦[oChunkSet n]{fullShare} f) : sProp 𝕄)),
      bigSep_univ_prod]
    refine bigSep_congr fun c _ => ?_
    rw [bigSep_univ_prod]
    rfl
  rw [h1]
  have : Nonempty (Buf (Elt F) (v3Loc d)) := ⟨m (v3Loc d)⟩
  refine (bigSep_exists_pi Finset.univ (fun (n : Fin 2048) (f : Buf (Elt F) (v3Loc d)) =>
    (iprop(⌜ChunkOK m d f n⌝ ∗ v3Loc d ↦[oChunkSet n]{fullShare} f) : sProp 𝕄))).trans ?_
  iintro ⟨%fs, H⟩
  ihave H' := (bigSep_pure_sep Finset.univ (fun n : Fin 2048 => ChunkOK m d (fs n) n) (fun n => (v3Loc d ↦[oChunkSet n]{fullShare} fs n : sProp 𝕄))) $$ H
  icases H' with ⟨%hok, H⟩
  ihave H'' := (pointsTo_biUnion_join (ℓ := v3Loc d) (q := fullShare) (Val := Elt F) Finset.univ oChunkSet fs (m (v3Loc d)) oChunks_disjoint) $$ H
  icases H'' with ⟨%g, %hg, Hg⟩
  rw [oChunks_cover]
  iexists g
  isplitr
  · ipureintro
    intro n k e
    have hlt : 400 * n.val + k.val < 819200 := by have := n.isLt; have := k.isLt; omega
    have := hok n (Finset.mem_univ n) k e
    rw [← this]
    exact hg n (Finset.mem_univ n) _ (mem_oChunkSet n k (Fin.castLE (by decide) e) hlt)
  · iexact Hg

/-- A share of an array divides into one per core and, within it, one per subcore (the rest is let go). -/
theorem shares_split {ℓ : Loc nD τ sig} (f : Buf (Elt F) ℓ) :
    (ℓ ↦{fullShare} f : sProp 𝕄) ⊢ bigSep Finset.univ fun c : Fin 2 => bigSep Finset.univ fun i : Fin 16 => ℓ ↦{tileShare c i} f := by
  refine (Transfers.pointsTo_toks_split (ℓ := ℓ) (S := Finset.univ) (f := f) fullShare 2).trans ?_
  refine sep_elim_right.trans ?_
  refine bigSep_mono fun c _ => ?_
  exact (Transfers.pointsTo_toks_split (ℓ := ℓ) (S := Finset.univ) (f := f) (coreShare c) 16).trans sep_elim_right

end Cert.Kernel.Hand

end
-- ==== Proof.KBValue.lean ====
/-
  The host operations around the kernels, read at an index: the flat index array is the index array in row-major order;
  the result is the output's first 100 columns, its 819200 rows regrouped as 4096 × 200. If every row of the output is
  right, the result is the lookup `Spec.G`.
-/
import proofs.«206924_g7387343749612_cont_9to1c4b_603_14_alg».proof.Proof.KBCommon
import Idealize.ShloMosaic.Lib.Pipeline.Value

noncomputable section

namespace Cert.Kernel.Hand

open Cert.Kernel Cert.Kernel.Gen
open Idealize.ShloMosaic Idealize.ShloMosaic.ValueIdx

variable {α : Type}

/-- Entry `200·b + s` of the flat array is entry (b, s) of the array. -/
theorem flat_apply (x : S4096x200.Idx → α) (b : Fin 4096) (s : Fin 200) (r : Fin 819200) (hr : r.val = 200 * b.val + s.val) :
    shapeCast S819200 x shapeCasts_S4096x200_S819200 (ix1 r) = x (ix2 b s) := by
  refine shapeCast_apply x _ (ix1 r) (ix2 b s) ?_
  rw [Shape.rowMajor_val_two, Shape.rowMajor_val_one]
  show b.val * 200 + s.val = r.val
  omega

/-- Entry (b, s, e) of the result is entry (200·b + s, e) of the output. -/
theorem result_apply (g : S819200x128.Idx → α) (b : Fin 4096) (s : Fin 200) (e : Fin 100) (r : Fin 819200) (hr : r.val = 200 * b.val + s.val) :
    shapeCast S4096x200x100 (extractStridedSlice S819200x100 ![0, 0] g slices_S819200x128_S819200x100_0_0) shapeCasts_S819200x100_S4096x200x100 (ix3 b s e)
      = g (ix2 r (Fin.castLE (by decide) e)) := by
  rw [shapeCast_apply _ _ (ix3 b s e) (ix2 r e) (by
    rw [Shape.rowMajor_val_two, Shape.rowMajor_val_three]
    show r.val * 100 + e.val = (b.val * 200 + s.val) * 100 + e.val
    rw [hr]; ring)]
  refine extractStridedSlice_apply _ g _ (ix2 r e) (ix2 r (Fin.castLE (by decide) e)) fun a => ?_
  match a with
  | ⟨0, _⟩ => show r.val = 0 + r.val; omega
  | ⟨1, _⟩ => show e.val = 0 + e.val; omega

/-- Every row of the output right: the result is the lookup. -/
theorem result_eq_G (idx : S4096x200.Idx → BitVec 32) (tab : S1000000x100.Idx → α) (g : S819200x128.Idx → α)
    (hg : ∀ (r : Fin 819200) (e : Fin 100), g (ix2 r (Fin.castLE (by decide) e))
      = tab (ix2 (Cert.Spec.rowIx (shapeCast S819200 idx shapeCasts_S4096x200_S819200 (ix1 r))) e)) :
    shapeCast S4096x200x100 (extractStridedSlice S819200x100 ![0, 0] g slices_S819200x128_S819200x100_0_0) shapeCasts_S819200x100_S4096x200x100
      = Cert.Spec.G idx tab := by
  funext j
  obtain ⟨b, s, e, rfl⟩ : ∃ (b : Fin 4096) (s : Fin 200) (e : Fin 100), j = ix3 b s e := ⟨j 0, j 1, j 2, eq_ix3 j⟩
  have hlt : 200 * b.val + s.val < 819200 := by have := b.isLt; have := s.isLt; omega
  rw [result_apply g b s e ⟨200 * b.val + s.val, hlt⟩ rfl, hg, flat_apply idx b s ⟨200 * b.val + s.val, hlt⟩ rfl, Cert.Spec.G_apply]

end Cert.Kernel.Hand

end
-- ==== Proof.KBTile.lean ====
/-
  The vector subcore's task: subcore s of core c copies, chunk by chunk (64 chunks of 400 rows), the rows of the padded
  table that its part of the flat index array names into its part of the output, double-buffered: while the rows of
  one chunk stream into one row scratch, the previous chunk's rows are written out from the other.
-/
import proofs.«206924_g7387343749612_cont_9to1c4b_603_14_alg».proof.Proof.KBCommon

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

variable [FloatOps F]

/-! ## The subcore's thread, its memrefs, its cells -/

section Tile

variable (m : (ℓ : Loc nD τ sig) → Buf (Elt F) ℓ) (d : Dev nD) (L : grid1.Coords)

abbrev VT (d : Dev nD) (L : grid1.Coords) : Thread nD τ := V d (cV L) (jV L)

abbrev s0V : Memref sig .scVector .vmem S400 .i32 := Memref.whole cc1_scratch0
abbrev s1V : Memref sig .scVector .vmem S400 .i32 := Memref.whole cc1_scratch1
abbrev s2V : Memref sig .scVector .vmem S400x128 .f32 := Memref.whole cc1_scratch2
abbrev s3V : Memref sig .scVector .vmem S400x128 .f32 := Memref.whole cc1_scratch3
/-- The whole padded table, as the gather's source names it. -/
abbrev tAllK : Memref sig .scVector .hbm S1000000x128 .f32 :=
  (tV).slice (Rect.unit (s := S1000000x128) ![0, 0] S1000000x128.size inb_S1000000x128_S1000000x128_0_0) (fun _ => rfl)

abbrev cell9 (d : Dev nD) (L : grid1.Coords) : GSem nD τ sig := (VT d L, .dma cc1_scratch4.sem)
abbrev cell10 (d : Dev nD) (L : grid1.Coords) : GSem nD τ sig := (VT d L, .dma cc1_scratch5.sem)
abbrev cellA (d : Dev nD) (L : grid1.Coords) : GSem nD τ sig := (VT d L, .dma cc1_scoped0.sem)
abbrev cellB (d : Dev nD) (L : grid1.Coords) : GSem nD τ sig := (VT d L, .dma cc1_scoped1.sem)
abbrev cellC (d : Dev nD) (L : grid1.Coords) : GSem nD τ sig := (VT d L, .dma cc1_scoped2.sem)
abbrev cellD (d : Dev nD) (L : grid1.Coords) : GSem nD τ sig := (VT d L, .dma cc1_scoped3.sem)
abbrev cellE (d : Dev nD) (L : grid1.Coords) : GSem nD τ sig := (VT d L, .dma cc1_scoped4.sem)

abbrev restCells (d : Dev nD) (L : grid1.Coords) : Finset (GSem nD τ sig) :=
  (((((((ownCells (VT d L)).erase (cell9 d L)).erase (cell10 d L)).erase (cellA d L)).erase (cellB d L)).erase (cellC d L)).erase (cellD d L)).erase (cellE d L)

omit [FloatOps F] in
theorem ownSems0_V :
    (ownSems0 (VT d L) : sProp 𝕄) = iprop(semVal (cell9 d L) 0 ∗ semVal (cell10 d L) 0 ∗ semVal (cellA d L) 0 ∗ semVal (cellB d L) 0 ∗ semVal (cellC d L) 0
      ∗ semVal (cellD d L) 0 ∗ semVal (cellE d L) 0 ∗ bigSep (restCells d L) fun g => semVal g 0) := by
  have hm : ∀ s : DmaSem sig, (SemLoc.dma s : SemLoc sig).isScoped .scVector = true →
      ((VT d L, SemLoc.dma s) : GSem nD τ sig) ∈ ownCells (VT d L) := fun s h => (mem_ownCells (g := (VT d L, SemLoc.dma s))).mpr ⟨rfl, h⟩
  have hne : ∀ s s' : DmaSem sig, s ≠ s' → ((VT d L, SemLoc.dma s) : GSem nD τ sig) ≠ (VT d L, SemLoc.dma s') :=
    fun s s' h e => h (by injection (Prod.mk.inj e).2)
  unfold SparseCore.Cfg.ownSems0
  rw [SparseCore.bigSep_erase' (hm cc1_scratch4.sem (by decide)),
    SparseCore.bigSep_erase' (Finset.mem_erase.mpr ⟨hne _ _ (by decide), hm cc1_scratch5.sem (by decide)⟩),
    SparseCore.bigSep_erase' (Finset.mem_erase.mpr ⟨hne _ _ (by decide), Finset.mem_erase.mpr ⟨hne _ _ (by decide), hm cc1_scoped0.sem (by decide)⟩⟩),
    SparseCore.bigSep_erase' (Finset.mem_erase.mpr ⟨hne _ _ (by decide), Finset.mem_erase.mpr ⟨hne _ _ (by decide), Finset.mem_erase.mpr ⟨hne _ _ (by decide),
      hm cc1_scoped1.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc1_scoped2.sem (by decide)⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), hm cc1_scoped3.sem (by decide)⟩⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), Finset.mem_erase.mpr ⟨hne _ _ (by decide),
      hm cc1_scoped4.sem (by decide)⟩⟩⟩⟩⟩⟩)]

abbrev restRefs (L : grid1.Coords) : Finset (DevRef τ sig) :=
  ((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)

omit [FloatOps F] in
/-- The four scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (restRefs L) fun b => iprop(∃ f, ((d, b) : Loc nD τ sig) ↦{fullShare} f)) := by
  have hm0 := SparseCore.Cfg.mem_ownRefs_of_owner (τ := τ) (p := Proc.scVector (cV L) (jV L)) (b := (Proc.scVector (cV L) (jV L)).devRef cc1_scratch0) rfl
  have hm1 := SparseCore.Cfg.mem_ownRefs_of_owner (τ := τ) (p := Proc.scVector (cV L) (jV L)) (b := (Proc.scVector (cV L) (jV L)).devRef cc1_scratch1) rfl
  have hm2 := SparseCore.Cfg.mem_ownRefs_of_owner (τ := τ) (p := Proc.scVector (cV L) (jV L)) (b := (Proc.scVector (cV L) (jV L)).devRef cc1_scratch2) rfl
  have hm3 := SparseCore.Cfg.mem_ownRefs_of_owner (τ := τ) (p := Proc.scVector (cV L) (jV L)) (b := (Proc.scVector (cV L) (jV L)).devRef cc1_scratch3) rfl
  have hne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide), Finset.mem_erase.mpr ⟨hne _ _ (by decide),
      hm3⟩⟩⟩)]

/-! ## The trips, the chunks a trip writes, and the condition -/

omit [FloatOps F] in
theorem klt (k : Fin k1_t1_loop.trips) : k.val < 32 := Nat.lt_of_lt_of_le k.isLt k1_t1_abs.2.1
omit [FloatOps F] in
theorem trips_eq : k1_t1_loop.trips = 32 := by decide

/-- The even and the odd chunk of trip `k`. -/
abbrev gE (k : Fin k1_t1_loop.trips) : Fin 64 := ⟨2 * k.val, by have := klt k; omega⟩
abbrev gO (k : Fin k1_t1_loop.trips) : Fin 64 := ⟨2 * k.val + 1, by have := klt k; omega⟩

omit [FloatOps F] in
/-- The guard "another pair follows" holds on every trip but the last. -/
theorem cond1_iff : ∀ k : Fin k1_t1_loop.trips, k1_cond1 k = 1#1 ↔ k.val < 31 := by decide +kernel

abbrev oRect3 (L : grid1.Coords) (k : Fin k1_t1_loop.trips) : Rect S819200x128 :=
  Rect.unit (s := S819200x128) (k1_off3 L k) S400x128.size (k1_off3_inb L k)
abbrev oRect5 (L : grid1.Coords) (k : Fin k1_t1_loop.trips) : Rect S819200x128 :=
  Rect.unit (s := S819200x128) (k1_off5 L k) S400x128.size (k1_off5_inb L k)
/-- The output chunks of trip `k`, as the task slices them. -/
abbrev oSl3 (L : grid1.Coords) (k : Fin k1_t1_loop.trips) : Memref sig .scVector .hbm S400x128 .f32 := (oV).slice (oRect3 L k) (fun _ => rfl)
abbrev oSl5 (L : grid1.Coords) (k : Fin k1_t1_loop.trips) : Memref sig .scVector .hbm S400x128 .f32 := (oV).slice (oRect5 L k) (fun _ => rfl)

omit [FloatOps F] in
theorem oRect3_eq (k : Fin k1_t1_loop.trips) : oRect3 L k = oChunk (cn (cL L) (jL L) (gE k)) := by
  unfold oRect3 oChunk Rect.part Rect.block
  congr 1 <;> funext a
  · rw [k1_off3_eq]
    match a with
    | 0 => simp [Shape.partIx, Shape.partSize, cn]; omega
    | 1 => simp [Shape.partIx, Shape.partSize]
  · match a with
    | 0 => simp [Shape.partSize]
    | 1 => simp [Shape.partSize]
omit [FloatOps F] in
theorem oRect5_eq (k : Fin k1_t1_loop.trips) : oRect5 L k = oChunk (cn (cL L) (jL L) (gO k)) := by
  unfold oRect5 oChunk Rect.part Rect.block
  congr 1 <;> funext a
  · rw [k1_off5_eq]
    match a with
    | 0 => simp [Shape.partIx, Shape.partSize, cn]; omega
    | 1 => simp [Shape.partIx, Shape.partSize]
  · match a with
    | 0 => simp [Shape.partSize]
    | 1 => simp [Shape.partSize]

omit [FloatOps F] in
theorem set_oSl3 (k : Fin k1_t1_loop.trips) : (oSl3 L k).view.set = oChunkSet (cn (cL L) (jL L) (gE k)) := by
  show ((oV).view.slice (oRect3 L k)).set = ((oV).view.slice (oChunk (cn (cL L) (jL L) (gE k)))).set
  rw [oRect3_eq]
omit [FloatOps F] in
theorem set_oSl5 (k : Fin k1_t1_loop.trips) : (oSl5 L k).view.set = oChunkSet (cn (cL L) (jL L) (gO k)) := by
  show ((oV).view.slice (oRect5 L k)).set = ((oV).view.slice (oChunk (cn (cL L) (jL L) (gO k)))).set
  rw [oRect5_eq]

/-! ## The output chunks: done below the trip, untouched from it on -/

def DoneC (g : Fin 64) : sProp 𝕄 :=
  iprop(∃ f : Buf (Elt F) (v3Loc d), ⌜ChunkOK m d f (cn (cL L) (jL L) g)⌝ ∗ v3Loc d ↦[oChunkSet (cn (cL L) (jL L) g)]{fullShare} f)
def TodoC (g : Fin 64) : sProp 𝕄 := v3Loc d ↦[oChunkSet (cn (cL L) (jL L) g)]{fullShare} m (v3Loc d)
def OutC (k : ℕ) (g : Fin 64) : sProp 𝕄 := if g.val / 2 < k then DoneC m d L g else TodoC m d L g
def Out (k : ℕ) : sProp 𝕄 := bigSep Finset.univ (OutC m d L k)
abbrev OutRest (k : Fin k1_t1_loop.trips) : sProp 𝕄 := bigSep ((Finset.univ.erase (gE k)).erase (gO k)) (OutC m d L k.val)

theorem gO_mem (k : Fin k1_t1_loop.trips) : gO k ∈ (Finset.univ : Finset (Fin 64)).erase (gE k) :=
  Finset.mem_erase.mpr ⟨fun e => by have := congrArg Fin.val e; simp at this, Finset.mem_univ _⟩

theorem Out_split (k : Fin k1_t1_loop.trips) :
    Out m d L k.val = iprop(TodoC m d L (gE k) ∗ TodoC m d L (gO k) ∗ OutRest m d L k) := by
  unfold Out
  rw [BI.bigSep_univ_split (gE k), SparseCore.bigSep_erase' (gO_mem k)]
  have e1 : OutC m d L k.val (gE k) = TodoC m d L (gE k) := if_neg (by show ¬ (2 * k.val) / 2 < k.val; omega)
  have e2 : OutC m d L k.val (gO k) = TodoC m d L (gO k) := if_neg (by show ¬ (2 * k.val + 1) / 2 < k.val; omega)
  rw [e1, e2]; rfl

theorem Out_join (k : Fin k1_t1_loop.trips) :
    iprop(DoneC m d L (gE k) ∗ DoneC m d L (gO k) ∗ OutRest m d L k) = Out m d L (k.val + 1) := by
  unfold Out
  rw [BI.bigSep_univ_split (gE k), SparseCore.bigSep_erase' (gO_mem k)]
  have e1 : OutC m d L (k.val + 1) (gE k) = DoneC m d L (gE k) := if_pos (by show (2 * k.val) / 2 < k.val + 1; omega)
  have e2 : OutC m d L (k.val + 1) (gO k) = DoneC m d L (gO k) := if_pos (by show (2 * k.val + 1) / 2 < k.val + 1; omega)
  rw [e1, e2]
  congr 2
  refine bigSep_congr fun g hg => ?_
  have h1 : g ≠ gO k := (Finset.mem_erase.mp hg).1
  have h2 : g ≠ gE k := (Finset.mem_erase.mp (Finset.mem_erase.mp hg).2).1
  have h1' : g.val ≠ 2 * k.val + 1 := fun e => h1 (Fin.ext e)
  have h2' : g.val ≠ 2 * k.val := fun e => h2 (Fin.ext e)
  unfold OutC
  by_cases h : g.val / 2 < k.val
  · rw [if_pos h, if_pos (by omega)]
  · rw [if_neg h, if_neg (by omega)]

theorem Out_zero : Out m d L 0 = bigSep Finset.univ fun g : Fin 64 => v3Loc d ↦[oChunkSet (cn (cL L) (jL L) g)]{fullShare} m (v3Loc d) :=
  bigSep_congr fun g _ => if_neg (Nat.not_lt_zero _)
theorem Out_last : Out m d L 32 = tdA m d (cL L) (jL L) :=
  bigSep_congr fun g _ => if_pos (by have := g.isLt; omega)

/-! ## What the scratch buffers hold -/

/-- Row `r` of chunk `n`, as a row of the flat index array and of the output. -/
def rowOf (n : Fin 2048) (r : Fin 400) : Fin 819200 := ⟨400 * n.val + r.val, by have := n.isLt; have := r.isLt; omega⟩

/-- An index scratch holds chunk `n`'s words. -/
def IdxAt (n : Fin 2048) (fo : S400.Idx → BitVec 32) : Prop :=
  ∀ r : Fin 400, fo (ValueIdx.ix1 r) = (flatIdx m d : S819200.Idx → BitVec 32) (ValueIdx.ix1 (rowOf n r))

/-- A row scratch holds, in columns 0..99, the table's rows that chunk `n`'s words name. -/
def RowsOK (n : Fin 2048) (f : S400x128.Idx → Elt F .f32) : Prop :=
  ∀ (r : Fin 400) (e : Fin 100), f (ValueIdx.ix2 r (Fin.castLE (by decide) e))
    = (m (a1Loc d) : S1000000x100.Idx → Elt F .f32)
        (ValueIdx.ix2 (Cert.Spec.rowIx ((flatIdx m d : S819200.Idx → BitVec 32) (ValueIdx.ix1 (rowOf n r)))) e)

omit [FloatOps F] in
theorem pts_set {ℓ : Loc nD τ sig} {q : PosShare TreeShare} (f : Buf (Elt F) ℓ) {S : Finset (Idx ℓ)} (hS : S = Finset.univ) :
    (ℓ ↦{q} f : sProp 𝕄) = ℓ ↦[S]{q} f := by subst hS; rfl

omit [FloatOps F] in
/-- What a chunk's copy lands in an index scratch: the chunk's words. -/
theorem idx_land (n : Fin 2048) (off : Fin 1 → Nat) (hoff : ∀ a, off a + S400.size a ≤ S819200.size a) (hoff0 : off 0 = 400 * n.val)
    (pay : S400.Idx → Elt F .i32)
    (hpay : pay = ReadAs.same.apply (((iV).slice (Rect.unit (s := S819200) off S400.size hoff) (fun _ => rfl)).view.read (Elt F) (flatIdx m d))) :
    IdxAt m d n pay := by
  subst hpay
  intro r
  show ((iV).slice (Rect.unit (s := S819200) off S400.size hoff) (fun _ => rfl)).view.read (Elt F) (flatIdx m d) (ValueIdx.ix1 r) = _
  rw [View.read_apply]
  refine (cast_eq _ _).trans ?_
  congr 1
  funext a
  match a with
  | 0 => apply Fin.ext; show off 0 + 1 * r.val = 400 * n.val + r.val; omega

omit [FloatOps F] in
/-- Every word of the flat index array is below the table's row count. -/
theorem idx_in_range (hpre : PreOK m) (n : Fin 2048) (fo : S400.Idx → BitVec 32) (h : IdxAt m d n fo) :
    ∀ x, (fo x).toNat < 1000000 := by
  intro x
  have ex : x = ValueIdx.ix1 (x 0) := by funext a; match a with | 0 => rfl
  have e : fo x = (flatIdx m d : S819200.Idx → BitVec 32) (ValueIdx.ix1 (rowOf n (x 0))) := (congrArg fo ex).trans (h (x 0))
  rw [e]
  unfold flatIdx shapeCast
  exact Cert.Spec.toNat_lt_of_ok (hpre d _).1 (hpre d _).2

omit [FloatOps F] in
theorem rowsOK_congr (n : Fin 2048) {f g : S400x128.Idx → Elt F .f32} (h : ∀ x, f x = g x) (hg : RowsOK m d n g) : RowsOK m d n f :=
  fun r e => (h _).trans (hg r e)

omit [FloatOps F] in
theorem tAllK_read (fp : Buf (Elt F) (v2Loc d)) (y : S1000000x128.Idx) :
    (tAllK).view.read (Elt F) fp y = (fp : S1000000x128.Idx → Elt F .f32) y := by
  rw [View.read_apply]
  refine (cast_eq _ _).trans ?_
  congr 1
  funext a
  match a with
  | 0 => apply Fin.ext; show 0 + 1 * (y 0).val = (y 0).val; omega
  | 1 => apply Fin.ext; show 0 + 1 * (y 1).val = (y 1).val; omega

omit [FloatOps F] in
/-- The gather's payload at a chunk's words is the chunk's table rows. -/
theorem rowsOK_gather (fp : Buf (Elt F) (v2Loc d)) (hpre : PreOK m) (hpad : PadOK m d fp) (n : Fin 2048) (fo : S400.Idx → Elt F .i32) (h : IdxAt m d n fo)
    (hin : ∀ x, (fo x).toNat < S1000000x128.size gathers_S1000000x128_S400x128.axis) :
    RowsOK m d n (SparseCore.gatherPayload gathers_S1000000x128_S400x128 ((tAllK).view.read (Elt F) fp)
      (SparseCore.rows fo (rfl : S400.numel = S400x128.size gathers_S1000000x128_S400x128.axis') hin)) := by
  intro r e
  unfold SparseCore.gatherPayload
  rw [tAllK_read]
  -- the word of row r
  have hw : fo (S400.rowMajor.symm (Fin.cast (rfl : S400.numel = S400x128.size gathers_S1000000x128_S400x128.axis').symm r))
      = (flatIdx m d : S819200.Idx → BitVec 32) (ValueIdx.ix1 (rowOf n r)) := by
    have e1 : S400.rowMajor.symm (Fin.cast (rfl : S400.numel = S400x128.size gathers_S1000000x128_S400x128.axis').symm r) = ValueIdx.ix1 r := by
      rw [Equiv.symm_apply_eq]; apply Fin.ext
      exact (Shape.rowMajor_val_one (d := ![400]) (ValueIdx.ix1 r)).symm
    rw [e1]; exact h r
  have hok : Cert.Spec.IdxOK (m (a0Loc d) : S4096x200.Idx → BitVec 32) := hpre d
  have hrow : SparseCore.rows fo (rfl : S400.numel = S400x128.size gathers_S1000000x128_S400x128.axis') hin r
      = Cert.Spec.rowIx ((flatIdx m d : S819200.Idx → BitVec 32) (ValueIdx.ix1 (rowOf n r))) := by
    apply Fin.ext
    show (fo _).toNat = _
    rw [hw]
    unfold flatIdx shapeCast
    exact (Cert.Spec.rowIx_val (hok _).1 (hok _).2).symm
  have hidx : gathers_S1000000x128_S400x128.idx (SparseCore.rows fo (rfl : S400.numel = S400x128.size gathers_S1000000x128_S400x128.axis') hin)
      (ValueIdx.ix2 r (Fin.castLE (by decide) e)) = ValueIdx.ix2 (SparseCore.rows fo rfl hin r) (Fin.castLE (by decide) e) := by
    funext a
    match a with
    | 0 => exact Shape.Gathers.idx_axis gathers_S1000000x128_S400x128 _ _
    | 1 => apply Fin.ext; exact Shape.Gathers.idx_of_ne gathers_S1000000x128_S400x128 _ _ 1 (by decide)
  rw [hidx, hrow]
  exact hpad _ e

omit [FloatOps F] in
/-- A row scratch at a chunk's rows, copied out, makes the chunk right. -/
theorem chunkOK_of_rows (n : Fin 2048) (off : Fin 2 → Nat) (hoff : ∀ a, off a + S400x128.size a ≤ S819200x128.size a)
    (hoff0 : off 0 = 400 * n.val) (hoff1 : off 1 = 0) (f2 : S400x128.Idx → Elt F .f32) (h : RowsOK m d n f2)
    (f : Buf (Elt F) (v3Loc d))
    (hf : ∀ x : S400x128.Idx, (f : S819200x128.Idx → Elt F .f32) ((Rect.unit (s := S819200x128) off S400x128.size hoff).emb x) = f2 x) :
    ChunkOK m d f n := by
  intro k e
  have hx := hf (ValueIdx.ix2 k (Fin.castLE (by decide) e))
  rw [h k e] at hx
  refine Eq.trans (congrArg (f : S819200x128.Idx → Elt F .f32) ?_) hx
  funext a
  match a with
  | 0 => apply Fin.ext; show 400 * n.val + k.val = off 0 + 1 * k.val; omega
  | 1 => apply Fin.ext; show e.val = off 1 + 1 * e.val; omega

omit [FloatOps F] in
theorem waits_insert {W0 W : Waits sig (HIx 1)} {sm : SemLoc sig} (h : ∀ p ∈ W0, p ∈ W ∨ p.2 = none) :
    ∀ p ∈ insert (sm, (default : HIx 1)) W0, p ∈ W ∨ p.2 = none := by
  intro p hp
  rcases Finset.mem_insert.mp hp with hp | hp
  · exact .inr (hp ▸ rfl)
  · exact h p hp

omit [FloatOps F] in
/-- What the copy of a row scratch leaves in an output chunk reads back, at the chunk's elements, as what was copied. -/
theorem out_read (off : Fin 2 → Nat) (hoff : ∀ a, off a + S400x128.size a ≤ S819200x128.size a) (f0 : Buf (Elt F) (v3Loc d))
    (pay : S400x128.Idx → Elt F .f32) (x : S400x128.Idx) :
    ((((oV).slice (Rect.unit (s := S819200x128) off S400x128.size hoff) (fun _ => rfl)).view.writes (Elt F) f0 [⟨Rect.whole S400x128, pay⟩]
        : Buf (Elt F) (v3Loc d)) : S819200x128.Idx → Elt F .f32)
      ((Rect.unit (s := S819200x128) off S400x128.size hoff).emb x) = pay x := by
  have e := congrFun (View.read_writes_whole ((oV).slice (Rect.unit (s := S819200x128) off S400x128.size hoff) (fun _ => rfl)).view f0 pay) x
  rw [View.read_apply] at e
  exact (cast_eq _ _).symm.trans e

/-! ## The loop's invariant -/

abbrev qT (L : grid1.Coords) : PosShare TreeShare := tileShare (cL L) (jL L)
abbrev EC : UEmb Counters (MT nD τ sig (HIx 1) (Elt F) ℕ UU ℕ) := countersEmb

variable (fp : Buf (Elt F) (v2Loc d))

/-- What the gather on the first cell delivers: the first row scratch at chunk `n`'s rows, its share of the table and
    its index scratch back. -/
def D9 (n : Fin 2048) : sProp 𝕄 :=
  iprop(∃ f2 : Buf (Elt F) ((s2V).view.loc (VT d L)), ⌜RowsOK m d n f2⌝ ∗ ((s2V).view.loc (VT d L) ↦[(s2V).view.set]{fullShare} f2)
    ∗ ((tAllK).view.loc (VT d L) ↦[(tAllK).view.set]{(qT L).left} fp)
    ∗ ∃ fo : Buf (Elt F) ((s0V).view.loc (VT d L)), (s0V).view.loc (VT d L) ↦[(s0V).view.set]{fullShare} fo)
/-- The same for the second cell, second row scratch, second index scratch. -/
def D10 (n : Fin 2048) : sProp 𝕄 :=
  iprop(∃ f3 : Buf (Elt F) ((s3V).view.loc (VT d L)), ⌜RowsOK m d n f3⌝ ∗ ((s3V).view.loc (VT d L) ↦[(s3V).view.set]{fullShare} f3)
    ∗ ((tAllK).view.loc (VT d L) ↦[(tAllK).view.set]{(qT L).right} fp)
    ∗ ∃ fo : Buf (Elt F) ((s1V).view.loc (VT d L)), (s1V).view.loc (VT d L) ↦[(s1V).view.set]{fullShare} fo)

/-- The first cell before trip `k`: the gather of chunk `2k` in flight; after the last trip, everything back. -/
def G9 (k : ℕ) : sProp 𝕄 :=
  if h : k < 32 then
    Transfers.Flight (EC (F := F)) (VT d L) (.dma cc1_scratch4.sem) (default : HIx 1) (s2V).view.dmaCredit
      (D9 m d L fp (cn (cL L) (jL L) ⟨2 * k, by omega⟩))
  else iprop((∃ f, (s2V).view.loc (VT d L) ↦[(s2V).view.set]{fullShare} f) ∗ ((tAllK).view.loc (VT d L) ↦[(tAllK).view.set]{(qT L).left} fp)
    ∗ (∃ fo, (s0V).view.loc (VT d L) ↦[(s0V).view.set]{fullShare} fo) ∗ semVal (cell9 d L) 0)

def Inv (O : CellTallies nD τ sig (HIx 1)) (W : Waits sig (HIx 1)) (k : ℕ) (_ : Unit) : sProp 𝕄 :=
  iprop(Transfers.MayWaits (VT d L) (default : HIx 1) O
    ∗ ((iV).view.loc (VT d L) ↦{qT L} flatIdx m d)
    ∗ G9 m d L fp k
    ∗ ((tAllK).view.loc (VT d L) ↦[Finset.univ \ (tAllK).view.set]{(qT L).left} fp)
    ∗ ((tAllK).view.loc (VT d L) ↦{(qT L).right} fp)
    ∗ (∃ f, (s1V).view.loc (VT d L) ↦{fullShare} f)
    ∗ (∃ f, (s3V).view.loc (VT d L) ↦{fullShare} f)
    ∗ semVal (cell10 d L) 0 ∗ semVal (cellB d L) 0 ∗ semVal (cellC d L) 0 ∗ semVal (cellD d L) 0 ∗ semVal (cellE d L) 0
    ∗ Out m d L k
    ∗ ∃ W', ⌜∀ p ∈ W', p ∈ W ∨ p.2 = none⌝ ∗ owes (VT d L) O W')

/-! ## Opening the invariant before a trip, closing it after -/

theorem Inv_open (O : CellTallies nD τ sig (HIx 1)) (W : Waits sig (HIx 1)) (k : Fin k1_t1_loop.trips) (acc : Unit) :
    Inv m d L fp O W k.val acc ⊢ iprop(Transfers.MayWaits (VT d L) (default : HIx 1) O
      ∗ ((iV).view.loc (VT d L) ↦{qT L} flatIdx m d)
      ∗ Transfers.Flight (EC (F := F)) (VT d L) (.dma cc1_scratch4.sem) (default : HIx 1) (s2V).view.dmaCredit (D9 m d L fp (cn (cL L) (jL L) (gE k)))
      ∗ ((tAllK).view.loc (VT d L) ↦[Finset.univ \ (tAllK).view.set]{(qT L).left} fp)
      ∗ ((tAllK).view.loc (VT d L) ↦{(qT L).right} fp)
      ∗ (∃ f, (s1V).view.loc (VT d L) ↦{fullShare} f)
      ∗ (∃ f, (s3V).view.loc (VT d L) ↦{fullShare} f)
      ∗ semVal (cell10 d L) 0 ∗ semVal (cellB d L) 0 ∗ semVal (cellC d L) 0 ∗ semVal (cellD d L) 0 ∗ semVal (cellE d L) 0
      ∗ (((oSl3 L k).view.loc (VT d L) ↦[(oSl3 L k).view.set]{fullShare} m (v3Loc d))
        ∗ ((oSl5 L k).view.loc (VT d L) ↦[(oSl5 L k).view.set]{fullShare} m (v3Loc d)) ∗ OutRest m d L k)
      ∗ ∃ W', ⌜∀ p ∈ W', p ∈ W ∨ p.2 = none⌝ ∗ owes (VT d L) O W') := by
  unfold Inv G9
  rw [dif_pos (klt k), Out_split]
  unfold TodoC
  rw [set_oSl3, set_oSl5]

/-- After a trip: whatever the first cell's state `G` is, as long as it is the invariant's for the next trip. -/
theorem close_trip (O : CellTallies nD τ sig (HIx 1)) (W : Waits sig (HIx 1)) (k : Fin k1_t1_loop.trips) (acc : Unit)
    (G : sProp 𝕄) (hG : G ⊢ G9 m d L fp (k.val + 1))
    (f2 f3 : S400x128.Idx → Elt F .f32) (hf2 : RowsOK m d (cn (cL L) (jL L) (gE k)) f2) (hf3 : RowsOK m d (cn (cL L) (jL L) (gO k)) f3) :
    iprop(Transfers.MayWaits (VT d L) (default : HIx 1) O
      ∗ ((iV).view.loc (VT d L) ↦{qT L} flatIdx m d)
      ∗ G
      ∗ ((tAllK).view.loc (VT d L) ↦[Finset.univ \ (tAllK).view.set]{(qT L).left} fp)
      ∗ ((tAllK).view.loc (VT d L) ↦[(tAllK).view.set]{(qT L).right} fp)
      ∗ ((tAllK).view.loc (VT d L) ↦[Finset.univ \ (tAllK).view.set]{(qT L).right} fp)
      ∗ (∃ f, (s1V).view.loc (VT d L) ↦[(s1V).view.set]{fullShare} f)
      ∗ (∃ f, (s3V).view.loc (VT d L) ↦[(s3V).view.set]{fullShare} f)
      ∗ semVal (cell10 d L) 0 ∗ semVal (cellB d L) 0 ∗ semVal (cellC d L) 0 ∗ semVal (cellD d L) 0 ∗ semVal (cellE d L) 0
      ∗ (∃ fE : Buf (Elt F) (v3Loc d), ⌜∀ x : S400x128.Idx, (fE : S819200x128.Idx → Elt F .f32) ((oRect3 L k).emb x) = f2 x⌝
          ∗ (oSl3 L k).view.loc (VT d L) ↦[(oSl3 L k).view.set]{fullShare} fE)
      ∗ (∃ fO : Buf (Elt F) (v3Loc d), ⌜∀ x : S400x128.Idx, (fO : S819200x128.Idx → Elt F .f32) ((oRect5 L k).emb x) = f3 x⌝
          ∗ (oSl5 L k).view.loc (VT d L) ↦[(oSl5 L k).view.set]{fullShare} fO)
      ∗ OutRest m d L k
      ∗ ∃ W', ⌜∀ p ∈ W', p ∈ W ∨ p.2 = none⌝ ∗ owes (VT d L) O W')
    ⊢ Inv m d L fp O W (k.val + 1) acc := by
  have h3s : (s3V).view.set = Finset.univ := View.set_whole _
  have h1s : (s1V).view.set = Finset.univ := View.set_whole _
  unfold Inv
  rw [← Out_join]
  iintro ⟨#Hmw, Hi, HG, Htr, Hts, Htr10, ⟨%f1, H1⟩, ⟨%f3', H3⟩, Hs10, HcB, HcC, HcD, HcE, ⟨%fE, %hE, HoE⟩, ⟨%fO, %hO', HoO⟩, Hout, HW⟩
  isplitr; · iexact Hmw
  isplitl [Hi]; · iexact Hi
  isplitl [HG]; · iapply hG; iexact HG
  isplitl [Htr]; · iexact Htr
  isplitl [Hts Htr10]
  · iapply (pointsTo_split_subset (q := (qT L).right) (f := fp) (S := Finset.univ) (Finset.subset_univ (tAllK).view.set)).2
    isplitl [Hts] <;> iassumption
  isplitl [H1]; · iexists f1; iapply (Entails.of_eq (pts_set (F := F) f1 h1s).symm); iexact H1
  isplitl [H3]; · iexists f3'; iapply (Entails.of_eq (pts_set (F := F) f3' h3s).symm); iexact H3
  isplitl [Hs10]; · iexact Hs10
  isplitl [HcB]; · iexact HcB
  isplitl [HcC]; · iexact HcC
  isplitl [HcD]; · iexact HcD
  isplitl [HcE]; · iexact HcE
  isplitr [HW]
  · isplitl [HoE]
    · unfold DoneC; iexists fE; isplitr
      · ipureintro
        exact chunkOK_of_rows m d _ (k1_off3 L k) (k1_off3_inb L k) (by rw [k1_off3_eq]; simp [cn]; omega) (by rw [k1_off3_eq]; simp) f2 hf2 fE hE
      · iapply (Entails.of_eq (show ((oSl3 L k).view.loc (VT d L) ↦[(oSl3 L k).view.set]{fullShare} fE : sProp 𝕄)
            = (v3Loc d ↦[oChunkSet (cn (cL L) (jL L) (gE k))]{fullShare} fE) by rw [set_oSl3]))
        iexact HoE
    isplitl [HoO]
    · unfold DoneC; iexists fO; isplitr
      · ipureintro
        exact chunkOK_of_rows m d _ (k1_off5 L k) (k1_off5_inb L k) (by rw [k1_off5_eq]; simp [cn]; omega) (by rw [k1_off5_eq]; simp) f3 hf3 fO hO'
      · iapply (Entails.of_eq (show ((oSl5 L k).view.loc (VT d L) ↦[(oSl5 L k).view.set]{fullShare} fO : sProp 𝕄)
            = (v3Loc d ↦[oChunkSet (cn (cL L) (jL L) (gO k))]{fullShare} fO) by rw [set_oSl5]))
        iexact HoO
    iexact Hout
  iexact HW

/-! ## One trip -/

set_option maxHeartbeats 4000000 in
/-- Trip `k`: chunk 2k+1's words fetched and its gather fired; chunk 2k's rows awaited and written out; chunk 2k+2's words
    fetched and its gather fired, if there is one; chunk 2k+1's rows awaited and written out. -/
theorem trip (hpre : PreOK m) (hpad : PadOK m d fp) (O : CellTallies nD τ sig (HIx 1)) (W : Waits sig (HIx 1))
    (v2 : BitVec 32) (k : Fin k1_t1_loop.trips) (acc : Unit) :
    Inv m d L fp O W k.val acc
      ⊢ wp frame (wpE (defs₀ (F := F)) 𝒱₀ (VT d L) none) Set.univ
          (k1_t1_body L iV (Memref.isWhole_whole _) tV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1 cc1_scoped2 cc1_scoped3 cc1_scoped4 v2 k acc)
          (Inv m d L fp O W (k.val + 1)) := by
  have hk := klt k
  unfold k1_t1_body
  simp only [k1_part1_eq_skeleton]; unfold k1_part1_skel
  refine (Inv_open m d L fp O W k acc).trans ?_
  iintro ⟨#Hmw, Hi, Hfl9, Htr, Ht10, ⟨%f1, H1⟩, ⟨%f3, H3⟩, Hs10, HcB, HcC, HcD, HcE, ⟨HoE', HoO', Hout⟩, %W', %hW', HO⟩
  sl_exec
  -- the second gather: chunk 2k+1's rows into the second row scratch
  ihave Hts := (pointsTo_split_subset (q := (qT L).right) (f := fp) (S := Finset.univ) (Finset.subset_univ (tAllK).view.set)).1 $$ Ht10
  icases Hts with ⟨Hts, Htr10⟩
  have h3s : (s3V).view.set = Finset.univ := View.set_whole _
  have h1s : (s1V).view.set = Finset.univ := View.set_whole _
  have h2s : (s2V).view.set = Finset.univ := View.set_whole _
  have h0s : (s0V).view.set = Finset.univ := View.set_whole _
  ihave H3'' := (Entails.of_eq (pts_set (F := F) _ h3s)) $$ H3
  ihave H1'' := (Entails.of_eq (pts_set (F := F) _ h1s)) $$ H1
  have hN10 : ∑ j, ((s3V).slice (S400x128.rowRect gathers_S1000000x128_S400x128.axis' j) (S400x128.stride_rowRect _ j)).view.dmaCredit = (s3V).view.dmaCredit :=
    SparseCore.sum_rowCredit_eq_dmaCredit (s3V) _ (fun _ => rfl)
  have hidx1 : IdxAt m d (cn (cL L) (jL L) (gO k)) ((s1V).view.read (Elt F) (View.write (Elt F) (s1V).view f1 (trip.sl.dma0 m d L k) Finset.univ)) := by
    rw [View.read_write_univ]
    exact idx_land m d _ (k1_off2 L k) (k1_off2_inb L k) (by rw [k1_off2_eq]; simp [cn]; omega) _ rfl
  have hin1 := idx_in_range m d hpre _ _ hidx1
  iapply (SparseCore.wp_indirectGatherLocal (EC (F := F)) 𝒱₀ (VT d L) none (hg := gathers_S1000000x128_S400x128) (default : HIx 1)
      (s3V).view.dmaCredit hN10 (by decide) hin1) $$ [Hts H3'' H1'' Hs10]
  · isplitl [Hts]; · iexact Hts
    isplitl [H3'']; · iexact H3''
    isplitl [H1'']; · iexact H1''
    iexact Hs10
  iintro Hfl10
  -- its flight delivers the second row scratch at chunk 2k+1's rows
  ihave Hfl10' := (Transfers.Flight_mono (EC (F := F)) (VT d L) (D' := D10 m d L fp (cn (cL L) (jL L) (gO k))) (by
      unfold D10
      iintro ⟨Hd, Hs, Ho⟩
      iexists _
      isplitr
      · ipureintro
        exact rowsOK_congr m d _ (fun x => congrFun (View.write_whole_univ (Val := Elt F) cc1_scratch3 f3 _) x)
          (rowsOK_gather m d fp hpre hpad _ _ hidx1 hin1)
      isplitl [Hd]; · iexact Hd
      isplitl [Hs]; · iexact Hs
      iexists _; iexact Ho)) $$ Hfl10
  sl_exec
  -- the wait for the first gather: the first row scratch at chunk 2k's rows
  iapply (Transfers.wp_waitLocalO (EC (F := F)) 𝒱₀ (VT d L) none (default : HIx 1) (rfl : (s2V).view.dmaCredit = _)) $$ [Hfl9 HO]
  · isplitl [Hfl9]; · iexact Hfl9
    isplitl [HO]; · iexact HO
    iapply (Transfers.MayWaits.elim (SemLoc.dma cc1_scratch4.sem)) $$ Hmw
  iintro ⟨HD9, Hs9, HO⟩
  unfold D9
  icases HD9 with ⟨%f2, %hf2, H2, Ht9, %fo0, H0⟩
  sl_exec
  rcases Classical.em (k1_cond1 k = 1#1) with hc | hc
  · have hlt : k.val + 1 < 32 := by have := (cond1_iff k).mp hc; omega
    sl_exec (disch := first | sl_exact hc | omega)
    -- the next first gather: chunk 2k+2's rows into the first row scratch
    ihave H2'' := (Entails.of_eq (show ((s2V).view.loc (VT d L) ↦[(Memref.whole cc1_scratch2).view.set]{fullShare} f2 : sProp 𝕄)
        = (s2V).view.loc (VT d L) ↦[(s2V).view.set]{fullShare} f2 from rfl)) $$ H2
    have hN9 : ∑ j, ((s2V).slice (S400x128.rowRect gathers_S1000000x128_S400x128.axis' j) (S400x128.stride_rowRect _ j)).view.dmaCredit = (s2V).view.dmaCredit :=
      SparseCore.sum_rowCredit_eq_dmaCredit (s2V) _ (fun _ => rfl)
    have hidx0 : IdxAt m d (cn (cL L) (jL L) ⟨2 * (k.val + 1), by omega⟩)
        ((s0V).view.read (Elt F) ((s0V).view.writes (Elt F) (s0V).view.junk [⟨Rect.whole S400, trip.sl.dma0_3 m d L k hc⟩])) := by
      rw [View.read_writes_whole]
      exact idx_land m d _ (k1_off4 L k) (k1_off4_inb L k hc) (by rw [k1_off4_eq]; simp [cn]; omega) _ rfl
    have hin0 := idx_in_range m d hpre _ _ hidx0
    iapply (SparseCore.wp_indirectGatherLocal (EC (F := F)) 𝒱₀ (VT d L) none (hg := gathers_S1000000x128_S400x128) (default : HIx 1)
        (s2V).view.dmaCredit hN9 (by decide) hin0) $$ [Ht9 H2'' H0 Hs9]
    · isplitl [Ht9]; · iexact Ht9
      isplitl [H2'']; · iexact H2''
      isplitl [H0]; · iexact H0
      iexact Hs9
    iintro Hfl9n
    ihave Hfl9n := (Transfers.Flight_mono (EC (F := F)) (VT d L) (D' := D9 m d L fp (cn (cL L) (jL L) ⟨2 * (k.val + 1), by omega⟩)) (by
        unfold D9
        iintro ⟨Hd, Hs, Ho⟩
        iexists _
        isplitr
        · ipureintro
          exact rowsOK_congr m d _ (fun x => congrFun (View.write_whole_univ (Val := Elt F) cc1_scratch2 f2 _) x)
            (rowsOK_gather m d fp hpre hpad _ _ hidx0 hin0)
        isplitl [Hd]; · iexact Hd
        isplitl [Hs]; · iexact Hs
        iexists _; iexact Ho)) $$ Hfl9n
    have hG : (Transfers.Flight (EC (F := F)) (VT d L) (.dma cc1_scratch4.sem) (default : HIx 1) (s2V).view.dmaCredit
        (D9 m d L fp (cn (cL L) (jL L) ⟨2 * (k.val + 1), by omega⟩)) : sProp 𝕄) ⊢ G9 m d L fp (k.val + 1) := by
      unfold G9; rw [dif_pos hlt]
    sl_exec
    -- the wait for the second gather: the second row scratch at chunk 2k+1's rows
    iapply (Transfers.wp_waitLocalO (EC (F := F)) 𝒱₀ (VT d L) none (default : HIx 1) (rfl : (s3V).view.dmaCredit = _)) $$ [Hfl10' HO]
    · isplitl [Hfl10']; · iexact Hfl10'
      isplitl [HO]; · iexact HO
      iapply (Transfers.MayWaits.elim (SemLoc.dma cc1_scratch5.sem)) $$ Hmw
    iintro ⟨HD10, Hs10, HO⟩
    unfold D10
    icases HD10 with ⟨%f3', %hf3', H3, Hts, %fo1, H1⟩
    sl_exec
    sl_step
    iapply (close_trip m d L fp O W k _ _ hG f2 f3' hf2 hf3')
    isplitr; · iexact Hmw
    isplitl [Hi]; · iexact Hi
    isplitl [Hfl9n]; · iexact Hfl9n
    isplitl [Htr]; · iexact Htr
    isplitl [Hts]; · iexact Hts
    isplitl [Htr10]; · iexact Htr10
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [HoE']
    · iexists _; isplitr
      swap; · iexact HoE'
      ipureintro; exact fun x => out_read d (k1_off3 L k) (k1_off3_inb L k) _ _ x
    isplitl [HoO']
    · iexists _; isplitr
      swap; · iexact HoO'
      ipureintro; exact fun x => out_read d (k1_off5 L k) (k1_off5_inb L k) _ _ x
    isplitl [Hout]; · iexact Hout
    iexists _; isplitr
    swap; · iexact HO
    ipureintro
    repeat (refine waits_insert ?_)
    exact hW'
  · have hge : ¬ k.val + 1 < 32 := by have := (cond1_iff k).not.mp hc; omega
    have hG : (iprop((∃ f, (s2V).view.loc (VT d L) ↦[(s2V).view.set]{fullShare} f) ∗ ((tAllK).view.loc (VT d L) ↦[(tAllK).view.set]{(qT L).left} fp)
        ∗ (∃ fo, (s0V).view.loc (VT d L) ↦[(s0V).view.set]{fullShare} fo) ∗ semVal (cell9 d L) 0) : sProp 𝕄) ⊢ G9 m d L fp (k.val + 1) := by
      unfold G9; rw [dif_neg hge]
    sl_exec (disch := first | sl_exact hc | omega)
    -- the wait for the second gather: the second row scratch at chunk 2k+1's rows
    iapply (Transfers.wp_waitLocalO (EC (F := F)) 𝒱₀ (VT d L) none (default : HIx 1) (rfl : (s3V).view.dmaCredit = _)) $$ [Hfl10' HO]
    · isplitl [Hfl10']; · iexact Hfl10'
      isplitl [HO]; · iexact HO
      iapply (Transfers.MayWaits.elim (SemLoc.dma cc1_scratch5.sem)) $$ Hmw
    iintro ⟨HD10, Hs10, HO⟩
    unfold D10
    icases HD10 with ⟨%f3', %hf3', H3, Hts, %fo1, H1⟩
    sl_exec
    sl_step
    iapply (close_trip m d L fp O W k _ _ hG f2 f3' hf2 hf3')
    isplitr; · iexact Hmw
    isplitl [Hi]; · iexact Hi
    isplitl [H2 Ht9 H0 Hs9]
    · isplitl [H2]; · iexists _; iexact H2
      isplitl [Ht9]; · iexact Ht9
      isplitl [H0]; · iexists _; iexact H0
      iexact Hs9
    isplitl [Htr]; · iexact Htr
    isplitl [Hts]; · iexact Hts
    isplitl [Htr10]; · iexact Htr10
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [HoE']
    · iexists _; isplitr
      swap; · iexact HoE'
      ipureintro; exact fun x => out_read d (k1_off3 L k) (k1_off3_inb L k) _ _ x
    isplitl [HoO']
    · iexists _; isplitr
      swap; · iexact HoO'
      ipureintro; exact fun x => out_read d (k1_off5 L k) (k1_off5_inb L k) _ _ x
    isplitl [Hout]; · iexact Hout
    iexists _; isplitr
    swap; · iexact HO
    ipureintro
    repeat (refine waits_insert ?_)
    exact hW'

end Tile

/-! ## The task -/

set_option maxHeartbeats 4000000 in
theorem tile_body (m : (ℓ : Loc nD τ sig) → Buf (Elt F) ℓ) (d : Dev nD) (L : grid1.Coords) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ goA m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_kernel L iV (Memref.isWhole_whole _) tV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1 cc1_scoped2 cc1_scoped3 cc1_scoped4)
          fun _ => iprop(tdA m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_kernel_eq_skeleton]; unfold cc1__gather_kernel_skel
  rw [(K (F := F)).scopedBufs_V hF d (cV L) (jV L), SparseCore.Cfg.scopedSems0_V (Val := Elt F) d (cV L) (jV L), ownSems0_V, ownBufs_V]
  iintro ⟨#Hlv, -, ⟨%fp, %hpad, Hi, Ht, Hout⟩, ⟨⟨%f0, H0⟩, ⟨%f1, H1⟩, ⟨%f2, H2⟩, ⟨%f3, H3⟩, Hbufs⟩, ⟨Hs9, Hs10, HcA, HcB, HcC, HcD, HcE, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (show (v0Loc d ↦{qT L} flatIdx m d : sProp 𝕄) = ((iV).view.loc (VT d L) ↦{qT L} flatIdx m d) from rfl)) $$ Hi
  ihave H0' := (Entails.of_eq (show ((VT d L).loc cc1_scratch0 ↦{fullShare} f0 : sProp 𝕄) = ((s0V).view.loc (VT d L) ↦{fullShare} f0) from rfl)) $$ H0
  -- chunk 0's words into the first index scratch
  sl_exec
  -- the table's share in two, one half per cell
  ihave Ht' := (pointsTo_share (PosShare.mem_left_op_right (qT L))).1 $$ Ht
  icases Ht' with ⟨HtL, HtR⟩
  ihave HtL' := (Entails.of_eq (show (v2Loc d ↦{(qT L).left} fp : sProp 𝕄) = ((tAllK).view.loc (VT d L) ↦{(qT L).left} fp) from rfl)) $$ HtL
  ihave Hts := (pointsTo_split_subset (q := (qT L).left) (f := fp) (S := Finset.univ) (Finset.subset_univ (tAllK).view.set)).1 $$ HtL'
  icases Hts with ⟨Ht9, Htr⟩
  have h2s : (s2V).view.set = Finset.univ := View.set_whole _
  have h0s : (s0V).view.set = Finset.univ := View.set_whole _
  ihave H2' := (Entails.of_eq (show ((VT d L).loc cc1_scratch2 ↦{fullShare} f2 : sProp 𝕄) = ((s2V).view.loc (VT d L) ↦{fullShare} f2) from rfl)) $$ H2
  ihave H2'' := (Entails.of_eq (pts_set (F := F) _ h2s)) $$ H2'
  ihave H0'' := (Entails.of_eq (pts_set (F := F) _ h0s)) $$ H0'
  have hN9 : ∑ j, ((s2V).slice (S400x128.rowRect gathers_S1000000x128_S400x128.axis' j) (S400x128.stride_rowRect _ j)).view.dmaCredit = (s2V).view.dmaCredit :=
    SparseCore.sum_rowCredit_eq_dmaCredit (s2V) _ (fun _ => rfl)
  have hidx0 : IdxAt m d (cn (cL L) (jL L) ⟨2 * 0, by omega⟩)
      ((s0V).view.read (Elt F) (View.write (Elt F) (s0V).view f0 (tile_body.sl.dma0 m d L) Finset.univ)) := by
    rw [View.read_write_univ]
    exact idx_land m d _ (k1_off1 L) (k1_off1_inb L) (by rw [k1_off1_eq]; simp [cn]; omega) _ rfl
  have hin0 := idx_in_range m d hpre _ _ hidx0
  -- the first gather: chunk 0's rows into the first row scratch
  iapply (SparseCore.wp_indirectGatherLocal (EC (F := F)) 𝒱₀ (VT d L) none (hg := gathers_S1000000x128_S400x128) (default : HIx 1)
      (s2V).view.dmaCredit hN9 (by decide) hin0) $$ [Ht9 H2'' H0'' Hs9]
  · isplitl [Ht9]; · iexact Ht9
    isplitl [H2'']; · iexact H2''
    isplitl [H0'']; · iexact H0''
    iexact Hs9
  iintro Hfl9
  ihave Hfl9 := (Transfers.Flight_mono (EC (F := F)) (VT d L) (D' := D9 m d L fp (cn (cL L) (jL L) ⟨2 * 0, by omega⟩)) (by
      unfold D9
      iintro ⟨Hd, Hs, Ho⟩
      iexists _
      isplitr
      · ipureintro
        exact rowsOK_congr m d _ (fun x => congrFun (View.write_whole_univ (Val := Elt F) cc1_scratch2 f2 _) x)
          (rowsOK_gather m d fp hpre hpad _ _ hidx0 hin0)
      isplitl [Hd]; · iexact Hd
      isplitl [Hs]; · iexact Hs
      iexists _; iexact Ho)) $$ Hfl9
  -- the 32 trips
  sl_for (Inv m d L fp O W) $$ [Hmw Hi' Hfl9 Htr HtR H1 H3 Hs10 HcB HcC HcD HcE Hout HO]
  case region =>
    intro k acc
    exact trip m d L fp hpre hpad O W _ k acc
  · unfold Inv G9
    rw [dif_pos (by decide : (0 : ℕ) < 32), Out_zero]
    isplitl [Hmw]; · iexact Hmw
    isplitl [Hi']; · iexact Hi'
    isplitl [Hfl9]; · iexact Hfl9
    isplitl [Htr]; · iexact Htr
    isplitl [HtR]; · iexact HtR
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [Hout]; · iexact Hout
    iexists _; isplitr
    swap; · iexact HO
    ipureintro
    repeat (refine waits_insert ?_)
    exact fun p hp => .inl hp
  iintro %acc HI
  unfold Inv G9
  rw [dif_neg (by decide)]
  icases HI with ⟨-, -, ⟨⟨%f2', H2⟩, -, ⟨%f0', H0⟩, Hs9⟩, -, -, ⟨%f1', H1⟩, ⟨%f3', H3⟩, Hs10, HcB, HcC, HcD, HcE, Hout, %W', %hW', HO⟩
  sl_exec
  sl_step
  isplitl [Hout]; · iapply (Entails.of_eq (Out_last m d L)); iexact Hout
  isplitl [H0 H1 H2 H3 Hbufs]
  · isplitl [H0]; · iexists _; iapply (Entails.of_eq (pts_set (F := F) _ h0s).symm); iexact H0
    isplitl [H1]; · iexists _; iexact H1
    isplitl [H2]; · iexists _; iapply (Entails.of_eq (pts_set (F := F) _ h2s).symm); iexact H2
    isplitl [H3]; · iexists _; iexact H3
    iexact Hbufs
  isplitl [Hs9 Hs10 HcA HcB HcC HcD HcE Hsems]
  · isplitl [Hs9]; · iexact Hs9
    isplitl [Hs10]; · iexact Hs10
    isplitl [HcA]; · iexact HcA
    isplitl [HcB]; · iexact HcB
    isplitl [HcC]; · iexact HcC
    isplitl [HcD]; · iexact HcD
    isplitl [HcE]; · iexact HcE
    iexact Hsems
  iexists _; isplitr
  swap; · iexact HO
  ipureintro; exact hW'

end Cert.Kernel.Hand

end
-- ==== Proof.KBPadData.lean ====
/-
  The table-padding pipeline's proof data: what each window's staging buffer holds around the body at every point of
  the grid, the body's three memory operations, and the blocks of the two windows in closed form.
-/
import proofs.«206924_g7387343749612_cont_9to1c4b_603_14_alg».proof.Proof.KBCommon
import Idealize.ShloMosaic.Lib.ValueLayout

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (RDat Cfg Window cellOf)

/-- The (absent) prefetched tables' one admissible contents. -/
abbrev adm0 : (p : Fin 1) → (pcfgs (F := F) p).Adm := fun p => (cfgs p).toPCfg_adm

variable (fA : (c : Dev nD) → Buf (Elt F) (v1Loc c)) (fB : (c : Dev nD) → Buf (Elt F) (v2Loc c))
  (O : CellTallies nD τ sig (HIx 1)) (W : Waits sig (HIx 1))

/-- the padded table is the transposed table in its first 100 columns -/
def PadOK1 (d : Dev nD) (f1 : Buf (Elt F) (v1Loc d)) (fp : Buf (Elt F) (v2Loc d)) : Prop :=
  ∀ (r : Fin 1000000) (e : Fin 100), (fp : S1000000x128.Idx → Elt F .f32) (ValueIdx.ix2 r (Fin.castLE (by decide) e)) = (f1 : S100x1000000.Idx → Elt F .f32) (ValueIdx.ix2 e r)

/-- What the body leaves in the output's staging buffer at point t: on the rows of block t that lie inside the
    table, the first 100 columns hold the transposed table's entries. -/
def PadAfter (c : Dev nD) (t : Fin cfg0.N) (X : S4096x128.Idx → Elt F .f32) : Prop :=
  ∀ (a : Fin 4096) (e : Fin 100) (h : 4096 * t.val + a.val < 1000000),
    X (ValueIdx.ix2 a (Fin.castLE (by decide) e)) = (fA c : S100x1000000.Idx → Elt F .f32) (ValueIdx.ix2 e ⟨4096 * t.val + a.val, h⟩)

/-- The pipeline's proof data on device c. -/
def rdats (_ : Fin 1) (c : Dev nD) : RDat τ (Elt F) (HIx 1) ℕ UU ℕ cfg0 c where
  A w := match w with
    | ⟨0, _⟩ => fA c
    | ⟨1, _⟩ => fB c
  after w t := match w with
    | ⟨0, _⟩ => fun _ _ => True
    | ⟨1, _⟩ => fun _ X => PadAfter fA c t X
  Φ _ := iprop(emp)
  q _ := fullShare
  owed _ := O
  recorded _ := (↑W : Set (SemLoc sig × HIx 1))

/-- The stored payload is the transposed block. -/
theorem k0_pay1_apply (v : S100x4096.Idx → Elt F .f32) (a : Fin 4096) (e : Fin 100) :
    k0_pay1 (F := F) v (ValueIdx.ix2 a e) = v (ValueIdx.ix2 e a) := by
  unfold k0_pay1
  rw [shapeCast_self]
  exact ValueIdx.transpose_ix2_apply v _ a e

/-- Entry (a, e) of the stored [4096,100] rectangle is entry (a, e) of the [4096,128] staging buffer. -/
theorem pad_written_0 (c : Dev nD) (f1 : Buf (Elt F) ((SparseCore.T (τ := τ) c).loc cc0_stg1_0)) (w : S4096x100.Idx → Elt F .f32) (a : Fin 4096) (e : Fin 100) :
    View.write (Elt F) ((Memref.whole cc0_stg1_0 : Memref sig .tc _ _ _).access (Rect.unit (s := S4096x128) ![0, 0] S4096x100.size Facts₀.inb_S4096x128_S4096x100_0_0)) f1 w Finset.univ
      (ValueIdx.ix2 a (Fin.castLE (by decide) e)) = w (ValueIdx.ix2 a e) := by
  have he : ((Memref.whole cc0_stg1_0 : Memref sig .tc _ _ _).access (Rect.unit (s := S4096x128) ![0, 0] S4096x100.size Facts₀.inb_S4096x128_S4096x100_0_0)).emb (ValueIdx.ix2 a e)
      = (ValueIdx.ix2 a (Fin.castLE (by decide) e) : S4096x128.Idx) := by
    funext ax; match ax with
    | ⟨0, _⟩ => exact Fin.ext (show 0 + 1 * a.val = a.val by omega)
    | ⟨1, _⟩ => exact Fin.ext (show 0 + 1 * e.val = e.val by omega)
  rw [← he, View.write_emb_of_mem _ _ (Finset.mem_univ _)]; rfl

theorem pad_written_1 (c : Dev nD) (f1 : Buf (Elt F) ((SparseCore.T (τ := τ) c).loc cc0_stg1_1)) (w : S4096x100.Idx → Elt F .f32) (a : Fin 4096) (e : Fin 100) :
    View.write (Elt F) ((Memref.whole cc0_stg1_1 : Memref sig .tc _ _ _).access (Rect.unit (s := S4096x128) ![0, 0] S4096x100.size Facts₀.inb_S4096x128_S4096x100_0_0)) f1 w Finset.univ
      (ValueIdx.ix2 a (Fin.castLE (by decide) e)) = w (ValueIdx.ix2 a e) := by
  have he : ((Memref.whole cc0_stg1_1 : Memref sig .tc _ _ _).access (Rect.unit (s := S4096x128) ![0, 0] S4096x100.size Facts₀.inb_S4096x128_S4096x100_0_0)).emb (ValueIdx.ix2 a e)
      = (ValueIdx.ix2 a (Fin.castLE (by decide) e) : S4096x128.Idx) := by
    funext ax; match ax with
    | ⟨0, _⟩ => exact Fin.ext (show 0 + 1 * a.val = a.val by omega)
    | ⟨1, _⟩ => exact Fin.ext (show 0 + 1 * e.val = e.val by omega)
  rw [← he, View.write_emb_of_mem _ _ (Finset.mem_univ _)]; rfl

theorem sound_body (c : Dev nD) (i : grid0.Coords) (s0 s1 : Fin 2) (X0 : S100x4096.Idx → Elt F .f32) (X1 : S4096x128.Idx → Elt F .f32)
    (Kp : PUnit → sProp 𝕄) :
    iprop((owns (SparseCore.T (τ := τ) c) (stage0_0 s0) fullShare X0 ∗ owns (SparseCore.T (τ := τ) c) (stage0_1 s1) fullShare X1)
          ∗ (iprop(owns (SparseCore.T (τ := τ) c) (stage0_0 s0) fullShare X0
              ∗ ∃ X1' : S4096x128.Idx → Elt F .f32, ⌜∀ (a : Fin 4096) (e : Fin 100), X1' (ValueIdx.ix2 a (Fin.castLE (by decide) e)) = X0 (ValueIdx.ix2 e a)⌝
                  ∗ owns (SparseCore.T (τ := τ) c) (stage0_1 s1) fullShare X1') -∗ Kp ⟨⟩))
      ⊢ wp frame (wpE (defs₀ (F := F)) 𝒱₀ (SparseCore.T (τ := τ) c) none) Set.univ
          (cc0__tp_pad_body i (stage0_0 s0) (Facts₀.hstage0_0 s0) (stage0_1 s1) (Facts₀.hstage0_1 s1)) Kp := by
  have hz : (![0, 0] : Fin 2 → Nat) = fun _ => 0 := funext fun a => by fin_cases a <;> rfl
  fin_cases s0 <;> fin_cases s1 <;>
  · simp only [owns_whole_eq, cc0__tp_pad_body_eq_skeleton]; unfold cc0__tp_pad_body_skel
    simp only [Prog.lift, Prog.bind_op, Prog.bind_ret]
    iintro ⟨⟨⟨%f0, %hf0, H0⟩, ⟨%f1, %hf1, H1⟩⟩, Hk⟩
    sl_steps
    iapply Hk
    isplitl [H0]
    · iexists f0; isplitr; · ipureintro; exact hf0
      iexact H0
    iexists _
    isplitr; swap
    · iexists _; isplitr; swap
      · iexact H1
      · ipureintro; rfl
    · ipureintro; intro a e
      subst hf0
      first
        | rw [pad_written_0 c, k0_pay1_apply]
        | rw [pad_written_1 c, k0_pay1_apply]
      first
        | exact congrFun (Memref.readAt_unit_zero (Elt F) cc0_stg0_0 hz _ f0) _
        | exact congrFun (Memref.readAt_unit_zero (Elt F) cc0_stg0_1 hz _ f0) _

/-! ## The windows' blocks in closed form -/

/-- Block t of the input window: rows 0..99, columns from 4096 t, cut at column 1000000. -/
theorem win0_0_facts : ∀ t : Fin grid0.N, win0_0.index t 0 = 0 ∧ win0_0.index t 1 = t.val
    ∧ win0_0.xsize (grid0.coords t) 0 = 100 ∧ win0_0.xsize (grid0.coords t) 1 = min 4096 (1000000 - 4096 * t.val) := by
  decide +kernel
/-- Block t of the output window: rows from 4096 t, cut at row 1000000, columns 0..127. -/
theorem win0_1_facts : ∀ t : Fin grid0.N, win0_1.index t 0 = t.val ∧ win0_1.index t 1 = 0
    ∧ win0_1.xsize (grid0.coords t) 0 = min 4096 (1000000 - 4096 * t.val) ∧ win0_1.xsize (grid0.coords t) 1 = 128 := by
  decide +kernel

/-- What the input's staging buffer holds once block t is fetched, at an entry inside the table. -/
theorem fetched0_apply (c : Dev nD) (t : Fin cfg0.N) (d : S100x4096.Idx → Elt F .f32) (a : Fin 4096) (e : Fin 100) (h : 4096 * t.val + a.val < 1000000) :
    (rdats fA fB O W 0 c).fetched (0 : Fin 2) t d (ValueIdx.ix2 e a) = (fA c : S100x1000000.Idx → Elt F .f32) (ValueIdx.ix2 e ⟨4096 * t.val + a.val, h⟩) := by
  obtain ⟨hi0, hi1, hx0, hx1⟩ := win0_0_facts t
  have hm : win0_0.moved (grid0.coords t) (ValueIdx.ix2 e a) = true := (win0_0.moved_iff _ _).mpr fun ax => by
    match ax with
    | ⟨0, _⟩ => show e.val < win0_0.xsize (grid0.coords t) 0; rw [hx0]; exact e.isLt
    | ⟨1, _⟩ => show a.val < win0_0.xsize (grid0.coords t) 1; rw [hx1]; have := a.isLt; omega
  unfold RDat.fetched
  show win0_0.fill (grid0.coords t) d _ (ValueIdx.ix2 e a) = _
  unfold Window.fill
  rw [dif_pos hm]
  unfold RDat.blockOf
  rw [View.read_apply]
  dsimp only [rdats]
  refine (cast_eq _ _).trans (congrArg (fA c : S100x1000000.Idx → Elt F .f32) (funext fun ax => ?_))
  match ax with
  | ⟨0, _⟩ => exact Fin.ext (show win0_0.index t 0 * 100 + 1 * e.val = e.val by rw [hi0]; omega)
  | ⟨1, _⟩ => exact Fin.ext (show win0_0.index t 1 * 4096 + 1 * a.val = 4096 * t.val + a.val by rw [hi1]; omega)

/-! ## The body obligation -/

/-- At every point: the input's buffer holds block t of the transposed table where the block lies inside it; the body
    stores its transpose into columns 0..99 of the output's buffer. -/
theorem body_obligation (c : Dev nD) : (rdats fA fB O W 0 c).BodyObligation (defs₀ (F := F)) 𝒱₀ none Set.univ := fun t Y hY => by
  rw [bigSep_W0, bigSep_W0, show (rdats fA fB O W 0 c).Φ t.castSucc = iprop(emp) from rfl, show (rdats fA fB O W 0 c).Φ t.succ = iprop(emp) from rfl,
    show (rdats fA fB O W 0 c).owesAt none t.succ = (rdats fA fB O W 0 c).owesAt none t.castSucc from rfl]
  obtain ⟨d, hd⟩ := ((rdats fA fB O W 0 c).finds_of_fetch (w := (0 : Fin 2)) (fetch0_0 t) (Y 0)).mp (hY 0)
  iintro ⟨HΦ, HO, H0, H1⟩
  iapply (sound_body c (grid0.coords t) (cfg0.slots t 0) (cfg0.slots t 1) (Y 0) (Y 1))
  isplitl [H0 H1]
  · isplitl [H0] <;> iassumption
  iintro ⟨H0, ⟨%X1', %hX, H1⟩⟩
  isplitl [HΦ]; · iexact HΦ
  isplitl [HO]; · iexact HO
  isplitl [H0]
  · iexists (Y 0); isplitr; · ipureintro; dsimp only [rdats]
    iexact H0
  iexists X1'; isplitr; swap; (· iexact H1)
  ipureintro
  dsimp only [rdats]
  intro a e h
  rw [hX a e, hd]
  exact fetched0_apply fA fB O W c t d a e h

end Cert.Kernel.Hand

end
-- ==== Proof.KBPadValue.lean ====
/-
  The padded table after the pipeline. Block u of the output window covers rows 4096u … of the padded table (cut at row
  1000000), all 128 columns; its write-back writes, in columns 0..99, the transposed table's entries and touches no row of
  an earlier block. By induction on the points, after the write-backs below point t every row below 4096t holds the
  table's row in its first 100 columns; at t = 245 that is every row.
-/
import proofs.«206924_g7387343749612_cont_9to1c4b_603_14_alg».proof.Proof.KBPadData

noncomputable section

namespace Cert.Kernel.Hand

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (RDat Cfg Window cellOf)

variable (fA : (c : Dev nD) → Buf (Elt F) (v1Loc c)) (fB : (c : Dev nD) → Buf (Elt F) (v2Loc c))
  (O : CellTallies nD τ sig (HIx 1)) (W : Waits sig (HIx 1))

omit [FloatOps F] in
/-- An index of the padded table is in block u iff its row is among the block's rows inside the table. -/
theorem mem_blk1 (u : Fin cfg0.N) (i : S1000000x128.Idx) :
    i ∈ (win0_1.blk u).view.setOn Finset.univ ↔ 4096 * u.val ≤ (i 0 : Nat) ∧ (i 0 : Nat) < 4096 * u.val + min 4096 (1000000 - 4096 * u.val) := by
  obtain ⟨hi0, hi1, hx0, hx1⟩ := win0_1_facts u
  rw [View.setOn_univ]
  show i ∈ ((View.whole main_v2).slice (win0_1.rect u)).set ↔ _
  rw [View.set_slice_whole, Rect.mem_set_unit]
  have h1 : (i 1 : Nat) < 128 := (i 1).isLt
  refine ⟨fun h => ?_, fun h a => ?_⟩
  · have h0 := h 0
    change win0_1.index u 0 * 4096 ≤ (i 0 : Nat) ∧ (i 0 : Nat) < win0_1.index u 0 * 4096 + win0_1.xsize (grid0.coords u) 0 at h0
    rw [hi0, hx0] at h0; omega
  · match a with
    | ⟨0, _⟩ =>
      change win0_1.index u 0 * 4096 ≤ (i 0 : Nat) ∧ (i 0 : Nat) < win0_1.index u 0 * 4096 + win0_1.xsize (grid0.coords u) 0
      rw [hi0, hx0]; omega
    | ⟨1, _⟩ =>
      change win0_1.index u 1 * 128 ≤ (i 1 : Nat) ∧ (i 1 : Nat) < win0_1.index u 1 * 128 + win0_1.xsize (grid0.coords u) 1
      rw [hi1, hx1]; omega

/-- After the write-backs below point t, every row below 4096t is right. -/
theorem pad_inv (c : Dev nD) : ∀ (t : Nat), t ≤ 245 → ∀ (G : Buf (Elt F) (v2Loc c)), (rdats fA fB O W 0 c).ArrAt (1 : Fin 2) t G →
    ∀ (r : Fin 1000000) (e : Fin 100), r.val < 4096 * t →
      (G : S1000000x128.Idx → Elt F .f32) (ValueIdx.ix2 r (Fin.castLE (by decide) e)) = (fA c : S100x1000000.Idx → Elt F .f32) (ValueIdx.ix2 e r)
  | 0, _, G, _ => fun r e h => absurd h (by omega)
  | t + 1, ht, G, h => by
    have hu : t < cfg0.N := by show t < grid0.N; rw [N_0]; omega
    have h' : (rdats fA fB O W 0 c).ArrAt (1 : Fin 2) ((⟨t, hu⟩ : Fin cfg0.N).val + 1) G := h
    rw [RDat.ArrAt_succ, if_pos (flush0_1 ⟨t, hu⟩)] at h'
    obtain ⟨G₀, X, hG₀, ⟨Y, _, hX⟩, rfl⟩ := h'
    have ih := pad_inv c t (by omega) G₀ hG₀
    have hX' : PadAfter fA c ⟨t, hu⟩ X := hX
    obtain ⟨hi0, hi1, hx0, hx1⟩ := win0_1_facts ⟨t, hu⟩
    intro r e hr
    have hr' := r.isLt
    by_cases hlt : r.val < 4096 * t
    · -- a row of an earlier block: block t's write-back does not touch it
      have hnm : (ValueIdx.ix2 r (Fin.castLE (by decide) e) : S1000000x128.Idx) ∉ (win0_1.blk ⟨t, hu⟩).view.setOn Finset.univ := by
        rw [mem_blk1]
        show ¬(4096 * t ≤ r.val ∧ r.val < 4096 * t + min 4096 (1000000 - 4096 * t))
        omega
      exact (View.write_of_not_mem _ _ _ hnm).trans (ih r e hlt)
    · -- a row of block t
      have ha : r.val - 4096 * t < 4096 := by omega
      let x : (win0_1.xblock (grid0.coords ⟨t, hu⟩)).Idx := fun ax => match ax with
        | ⟨0, _⟩ => ⟨r.val - 4096 * t, by show r.val - 4096 * t < win0_1.xsize (grid0.coords ⟨t, hu⟩) 0; rw [hx0]; show r.val - 4096 * t < min 4096 (1000000 - 4096 * t); omega⟩
        | ⟨1, _⟩ => ⟨e.val, by show e.val < win0_1.xsize (grid0.coords ⟨t, hu⟩) 1; rw [hx1]; have := e.isLt; omega⟩
      have hemb : (win0_1.blk ⟨t, hu⟩).view.emb x = (ValueIdx.ix2 r (Fin.castLE (by decide) e) : S1000000x128.Idx) := by
        funext ax
        match ax with
        | ⟨0, _⟩ => exact Fin.ext (show win0_1.index ⟨t, hu⟩ 0 * 4096 + 1 * (r.val - 4096 * t) = r.val by rw [hi0]; show t * 4096 + 1 * (r.val - 4096 * t) = r.val; omega)
        | ⟨1, _⟩ => exact Fin.ext (show win0_1.index ⟨t, hu⟩ 1 * 128 + 1 * e.val = e.val by rw [hi1]; omega)
      rw [← hemb]
      refine (View.write_emb_of_mem _ _ (Finset.mem_univ x)).trans ((cast_eq _ _).trans ?_)
      have hp := hX' ⟨r.val - 4096 * t, ha⟩ e (by show 4096 * t + (r.val - 4096 * t) < 1000000; omega)
      have er : (⟨4096 * t + (r.val - 4096 * t), by omega⟩ : Fin 1000000) = r := Fin.ext (by show 4096 * t + (r.val - 4096 * t) = r.val; omega)
      rw [er] at hp
      refine Eq.trans ?_ hp
      show X ((win0_1).xinj (grid0.coords ⟨t, hu⟩) x) = _
      refine congrArg X (funext fun ax => ?_)
      match ax with
      | ⟨0, _⟩ => exact Fin.ext rfl
      | ⟨1, _⟩ => exact Fin.ext rfl

/-- After the pipeline the padded table holds the transposed table in its first 100 columns. -/
theorem pad_value (c : Dev nD) (G : Buf (Elt F) (v2Loc c)) (h : (rdats fA fB O W 0 c).ArrAt (1 : Fin 2) cfg0.N G) : PadOK1 c (fA c) G := by
  have hN : cfg0.N = 245 := N_0
  intro r e
  refine pad_inv fA fB O W c 245 (le_refl _) G (hN ▸ h) r e ?_
  have := r.isLt; omega

end Cert.Kernel.Hand

end
-- ==== Proof.KBPad.lean ====
/-
  The table-padding pipeline inside the SparseCore program: the TensorCore pallas_call that writes the transposed table,
  block by block, into the first 100 columns of the 128-column padded table, run as a kernel region of @main — the
  region's record around the proof data, and the call as @main meets it.
-/
import proofs.«206924_g7387343749612_cont_9to1c4b_603_14_alg».proof.Proof.KBPadValue

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (RDat Cfg Window cellOf)

variable (fA : (c : Dev nD) → Buf (Elt F) (v1Loc c)) (fB : (c : Dev nD) → Buf (Elt F) (v2Loc c))
  (O : CellTallies nD τ sig (HIx 1)) (W : Waits sig (HIx 1))

/-! ## The arrays as the region holds them -/

theorem arrays_eq (c : Dev nD) : (rdats fA fB O W 0 c).arrays (rdats fA fB O W 0 c).A = iprop((v1Loc c ↦{fullShare} fA c) ∗ (v2Loc c ↦{fullShare} fB c)) := by
  unfold Pipeline.RDat.arrays; rw [bigSep_W0]
  dsimp only [rdats, Pipeline.RDat.share]
  simp only [View.set_whole, ite_self]

theorem arraysAt_eq (c : Dev nD) (n : Nat) : (rdats fA fB O W 0 c).arraysAt n
    = iprop((∃ G : Buf (Elt F) (v1Loc c), ⌜(rdats fA fB O W 0 c).ArrAt (0 : Fin 2) n G⌝ ∗ v1Loc c ↦{fullShare} G)
        ∗ (∃ G : Buf (Elt F) (v2Loc c), ⌜(rdats fA fB O W 0 c).ArrAt (1 : Fin 2) n G⌝ ∗ v2Loc c ↦{fullShare} G)) := by
  unfold Pipeline.RDat.arraysAt; rw [bigSep_W0]
  dsimp only [rdats, Pipeline.RDat.share]
  simp only [View.set_whole, ite_self]

/-- The input array is never written. -/
theorem arrAt_in (c : Dev nD) (n : Nat) (G : Buf (Elt F) (v1Loc c)) (h : (rdats fA fB O W 0 c).ArrAt (0 : Fin 2) n G) : G = fA c := by
  rw [(rdats fA fB O W 0 c).ArrAt_in (0 : Fin 2) (by decide)] at h
  exact h

/-! ## The region -/

/-- The thread state the region leaves: the transposed table as it was, the padded table right in its first 100
    columns, and what the thread owes unchanged, its recorded pairs grown by the pipeline's own waits only. -/
abbrev padPost (c : Dev nD) : sProp 𝕄 :=
  iprop((v1Loc c ↦{fullShare} fA c) ∗ (∃ fp, ⌜PadOK1 c (fA c) fp⌝ ∗ v2Loc c ↦{fullShare} fp)
    ∗ ∃ W', ⌜∀ p ∈ W', p ∈ W ∨ p.2 = none⌝ ∗ owes (T c) O W')

set_option backward.isDefEq.respectTransparency.types false in
/-- The region's record: the generated layout, no semaphore of the kernel's own, the body obligation, the waits'
    evidence (the pipeline waits at the index nothing is owed at), and the thread states around it. -/
def reg0 (hO : ∀ g, O g none = 0) :
    Pipeline.RDat.RegionSeg (pcfgs (F := F)) adm0 (rdats fA fB O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation fA fB O W c
  hwaits c := Pipeline.RDat.cellsWaits_intro _ _ _ 0 c fun w s t => (K (F := F)).mayWait_none _ hO
  pre c := iprop((v1Loc c ↦{fullShare} fA c) ∗ (v2Loc c ↦{fullShare} fB c) ∗ owes (T c) O W)
  post c := padPost fA O W c
  X _ := iprop(emp)
  Y _ := iprop(emp)
  Z _ := iprop(emp)
  hentry c := by
    rw [Pipeline.ownSems0_none]
    iintro ⟨⟨H1, H2, HO⟩, -, -⟩
    imodintro
    isplitl [H1 H2]
    · rw [arrays_eq]
      isplitl [H1]
      · iexact H1
      · iexact H2
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr <;> iempintro
  hin c := by rw [scopedRest0_eq]; iintro -; iempintro
  hout c := by
    rw [scopedRest0_eq, Pipeline.ownSems0_none]; iintro -
    isplitr; · iempintro
    isplitr <;> iempintro
  hexit c := by
    rw [arraysAt_eq]
    iintro ⟨⟨⟨%F0, %hF0, H1⟩, ⟨%F1, %hF1, H2⟩⟩, ⟨%W', %hW', HO⟩, -, -⟩
    imodintro
    obtain rfl := arrAt_in fA fB O W c _ F0 hF0
    isplitl [H1]; · iexact H1
    isplitl [H2]
    · iexists F1; isplitr; · ipureintro; exact pad_value fA fB O W c F1 hF1
      iexact H2
    iexists W'; isplitr
    · ipureintro; intro p hp
      rcases hW' hp with h | ⟨w, s, rfl⟩
      · exact Or.inl h
      · exact Or.inr rfl
    iexact HO

/-! ## The call -/

/-- One device's contents as a family over the devices: there is one device. -/
def famOf {β : Dev nD → Type} (d : Dev nD) (x : β d) : (c : Dev nD) → β c := fun c => (Subsingleton.elim d c) ▸ x

/-- the launch element's component for the pipeline's staging cells -/
def uP₀ : UP := initOf (Pipeline.cells (nD := nD) (τ := τ) cfgs cellOf_inj) (Pipeline.launchToks (nD := nD) (τ := τ) cfgs cellOf_inj)

/-- what @main's proof holds of the pipeline's ghost state on device d before the region -/
abbrev padGhost (d : Dev nD) : sProp 𝕄 := iprop(Pipeline.cellsGhost cfgs (EP (F := F)) 0 d ∗ Pipeline.toksInit cfgs (EP (F := F)) 0 d)

theorem padGhost_fund : (BI.own ((EP (F := F)) uP₀) : sProp 𝕄) ⊢ iprop(|==> bigSep Finset.univ fun d : Dev nD => padGhost (F := F) d) := by
  unfold uP₀
  iintro H
  imod (Pipeline.fund_ghost (nD := nD) (τ := τ) cfgs (EP (F := F)) cellOf_inj) $$ H with ⟨HA, HB⟩
  imodintro
  rw [bigSep_sep']
  isplitl [HA]
  · iapply (Entails.of_eq (bigSep_congr fun d _ => (bigSep_univ_of_subsingleton (0 : Fin 1) (Φ := fun p => (Pipeline.cellsGhost cfgs (EP (F := F)) p d : sProp 𝕄))))); iexact HA
  · iapply (Entails.of_eq (bigSep_congr fun d _ => (bigSep_univ_of_subsingleton (0 : Fin 1) (Φ := fun p => (Pipeline.toksInit cfgs (EP (F := F)) p d : sProp 𝕄))))); iexact HB

/-- What the call leaves. -/
abbrev padQ (d : Dev nD) (f1 : Buf (Elt F) (v1Loc d)) (O : CellTallies nD τ sig (HIx 1)) (W : Waits sig (HIx 1)) : PUnit → sProp 𝕄 :=
  fun _ => iprop(boundary (T d) ∗ (v1Loc d ↦{fullShare} f1) ∗ (∃ fp, ⌜PadOK1 d f1 fp⌝ ∗ v2Loc d ↦{fullShare} fp)
            ∗ ∃ W', ⌜∀ p ∈ W', p ∈ W ∨ p.2 = none⌝ ∗ owes (T d) O W')

/-- From what @main holds before the call to what the region rule asks. -/
theorem pad_pre (d : Dev nD) (f1 : Buf (Elt F) (v1Loc d)) (f2 : Buf (Elt F) (v2Loc d)) (O : CellTallies nD τ sig (HIx 1)) (W : Waits sig (HIx 1)) :
    iprop(levAts (K (F := F)).L (K (F := F)).lev ∗ boundary (T d) ∗ (v1Loc d ↦{fullShare} f1) ∗ (v2Loc d ↦{fullShare} f2) ∗ padGhost d ∗ owes (T d) O W)
      ⊢ iprop((iprop(boundary (T d) ∗ ((v1Loc d ↦{fullShare} f1) ∗ (∃ fp, ⌜PadOK1 d f1 fp⌝ ∗ v2Loc d ↦{fullShare} fp)
                ∗ ∃ W', ⌜∀ p ∈ W', p ∈ W ∨ p.2 = none⌝ ∗ owes (T d) O W'))
              -∗ wp frame (wpE (D (F := F)) 𝒱 (T d) none) Set.univ (Prog.ret ⟨⟩ : Prog (TpuEff nD τ sig (Elt F) (ΛP (F := F)) .tc) PUnit) (padQ d f1 O W))
          ∗ boundary (T d) ∗ ((v1Loc d ↦{fullShare} f1) ∗ (v2Loc d ↦{fullShare} f2) ∗ owes (T d) O W) ∗ levAts (K (F := F)).L (K (F := F)).lev
          ∗ Pipeline.cellsGhost cfgs (EP (F := F)) 0 d ∗ Pipeline.toksInit cfgs (EP (F := F)) 0 d) := by
  iintro ⟨Hl, Hb, H1, H2, ⟨Hg, Ht⟩, HO⟩
  isplitr
  · iintro ⟨Hb, H1, H2, HO⟩
    rw [wp_ret]
    imodintro
    isplitl [Hb]; · iexact Hb
    isplitl [H1]; · iexact H1
    isplitl [H2]; · iexact H2
    iexact HO
  isplitl [Hb]; · iexact Hb
  isplitl [H1 H2 HO]
  · isplitl [H1]; · iexact H1
    isplitl [H2]; · iexact H2
    iexact HO
  isplitl [Hl]; · iexact Hl
  isplitl [Hg]; · iexact Hg
  iexact Ht

set_option backward.isDefEq.respectTransparency.types false in
theorem pad_region (d : Dev nD) (f1 : Buf (Elt F) (v1Loc d)) (f2 : Buf (Elt F) (v2Loc d)) (O : CellTallies nD τ sig (HIx 1)) (W : Waits sig (HIx 1)) (hO : ∀ g, O g none = 0) :
    iprop(levAts (K (F := F)).L (K (F := F)).lev ∗ boundary (T d) ∗ (v1Loc d ↦{fullShare} f1) ∗ (v2Loc d ↦{fullShare} f2) ∗ padGhost d ∗ owes (T d) O W)
      ⊢ wp frame (wpE ((K (F := F)).defs (D (F := F))) 𝒱 (T d) none) Set.univ (Prog.lift (.customCall (SparseCore.inner (Pipeline.entry 0)) ()))
          fun _ => iprop(boundary (T d) ∗ (v1Loc d ↦{fullShare} f1) ∗ (∃ fp, ⌜PadOK1 d f1 fp⌝ ∗ v2Loc d ↦{fullShare} fp)
            ∗ ∃ W', ⌜∀ p ∈ W', p ∈ W ∨ p.2 = none⌝ ∗ owes (T d) O W') := by
  have key := Pipeline.RDat.RegionSeg.wp (pcfgs (F := F)) adm0 (rdats (famOf (β := fun c => Buf (Elt F) (v1Loc c)) d f1) (famOf (β := fun c => Buf (Elt F) (v2Loc c)) d f2) O W) none
    cellOf_inj (EP (F := F)) defs₀ 𝒱₀ (K (F := F)).L (K (F := F)).lev
    (reg0 (famOf (β := fun c => Buf (Elt F) (v1Loc c)) d f1) (famOf (β := fun c => Buf (Elt F) (v2Loc c)) d f2) O W hO) d none (fun _ h => nomatch h)
    (fun _ => (Prog.ret ⟨⟩ : Prog (TpuEff nD τ sig (Elt F) (ΛP (F := F)) .tc) PUnit))
    (padQ d f1 O W)
  exact (pad_pre d f1 f2 O W).trans (key.trans ((K (F := F)).wp_liftProg (D (F := F)) 𝒱 (T d) Set.univ none _ _))

end Cert.Kernel.Hand

end
-- ==== Proof.KBLaunch.lean ====
/-
  The program's run. Every weakly fair execution of @main on the TensorCore and of the lookup kernel on the 32 vector
  subcores terminates, nothing faulting, with the index array and the table unchanged and the result the lookup
  `Spec.G` of them. @main: the index array is flattened and the table transposed (host operations), the padding
  pipeline writes the transposed table back row by row into 128 columns, the SparseCore call hands every vector subcore
  read shares of the flat indices and of the padded table and its 64 chunks of the output, and gets the chunks back,
  each right; the output's first 100 columns, regrouped, are the result.
-/
import proofs.«206924_g7387343749612_cont_9to1c4b_603_14_alg».proof.Proof.KBCommon
import proofs.«206924_g7387343749612_cont_9to1c4b_603_14_alg».proof.Proof.KBSplit
import proofs.«206924_g7387343749612_cont_9to1c4b_603_14_alg».proof.Proof.KBValue
import proofs.«206924_g7387343749612_cont_9to1c4b_603_14_alg».proof.Proof.KBTile
import proofs.«206924_g7387343749612_cont_9to1c4b_603_14_alg».proof.Proof.KBPad

noncomputable section

namespace Cert.Kernel.Hand

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

instance EH_landsIn : (EH : Emb UH (MT nD τ sig (HIx 1) (Elt F) ℕ UU ℕ)).LandsIn (upEmb : UEmb _ (MT nD τ sig (HIx 1) (Elt F) ℕ UU ℕ)) := by
  unfold EH EHC embR; infer_instance

variable [FloatOps F]
variable (m : (ℓ : Loc nD τ sig) → Buf (Elt F) ℓ) (ρ : Dev nD → PrngReg)

/-! ## The vector subcore's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_kernel (coordsV c s)
          iV (Memref.isWhole_whole _) tV (Memref.isWhole_whole _) oV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A core's operands are its subcores' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goA m d (Fin.cast nCore_zero c) i) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ bigSep Finset.univ fun i : Fin 16 => tdA m d (Fin.cast nCore_zero c) i))
  rw [bigSep_tasks (F := F) (fun i => goA m d (Fin.cast nCore_zero c) i), bigSep_tasks (F := F) (fun i => tdA m d (Fin.cast nCore_zero c) i)]
  iintro H; imodintro
  isplitl [H]; · iexact H
  iintro H; iexact H

/-! ## The launch element -/

def u₀ : UU := (uP₀, (initOf (K (F := F)).hsCells (K (F := F)).hsToks, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => padGhost (F := F) d)
        ∗ bigSep Finset.univ fun thr : Thread nD τ => bigSep Finset.univ fun q : Fin 1 => (P m).x q thr) := by
  unfold u₀
  iintro Hu
  ihave H := (ownU_pair uP₀ ((initOf (K (F := F)).hsCells (K (F := F)).hsToks, (1 : Counters)) : UH × Counters)) $$ Hu
  icases H with ⟨HP, HHC⟩
  ihave H2 := (own_pair_emb (EHC (F := F)) (initOf (K (F := F)).hsCells (K (F := F)).hsToks) (1 : Counters)) $$ HHC
  icases H2 with ⟨HH, -⟩
  imod (padGhost_fund (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
/-- @main's eight arrays; the last three. -/
abbrev S8 : Finset (DevRef τ sig) := {a0', a1', r0', r1', r2', r3', r4', r5'}
abbrev S3 : Finset (DevRef τ sig) := {r3', r4', r5'}

/-- The four host operations: flatten the index array, transpose the table, take the output's first 100 columns, regroup its rows. -/
abbrev opFlat : HloOp τ sig (Elt F) := StableHlo.reshape main_arg0 main_v0 rfl shapeCasts_S4096x200_S819200
abbrev opTr : HloOp τ sig (Elt F) := StableHlo.unary main_arg1 main_v1 ((transpose S100x1000000 [1, 0] · transposes_S1000000x100_S100x1000000_1_0) : (⟨S1000000x100, .f32⟩ : BufTy).Contents (Elt F) → (⟨S100x1000000, .f32⟩ : BufTy).Contents (Elt F))
abbrev opSl : HloOp τ sig (Elt F) := StableHlo.unary main_v3 main_v4 ((extractStridedSlice S819200x100 ![0, 0] · slices_S819200x128_S819200x100_0_0) : (⟨S819200x128, .f32⟩ : BufTy).Contents (Elt F) → (⟨S819200x100, .f32⟩ : BufTy).Contents (Elt F))
abbrev opRs : HloOp τ sig (Elt F) := StableHlo.reshape main_v4 main_v5 rfl shapeCasts_S819200x100_S4096x200x100

omit [FloatOps F] in
theorem held_S8 (d : Dev nD) (W : Valuation τ sig (Elt F)) :
    (held (T d) S8 W : sProp 𝕄)
      = iprop((a0Loc d ↦{fullShare} W a0') ∗ (a1Loc d ↦{fullShare} W a1') ∗ (v0Loc d ↦{fullShare} W r0') ∗ (v1Loc d ↦{fullShare} W r1')
          ∗ (v2Loc d ↦{fullShare} W r2') ∗ (v3Loc d ↦{fullShare} W r3') ∗ (v4Loc d ↦{fullShare} W r4') ∗ v5Loc d ↦{fullShare} W r5') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S3 (d : Dev nD) (W : Valuation τ sig (Elt F)) :
    (held (T d) S3 W : sProp 𝕄) = iprop((v3Loc d ↦{fullShare} W r3') ∗ (v4Loc d ↦{fullShare} W r4') ∗ v5Loc d ↦{fullShare} W r5') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0) ∗ (v1Loc d ↦{fullShare} W main_v1)
          ∗ (v2Loc d ↦{fullShare} W main_v2) ∗ (v3Loc d ↦{fullShare} W main_v3) ∗ (v4Loc d ↦{fullShare} W main_v4) ∗ v5Loc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the flattening; after the transposition. -/
def V0 (d : Dev nD) : Valuation τ sig (Elt F) := fun b => m (d, b)
def V1 (d : Dev nD) : Valuation τ sig (Elt F) := (opFlat (F := F)).result (V0 m d)
def V2 (d : Dev nD) : Valuation τ sig (Elt F) := (opTr (F := F)).result (V1 m d)

theorem unscoped_held (d : Dev nD) : (unscopedBufs d (fun b => m ((SparseCore.T d).loc b)) : sProp 𝕄) = held (T d) S8 (V0 m d) := by
  rw [unscopedBufs_eq, held_S8]; rfl

/-- The transposed table. -/
abbrev trTab (d : Dev nD) : Buf (Elt F) (v1Loc d) :=
  (transpose S100x1000000 [1, 0] (m (a1Loc d) : FVec F S1000000x100 .f32) transposes_S1000000x100_S100x1000000_1_0 : FVec F S100x1000000 .f32)

theorem V2_keep (d : Dev nD) (b : DevRef τ sig) (h0 : b ∉ ({r0'} : Finset (DevRef τ sig))) (h1 : b ∉ ({r1'} : Finset (DevRef τ sig))) :
    V2 m d b = m (d, b) := by
  unfold V2 V1
  rw [(opTr (F := F)).result_of_not_mem _ h1, (opFlat (F := F)).result_of_not_mem _ h0]
  rfl
theorem V2_r0 (d : Dev nD) : V2 m d r0' = flatIdx m d := by
  unfold V2 V1
  rw [(opTr (F := F)).result_of_not_mem _ (show r0' ∉ ({r1'} : Finset (DevRef τ sig)) by decide)]
  exact (StableHlo.reshape_result _ _ _ _ _ _ _).trans rfl
theorem V2_r1 (d : Dev nD) : V2 m d r1' = trTab m d := by
  unfold V2
  refine (StableHlo.unary_result _ _ _ _ _ _).trans ?_
  unfold V1
  rw [(opFlat (F := F)).result_of_not_mem _ (show a1' ∉ ({r0'} : Finset (DevRef τ sig)) by decide)]
  rfl

theorem held_V2 (d : Dev nD) :
    (held (T d) S8 ((opTr (F := F)).result ((opFlat (F := F)).result (V0 m d))) : sProp 𝕄)
      = iprop((a0Loc d ↦{fullShare} m (a0Loc d)) ∗ (a1Loc d ↦{fullShare} m (a1Loc d)) ∗ (v0Loc d ↦{fullShare} flatIdx m d) ∗ (v1Loc d ↦{fullShare} trTab m d)
          ∗ (v2Loc d ↦{fullShare} m (v2Loc d)) ∗ (v3Loc d ↦{fullShare} m (v3Loc d)) ∗ (v4Loc d ↦{fullShare} m (v4Loc d)) ∗ v5Loc d ↦{fullShare} m (v5Loc d)) := by
  show held (SparseCore.T d) S8 (V2 m d) = _
  rw [held_S8, V2_r0, V2_r1, V2_keep m d a0' (by decide) (by decide), V2_keep m d a1' (by decide) (by decide), V2_keep m d r2' (by decide) (by decide),
    V2_keep m d r3' (by decide) (by decide), V2_keep m d r4' (by decide) (by decide), V2_keep m d r5' (by decide) (by decide)]

theorem hFlat : (opFlat (F := F)).bufs ⊆ S8 := show ({a0', r0'} : Finset (DevRef τ sig)) ⊆ S8 by decide
theorem hTr : (opTr (F := F)).bufs ⊆ S8 := show ({a1', r1'} : Finset (DevRef τ sig)) ⊆ S8 by decide
theorem hSl : (opSl (F := F)).bufs ⊆ S3 := show ({r3', r4'} : Finset (DevRef τ sig)) ⊆ S3 by decide
theorem hRs : (opRs (F := F)).bufs ⊆ S3 := show ({r4', r5'} : Finset (DevRef τ sig)) ⊆ S3 by decide

/-- The padded table right against the transposed table is right against the table. -/
theorem padOK_of_padOK1 (d : Dev nD) (fp : Buf (Elt F) (v2Loc d)) (h : PadOK1 d (trTab m d) fp) : PadOK m d fp := by
  intro r e
  rw [h r e]
  refine transpose_apply [1, 0] (m (a1Loc d) : S1000000x100.Idx → Elt F .f32) _ (ValueIdx.ix2 e r) (ValueIdx.ix2 r e) fun b => ?_
  match b with
  | ⟨0, _⟩ => rfl
  | ⟨1, _⟩ => rfl

/-- The valuation after the SparseCore call: the output at `g`. -/
def V3 (d : Dev nD) (g : Buf (Elt F) (v3Loc d)) : Valuation τ sig (Elt F) := Function.update (V0 m d) r3' g
theorem V3_r3 (d : Dev nD) (g : Buf (Elt F) (v3Loc d)) : V3 m d g r3' = g := Function.update_self _ _ _
theorem V3_r4 (d : Dev nD) (g : Buf (Elt F) (v3Loc d)) : V3 m d g r4' = m (v4Loc d) := Function.update_of_ne (show r4' ≠ r3' by decide) _ _
theorem V3_r5 (d : Dev nD) (g : Buf (Elt F) (v3Loc d)) : V3 m d g r5' = m (v5Loc d) := Function.update_of_ne (show r5' ≠ r3' by decide) _ _

/-- The result: the lookup of the launch arrays. -/
abbrev resG (d : Dev nD) : Buf (Elt F) (v5Loc d) :=
  (Cert.Spec.G (m (a0Loc d) : S4096x200.Idx → BitVec 32) (m (a1Loc d) : S1000000x100.Idx → Elt F .f32) : S4096x200x100.Idx → Elt F .f32)

/-- After the last two operations the result array holds the lookup, when every chunk of the output is right. -/
theorem V5_r5 (d : Dev nD) (g : Buf (Elt F) (v3Loc d)) (hg : ∀ n, ChunkOK m d g n) :
    (opRs (F := F)).result ((opSl (F := F)).result (V3 m d g)) r5' = resG m d := by
  refine (StableHlo.reshape_result _ _ _ _ _ _ _).trans ?_
  have e4 : (opSl (F := F)).result (V3 m d g) r4'
      = (extractStridedSlice S819200x100 ![0, 0] (g : S819200x128.Idx → Elt F .f32) slices_S819200x128_S819200x100_0_0 : S819200x100.Idx → Elt F .f32) := by
    refine (StableHlo.unary_result _ _ _ _ _ _).trans ?_
    rw [V3_r3]
  show (fun i => shapeCast S4096x200x100 ((opSl (F := F)).result (V3 m d g) r4' : S819200x100.Idx → Elt F .f32) shapeCasts_S819200x100_S4096x200x100 i) = _
  rw [e4]
  refine result_eq_G (m (a0Loc d) : S4096x200.Idx → BitVec 32) (m (a1Loc d) : S1000000x100.Idx → Elt F .f32) (g : S819200x128.Idx → Elt F .f32) fun r e => ?_
  have hr : r.val / 400 < 2048 := by have := r.isLt; omega
  have hk : r.val % 400 < 400 := Nat.mod_lt _ (by decide)
  have := hg ⟨r.val / 400, hr⟩ ⟨r.val % 400, hk⟩ e
  have er : (⟨400 * (r.val / 400) + r.val % 400, by omega⟩ : Fin 819200) = r := Fin.ext (by show 400 * (r.val / 400) + r.val % 400 = r.val; omega)
  rw [er] at this
  exact this

theorem held_V5 (d : Dev nD) (g : Buf (Elt F) (v3Loc d)) (hg : ∀ n, ChunkOK m d g n) :
    (held (T d) S3 ((opRs (F := F)).result ((opSl (F := F)).result (V3 m d g))) : sProp 𝕄)
      = iprop((v5Loc d ↦{fullShare} resG m d) ∗ held (T d) (S3 \ {r5'}) ((opRs (F := F)).result ((opSl (F := F)).result (V3 m d g)))) := by
  unfold held
  rw [show S3 = insert r5' (S3 \ {r5'}) by decide, SparseCore.bigSep_insert' (by decide), V5_r5 m d g hg]
  rfl

/-- The TensorCore's handshake state, its `owes` taken out and put back at other recorded pairs. -/
theorem tcSt_open (d : Dev nD) (n : ℕ) :
    ((K (F := F)).tcSt EH d n : sProp 𝕄) ⊢ iprop(∃ W, ⌜(K (F := F)).WBelow (T d) W (8 * n)⌝ ∗ owes (T d) ((K (F := F)).Otc d n) W
      ∗ (∀ W', ⌜(K (F := F)).WBelow (T d) W' (8 * n)⌝ -∗ owes (T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  · iexact Hrest

theorem Otc_none (d : Dev nD) (n : ℕ) (g : GSem nD τ sig) : (K (F := F)).Otc d n g none = 0 :=
  Nat.eq_zero_of_not_pos fun h => by have := (K (F := F)).lev_of_Otc_pos h; rw [SparseCore.Cfg.lev_none] at this; omega

theorem st0_eq (d : Dev nD) :
    (bigSep Finset.univ fun c : Fin ((K (F := F)).nCore 0) => (P m).st 0 d c) = bigSep Finset.univ fun c : Fin 2 => bigSep Finset.univ fun i : Fin 16 => goA m d c i :=
  bigSep_congr fun _ _ => rfl
theorem dn0_eq (d : Dev nD) :
    (bigSep Finset.univ fun c : Fin ((K (F := F)).nCore 0) => (P m).dn 0 d c) = bigSep Finset.univ fun c : Fin 2 => bigSep Finset.univ fun i : Fin 16 => tdA m d c i :=
  bigSep_congr fun _ _ => rfl

/-- The call's operands, dealt: from the flat indices, a right padded table and the output, every subcore's hand. -/
theorem deal (d : Dev nD) (fp : Buf (Elt F) (v2Loc d)) (hfp : PadOK m d fp) :
    iprop((v0Loc d ↦{fullShare} flatIdx m d) ∗ (v2Loc d ↦{fullShare} fp) ∗ (v3Loc d ↦{fullShare} m (v3Loc d)))
      ⊢ (bigSep Finset.univ fun c : Fin 2 => bigSep Finset.univ fun i : Fin 16 => goA m d c i : sProp 𝕄) := by
  rw [v3_chunks d (m (v3Loc d))]
  iintro ⟨H0, H2, H3⟩
  ihave H0' := (shares_split (F := F) (flatIdx m d)) $$ H0
  ihave H2' := (shares_split (F := F) fp) $$ H2
  ihave H := (show iprop((bigSep Finset.univ fun c : Fin 2 => bigSep Finset.univ fun i : Fin 16 => v0Loc d ↦{tileShare c i} flatIdx m d)
      ∗ (bigSep Finset.univ fun c : Fin 2 => bigSep Finset.univ fun i : Fin 16 => v2Loc d ↦{tileShare c i} fp)
      ∗ (bigSep Finset.univ fun c : Fin 2 => bigSep Finset.univ fun i : Fin 16 => bigSep Finset.univ fun g : Fin 64 => v3Loc d ↦[oChunkSet (cn c i g)]{fullShare} m (v3Loc d)))
      ⊢ (bigSep Finset.univ fun c : Fin 2 => bigSep Finset.univ fun i : Fin 16 => goA m d c i : sProp 𝕄) from by
    rw [← bigSep_sep', ← bigSep_sep']
    refine bigSep_mono fun c _ => ?_
    rw [← bigSep_sep', ← bigSep_sep']
    refine bigSep_mono fun i _ => ?_
    show iprop((v0Loc d ↦{tileShare c i} flatIdx m d) ∗ (v2Loc d ↦{tileShare c i} fp)
        ∗ bigSep Finset.univ fun g : Fin 64 => v3Loc d ↦[oChunkSet (cn c i g)]{fullShare} m (v3Loc d))
      ⊢ iprop(∃ fp : Buf (Elt F) (v2Loc d), ⌜PadOK m d fp⌝ ∗ (v0Loc d ↦{tileShare c i} flatIdx m d) ∗ (v2Loc d ↦{tileShare c i} fp)
        ∗ bigSep Finset.univ fun g : Fin 64 => v3Loc d ↦[oChunkSet (cn c i g)]{fullShare} m (v3Loc d))
    iintro ⟨Ha, Hb, Hc⟩
    iexists fp
    isplitr; · ipureintro; exact hfp
    isplitl [Ha]; · iexact Ha
    isplitl [Hb]; · iexact Hb
    iexact Hc) $$ [H0' H2' H3]
  · isplitl [H0']; · iexact H0'
    isplitl [H2']; · iexact H2'
    iexact H3
  iexact H

/-- What @main leaves the claim: the arguments at their launch contents, the result at the lookup. -/
abbrev FIN (d : Dev nD) : sProp 𝕄 := iprop((a0Loc d ↦{fullShare} m (a0Loc d)) ∗ (a1Loc d ↦{fullShare} m (a1Loc d)) ∗ v5Loc d ↦{fullShare} resG m d)

set_option maxRecDepth 16384 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ padGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the flattening and the transposition
  iapply (wp_hlo_within 𝒱 (SparseCore.T d) none Set.univ (op := opFlat) (S := S8) hFlat (V := V0 m d)) $$ [Hb Hheld]
  · isplitl [Hb] <;> iassumption
  iintro ⟨Hb, Hheld⟩
  rw [wp_ret]; imodintro
  iapply (wp_hlo_within 𝒱 (SparseCore.T d) none Set.univ (op := opTr) (S := S8) hTr (V := (opFlat (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha0, Ha1, Hv0, Hv1, Hv2, Hv3, Hv4, Hv5⟩
  -- the padding pipeline
  ihave Hst' := (tcSt_open (F := F) d 0) $$ Hst
  icases Hst' with ⟨%W, %hW, HO, Hcl⟩
  ihave Hlev := ((K (F := F)).ctx_levAts (EH := EH) (P := P m) κ) $$ Hctx
  iapply (wp_wand_r frame _ Set.univ) $$ [Hlev Hb Hv1 Hv2 HG HO Ha0 Ha1 Hv0 Hv3 Hv4 Hv5 Hcl]
  isplitl [Hlev Hb Hv1 Hv2 HG HO]
  · iapply (pad_region (F := F) d (trTab m d) (m (v2Loc d)) ((K (F := F)).Otc d 0) W (Otc_none (F := F) d 0))
    isplitl [Hlev]; · iexact Hlev
    isplitl [Hb]; · iexact Hb
    isplitl [Hv1]; · iexact Hv1
    isplitl [Hv2]; · iexact Hv2
    isplitl [HG]; · iexact HG
    iexact HO
  iintro %_u ⟨Hb, Hv1, ⟨%fp, %hfp, Hv2⟩, %W', %hW', HO⟩
  have hWB : (K (F := F)).WBelow (T d) W' (8 * 0) := by
    intro p hp
    rcases hW' p hp with h | h
    · exact hW p h
    · rw [h, SparseCore.Cfg.lev_none]
  ihave Hst := Hcl $$ %W' %hWB HO
  -- the SparseCore call
  iapply ((K (F := F)).wp_run (D (F := F)) 𝒱 (EH := EH) (P := P m) κ d 0) $$ [Hst Hv0 Hv2 Hv3 Hb Ha0 Ha1 Hv4 Hv5]
  isplitr; · iexact Hctx
  isplitl [Hst]; · iexact Hst
  isplitl [Hv0 Hv2 Hv3]
  · rw [st0_eq]
    iapply (deal m d fp (padOK_of_padOK1 m d fp hfp))
    isplitl [Hv0]; · iexact Hv0
    isplitl [Hv2]; · iexact Hv2
    iexact Hv3
  iintro ⟨Hst, Hdn⟩
  ihave Hdn' := (Entails.of_eq (dn0_eq m d)) $$ Hdn
  ihave Hj := (v3_join m d) $$ Hdn'
  icases Hj with ⟨%g, %hg, Hv3⟩
  -- the output's first 100 columns, regrouped
  iapply (wp_hlo_within 𝒱 (SparseCore.T d) none Set.univ (op := opSl) (S := S3) hSl (V := V3 m d g)) $$ [Hb Hv3 Hv4 Hv5]
  · isplitl [Hb]; · iexact Hb
    rw [held_S3, V3_r3, V3_r4, V3_r5]
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := opRs) (S := S3) hRs (V := (opSl (F := F)).result (V3 m d g))) $$ [Hb Hheld]
  · isplitl [Hb] <;> iassumption
  iintro ⟨Hb, Hheld⟩
  ihave Hh := (Entails.of_eq (held_V5 (F := F) m d g hg)) $$ Hheld
  icases Hh with ⟨Hv5, -⟩
  rw [wp_ret]; imodintro; imodintro
  isplitl [Hst]; · iexact Hst
  isplitl [Ha0]; · iexact Ha0
  isplitl [Ha1]; · iexact Ha1
  iexact Hv5

/-- What the claim reads of device `d`'s final state. -/
def fq (d : Dev nD) (s' : Phys nD τ sig (Elt F)) : Prop :=
  s'.mem.mem (v5Loc d) = resG m d ∧ s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v5Loc d) (I := Finset.univ) (q := fullShare) (f := resG m d)) $$ [HSI H5]
  · isplitl [HSI] <;> iassumption
  icases H with %h5
  ipureintro
  exact ⟨funext fun i => h5 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v5Loc c) = resG m c ∧ r.2.mem (a0Loc c) = m (a0Loc c) ∧ r.2.mem (a1Loc c) = m (a1Loc c)

theorem run_main [∀ e, Nonempty (Elt F e)] (hpre : PreOK m) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => padGhost (F := F) d) (FIN m) (u₀ (F := F)) (sep_elim_left.trans (hu₀ m)) (hmain m ρ) (fq m) (hfin m) (QC m) (fun _ h => h)

end Cert.Kernel.Hand

end
-- ==== Proof.KICommon.lean ====
/-
  The launch set-up shared by the modules that prove the program's run: the program as a SparseCore configuration, the
  proof's resource algebra (the launch handshakes' rounds, the table-padding pipeline's rounds, the transfers' counters),
  the arrays' places in memory, how the flat index array and the output array divide among the 32 vector subcores
  (subcore s of core c works on rows [25600·(2s+c), 25600·(2s+c+1)), in 64 chunks of 400 rows), and what each handshake
  of the one SparseCore call carries.
-/
import proofs.«206924_g7387343749612_cont_9to1c4b_603_14_alg».proof.Defs
import proofs.«206924_g7387343749612_cont_9to1c4b_603_14_alg».proof.Proof.Spec
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Pipeline.Regions
import Idealize.ShloMosaic.Lib.Tactic
import proofs.«206924_g7387343749612_cont_9to1c4b_603_14_alg».proof.Proof.Gen.KernelIdeal
import proofs.«206924_g7387343749612_cont_9to1c4b_603_14_alg».proof.Proof.Gen.KernelIdeal.Skeleton
import proofs.«206924_g7387343749612_cont_9to1c4b_603_14_alg».proof.Proof.Gen.KernelIdeal.Launch
import proofs.«206924_g7387343749612_cont_9to1c4b_603_14_alg».proof.Proof.Gen.KernelIdeal.Points

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

/-- The launch handshakes' rounds. -/
abbrev UH : Type := URounds (GSem nD τ sig) ℕ
/-- The padding pipeline's staging cells' rounds. -/
abbrev UP : Type := URounds (GSem nD τ sig) Unit
abbrev UU : Type := UP × (UH × Counters)

local notation "𝕄" => MT nD τ sig (HIx 1) (Elt F) ℕ UU ℕ

abbrev EP : Emb UP (MT nD τ sig (HIx 1) (Elt F) ℕ UU ℕ) := embL
abbrev EHC : Emb (UH × Counters) (MT nD τ sig (HIx 1) (Elt F) ℕ UU ℕ) := embR
abbrev EH : Emb UH (MT nD τ sig (HIx 1) (Elt F) ℕ UU ℕ) := (Emb.inl : Emb UH (UH × Counters)).trans EHC

/-! ## The launch memory and the buffers -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5

/-- The flat index array, the padded table and the output as a vector subcore names them. -/
abbrev iV : Memref sig .scVector .hbm S819200 .i32 := Memref.whole main_v0_scv
abbrev tV : Memref sig .scVector .hbm S1000000x128 .f32 := Memref.whole main_v2_scv
abbrev oV : Memref sig .scVector .hbm S819200x128 .f32 := Memref.whole main_v3_scv

/-! ## The chunks: 2048 blocks of 400 rows -/

theorem idiv : 2048 ∣ S819200.size 0 := ⟨400, rfl⟩
theorem odiv : 2048 ∣ S819200x128.size 0 := ⟨400, rfl⟩
/-- Chunk `n` of the flat index array: entries [400n, 400n + 400). -/
abbrev iChunk (n : Fin 2048) : Rect S819200 := Rect.part (s := S819200) (a₀ := 0) idiv n
/-- Chunk `n` of the output: rows [400n, 400n + 400), all 128 columns. -/
abbrev oChunk (n : Fin 2048) : Rect S819200x128 := Rect.part (s := S819200x128) (a₀ := 0) odiv n
abbrev oChunkSet (n : Fin 2048) : Finset S819200x128.Idx := ((oV).view.slice (oChunk n)).set

/-- The chunk that vector subcore `i` of core `c` handles at step `g` (of 64): number `64·(2i + c) + g`. -/
def cn (c : Fin 2) (i : Fin 16) (g : Fin 64) : Fin 2048 := ⟨64 * (2 * i.val + c.val) + g.val, by omega⟩

/-! ## What the arrays hold -/

/-- The flat index array: the index array's entries in row-major order. -/
abbrev flatIdx (d : Dev nD) : Buf (Elt F) (v0Loc d) :=
  (shapeCast S819200 (m (a0Loc d) : IVec S4096x200 32) shapeCasts_S4096x200_S819200 : IVec S819200 32)

/-- The padded table is right: its first 100 columns are the table's. -/
def PadOK (d : Dev nD) (fp : Buf (Elt F) (v2Loc d)) : Prop :=
  ∀ (r : Fin 1000000) (e : Fin 100), (fp : S1000000x128.Idx → Elt F .f32) (ValueIdx.ix2 r (Fin.castLE (by decide) e))
    = (m (a1Loc d) : S1000000x100.Idx → Elt F .f32) (ValueIdx.ix2 r e)

/-- Row `r` of the output is right: its first 100 columns are the table's row that flat index `r` names. -/
def RowOK (d : Dev nD) (f : Buf (Elt F) (v3Loc d)) (r : Fin 819200) : Prop :=
  ∀ e : Fin 100, (f : S819200x128.Idx → Elt F .f32) (ValueIdx.ix2 r (Fin.castLE (by decide) e))
    = (m (a1Loc d) : S1000000x100.Idx → Elt F .f32)
        (ValueIdx.ix2 (Cert.Spec.rowIx ((flatIdx m d : S819200.Idx → BitVec 32) (ValueIdx.ix1 r))) e)

/-- Chunk `n` of the output is right. -/
def ChunkOK (d : Dev nD) (f : Buf (Elt F) (v3Loc d)) (n : Fin 2048) : Prop :=
  ∀ k : Fin 400, RowOK m d f ⟨400 * n.val + k.val, by omega⟩

/-- Every word of the index array names a row of the table. -/
def PreOK : Prop := ∀ d : Dev nD, Cert.Spec.IdxOK (m (a0Loc d) : S4096x200.Idx → BitVec 32)

/-! ## Shares: the index array and the padded table are read by every vector subcore -/

/-- Core `c`'s share, and within it subcore `i`'s. -/
abbrev coreShare (c : Fin 2) : PosShare TreeShare := Transfers.shareTok fullShare 2 c
abbrev tileShare (c : Fin 2) (i : Fin 16) : PosShare TreeShare := Transfers.shareTok (coreShare c) 16 i

variable [FloatOps F]

/-! ## What the handshakes carry -/

/-- What a vector subcore is handed: read shares of the flat index array and of a right padded table, and its 64
    chunks of the output. -/
abbrev goA (d : Dev nD) (c : Fin 2) (i : Fin 16) : sProp 𝕄 :=
  iprop(∃ fp : Buf (Elt F) (v2Loc d), ⌜PadOK m d fp⌝ ∗ (v0Loc d ↦{tileShare c i} flatIdx m d) ∗ (v2Loc d ↦{tileShare c i} fp)
    ∗ bigSep Finset.univ fun g : Fin 64 => v3Loc d ↦[oChunkSet (cn c i g)]{fullShare} m (v3Loc d))
/-- What it hands back: its 64 chunks of the output, each right. -/
abbrev tdA (d : Dev nD) (c : Fin 2) (i : Fin 16) : sProp 𝕄 :=
  iprop(bigSep Finset.univ fun g : Fin 64 => iprop(∃ f : Buf (Elt F) (v3Loc d), ⌜ChunkOK m d f (cn c i g)⌝ ∗ v3Loc d ↦[oChunkSet (cn c i g)]{fullShare} f))

def P : (K (F := F)).Pay (nD := nD) (Val := Elt F) (Name := ℕ) (U := UU) where
  st := fun q d c => match q with | 0 => bigSep Finset.univ fun i : Fin 16 => goA m d (Fin.cast nCore_zero c) i
  dn := fun q d c => match q with | 0 => bigSep Finset.univ fun i : Fin 16 => tdA m d (Fin.cast nCore_zero c) i
  go := fun q d c i => match q with | 0 => goA m d (Fin.cast nCore_zero c) (Fin.cast nSub_zero i)
  td := fun q d c i => match q with | 0 => tdA m d (Fin.cast nCore_zero c) (Fin.cast nSub_zero i)
  x := fun _ _ => iprop(emp)

instance P_storable : (P (F := F) m).IsStorable where
  st q d c := match q with
    | 0 => (inferInstance : BI.Storable (upEmb : UEmb _ 𝕄) (bigSep Finset.univ fun i : Fin 16 => goA m d (Fin.cast nCore_zero c) i))
  dn q d c := match q with
    | 0 => (inferInstance : BI.Storable (upEmb : UEmb _ 𝕄) (bigSep Finset.univ fun i : Fin 16 => tdA m d (Fin.cast nCore_zero c) i))
  go q d c i := match q with
    | 0 => (inferInstance : BI.Storable (upEmb : UEmb _ 𝕄) (goA m d (Fin.cast nCore_zero c) (Fin.cast nSub_zero i)))
  td q d c i := match q with
    | 0 => (inferInstance : BI.Storable (upEmb : UEmb _ 𝕄) (tdA m d (Fin.cast nCore_zero c) (Fin.cast nSub_zero i)))

end Cert.KernelIdeal.Hand

end
-- ==== Proof.KISplit.lean ====
/-
  How the arrays divide among the vector subcores and come back together. The output's 819200 rows are 2048 chunks of
  400 rows, pairwise disjoint and covering it; numbering them by (core, subcore, step) is a bijection with 0 … 2047. Held
  chunk by chunk, each chunk right, the output is held whole with every row right. A read share of an array divides into
  one per core and then one per subcore.
-/
import proofs.«206924_g7387343749612_cont_9to1c4b_603_14_alg».proof.Proof.KICommon

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

/-- (core, subcore, step) ↦ chunk number is a bijection onto 0 … 2047. -/
def chunkEquiv : Fin 2 × Fin 16 × Fin 64 ≃ Fin 2048 where
  toFun t := cn t.1 t.2.1 t.2.2
  invFun n := (⟨(n.val / 64) % 2, by omega⟩, ⟨n.val / 128, by omega⟩, ⟨n.val % 64, by omega⟩)
  left_inv := by
    rintro ⟨c, i, g⟩
    have hc := c.isLt; have hi := i.isLt; have hg := g.isLt
    refine Prod.ext (Fin.ext ?_) (Prod.ext (Fin.ext ?_) (Fin.ext ?_))
    · show (64 * (2 * i.val + c.val) + g.val) / 64 % 2 = c.val; omega
    · show (64 * (2 * i.val + c.val) + g.val) / 128 = i.val; omega
    · show (64 * (2 * i.val + c.val) + g.val) % 64 = g.val; omega
  right_inv := by
    intro n
    refine Fin.ext ?_
    show 64 * (2 * (n.val / 128) + n.val / 64 % 2) + n.val % 64 = n.val
    omega

theorem chunkEquiv_apply (c : Fin 2) (i : Fin 16) (g : Fin 64) : chunkEquiv (c, i, g) = cn c i g := rfl

theorem oChunkSet_eq (n : Fin 2048) : oChunkSet n = (oChunk n).set := by
  show ((View.whole (main_v3_scv : Ref sig .scVector)).slice (oChunk n)).set = _
  rw [View.set_slice]; exact Finset.map_refl

theorem oChunks_disjoint : ∀ i ∈ (Finset.univ : Finset (Fin 2048)), ∀ j ∈ (Finset.univ : Finset (Fin 2048)), i ≠ j → Disjoint (oChunkSet i) (oChunkSet j) :=
  fun i _ j _ h => by rw [oChunkSet_eq, oChunkSet_eq]; exact Rect.part_disjoint odiv h

theorem oChunks_cover : (Finset.univ : Finset (Fin 2048)).biUnion oChunkSet = Finset.univ :=
  (Finset.biUnion_congr rfl fun i _ => oChunkSet_eq i).trans (Rect.biUnion_part odiv)

/-- Row `400n + k`, any column, lies in chunk `n`. -/
theorem mem_oChunkSet (n : Fin 2048) (k : Fin 400) (col : Fin 128) (h : 400 * n.val + k.val < 819200) :
    (ValueIdx.ix2 (⟨400 * n.val + k.val, h⟩ : Fin 819200) col : S819200x128.Idx) ∈ oChunkSet n := by
  rw [oChunkSet_eq]
  refine Rect.mem_set_unit.mpr fun a => ?_
  match a with
  | ⟨0, _⟩ =>
    show n.val * (819200 / 2048) ≤ 400 * n.val + k.val ∧ 400 * n.val + k.val < n.val * (819200 / 2048) + 819200 / 2048
    have := k.isLt; omega
  | ⟨1, _⟩ =>
    show 0 * 128 ≤ col.val ∧ col.val < 0 * 128 + 128
    have := col.isLt; omega

/-- The output held whole is its 2048 chunks held, grouped by core, subcore and step. -/
theorem v3_chunks (d : Dev nD) (f : Buf (Elt F) (v3Loc d)) :
    (v3Loc d ↦{fullShare} f : sProp 𝕄)
      = bigSep Finset.univ fun c : Fin 2 => bigSep Finset.univ fun i : Fin 16 => bigSep Finset.univ fun g : Fin 64 =>
          v3Loc d ↦[oChunkSet (cn c i g)]{fullShare} f := by
  have h1 : (v3Loc d ↦{fullShare} f : sProp 𝕄) = bigSep Finset.univ fun n : Fin 2048 => v3Loc d ↦[oChunkSet n]{fullShare} f := by
    rw [← pointsTo_biUnion Finset.univ (ℓ := v3Loc d) oChunkSet oChunks_disjoint, oChunks_cover]; try rfl
  rw [h1, bigSep_univ_equiv chunkEquiv, bigSep_univ_prod]
  refine bigSep_congr fun c _ => ?_
  rw [bigSep_univ_prod]
  rfl

/-- The chunks held, each right, are the output held whole with every chunk right. -/
theorem v3_join (m : (ℓ : Loc nD τ sig) → Buf (Elt F) ℓ) (d : Dev nD) :
    (bigSep Finset.univ fun c : Fin 2 => bigSep Finset.univ fun i : Fin 16 => bigSep Finset.univ fun g : Fin 64 =>
        iprop(∃ f : Buf (Elt F) (v3Loc d), ⌜ChunkOK m d f (cn c i g)⌝ ∗ v3Loc d ↦[oChunkSet (cn c i g)]{fullShare} f))
      ⊢ (iprop(∃ f : Buf (Elt F) (v3Loc d), ⌜∀ n, ChunkOK m d f n⌝ ∗ v3Loc d ↦{fullShare} f) : sProp 𝕄) := by
  have h1 : (bigSep Finset.univ fun c : Fin 2 => bigSep Finset.univ fun i : Fin 16 => bigSep Finset.univ fun g : Fin 64 =>
        (iprop(∃ f : Buf (Elt F) (v3Loc d), ⌜ChunkOK m d f (cn c i g)⌝ ∗ v3Loc d ↦[oChunkSet (cn c i g)]{fullShare} f) : sProp 𝕄))
      = bigSep Finset.univ fun n : Fin 2048 => iprop(∃ f : Buf (Elt F) (v3Loc d), ⌜ChunkOK m d f n⌝ ∗ v3Loc d ↦[oChunkSet n]{fullShare} f) := by
    rw [bigSep_univ_equiv chunkEquiv (fun n : Fin 2048 => (iprop(∃ f : Buf (Elt F) (v3Loc d), ⌜ChunkOK m d f n⌝ ∗ v3Loc d ↦[oChunkSet n]{fullShare} f) : sProp 𝕄)),
      bigSep_univ_prod]
    refine bigSep_congr fun c _ => ?_
    rw [bigSep_univ_prod]
    rfl
  rw [h1]
  have : Nonempty (Buf (Elt F) (v3Loc d)) := ⟨m (v3Loc d)⟩
  refine (bigSep_exists_pi Finset.univ (fun (n : Fin 2048) (f : Buf (Elt F) (v3Loc d)) =>
    (iprop(⌜ChunkOK m d f n⌝ ∗ v3Loc d ↦[oChunkSet n]{fullShare} f) : sProp 𝕄))).trans ?_
  iintro ⟨%fs, H⟩
  ihave H' := (bigSep_pure_sep Finset.univ (fun n : Fin 2048 => ChunkOK m d (fs n) n) (fun n => (v3Loc d ↦[oChunkSet n]{fullShare} fs n : sProp 𝕄))) $$ H
  icases H' with ⟨%hok, H⟩
  ihave H'' := (pointsTo_biUnion_join (ℓ := v3Loc d) (q := fullShare) (Val := Elt F) Finset.univ oChunkSet fs (m (v3Loc d)) oChunks_disjoint) $$ H
  icases H'' with ⟨%g, %hg, Hg⟩
  rw [oChunks_cover]
  iexists g
  isplitr
  · ipureintro
    intro n k e
    have hlt : 400 * n.val + k.val < 819200 := by have := n.isLt; have := k.isLt; omega
    have := hok n (Finset.mem_univ n) k e
    rw [← this]
    exact hg n (Finset.mem_univ n) _ (mem_oChunkSet n k (Fin.castLE (by decide) e) hlt)
  · iexact Hg

/-- A share of an array divides into one per core and, within it, one per subcore (the rest is let go). -/
theorem shares_split {ℓ : Loc nD τ sig} (f : Buf (Elt F) ℓ) :
    (ℓ ↦{fullShare} f : sProp 𝕄) ⊢ bigSep Finset.univ fun c : Fin 2 => bigSep Finset.univ fun i : Fin 16 => ℓ ↦{tileShare c i} f := by
  refine (Transfers.pointsTo_toks_split (ℓ := ℓ) (S := Finset.univ) (f := f) fullShare 2).trans ?_
  refine sep_elim_right.trans ?_
  refine bigSep_mono fun c _ => ?_
  exact (Transfers.pointsTo_toks_split (ℓ := ℓ) (S := Finset.univ) (f := f) (coreShare c) 16).trans sep_elim_right

end Cert.KernelIdeal.Hand

end
-- ==== Proof.KIValue.lean ====
/-
  The host operations around the kernels, read at an index: the flat index array is the index array in row-major order;
  the result is the output's first 100 columns, its 819200 rows regrouped as 4096 × 200. If every row of the output is
  right, the result is the lookup `Spec.G`.
-/
import proofs.«206924_g7387343749612_cont_9to1c4b_603_14_alg».proof.Proof.KICommon
import Idealize.ShloMosaic.Lib.Pipeline.Value

noncomputable section

namespace Cert.KernelIdeal.Hand

open Cert.KernelIdeal Cert.KernelIdeal.Gen
open Idealize.ShloMosaic Idealize.ShloMosaic.ValueIdx

variable {α : Type}

/-- Entry `200·b + s` of the flat array is entry (b, s) of the array. -/
theorem flat_apply (x : S4096x200.Idx → α) (b : Fin 4096) (s : Fin 200) (r : Fin 819200) (hr : r.val = 200 * b.val + s.val) :
    shapeCast S819200 x shapeCasts_S4096x200_S819200 (ix1 r) = x (ix2 b s) := by
  refine shapeCast_apply x _ (ix1 r) (ix2 b s) ?_
  rw [Shape.rowMajor_val_two, Shape.rowMajor_val_one]
  show b.val * 200 + s.val = r.val
  omega

/-- Entry (b, s, e) of the result is entry (200·b + s, e) of the output. -/
theorem result_apply (g : S819200x128.Idx → α) (b : Fin 4096) (s : Fin 200) (e : Fin 100) (r : Fin 819200) (hr : r.val = 200 * b.val + s.val) :
    shapeCast S4096x200x100 (extractStridedSlice S819200x100 ![0, 0] g slices_S819200x128_S819200x100_0_0) shapeCasts_S819200x100_S4096x200x100 (ix3 b s e)
      = g (ix2 r (Fin.castLE (by decide) e)) := by
  rw [shapeCast_apply _ _ (ix3 b s e) (ix2 r e) (by
    rw [Shape.rowMajor_val_two, Shape.rowMajor_val_three]
    show r.val * 100 + e.val = (b.val * 200 + s.val) * 100 + e.val
    rw [hr]; ring)]
  refine extractStridedSlice_apply _ g _ (ix2 r e) (ix2 r (Fin.castLE (by decide) e)) fun a => ?_
  match a with
  | ⟨0, _⟩ => show r.val = 0 + r.val; omega
  | ⟨1, _⟩ => show e.val = 0 + e.val; omega

/-- Every row of the output right: the result is the lookup. -/
theorem result_eq_G (idx : S4096x200.Idx → BitVec 32) (tab : S1000000x100.Idx → α) (g : S819200x128.Idx → α)
    (hg : ∀ (r : Fin 819200) (e : Fin 100), g (ix2 r (Fin.castLE (by decide) e))
      = tab (ix2 (Cert.Spec.rowIx (shapeCast S819200 idx shapeCasts_S4096x200_S819200 (ix1 r))) e)) :
    shapeCast S4096x200x100 (extractStridedSlice S819200x100 ![0, 0] g slices_S819200x128_S819200x100_0_0) shapeCasts_S819200x100_S4096x200x100
      = Cert.Spec.G idx tab := by
  funext j
  obtain ⟨b, s, e, rfl⟩ : ∃ (b : Fin 4096) (s : Fin 200) (e : Fin 100), j = ix3 b s e := ⟨j 0, j 1, j 2, eq_ix3 j⟩
  have hlt : 200 * b.val + s.val < 819200 := by have := b.isLt; have := s.isLt; omega
  rw [result_apply g b s e ⟨200 * b.val + s.val, hlt⟩ rfl, hg, flat_apply idx b s ⟨200 * b.val + s.val, hlt⟩ rfl, Cert.Spec.G_apply]

end Cert.KernelIdeal.Hand

end
-- ==== Proof.KITile.lean ====
/-
  The vector subcore's task: subcore s of core c copies, chunk by chunk (64 chunks of 400 rows), the rows of the padded
  table that its part of the flat index array names into its part of the output, double-buffered: while the rows of
  one chunk stream into one row scratch, the previous chunk's rows are written out from the other.
-/
import proofs.«206924_g7387343749612_cont_9to1c4b_603_14_alg».proof.Proof.KICommon

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
abbrev cL (L : grid1.Coords) : Fin 2 := Fin.cast bound_zero (L 0)
abbrev jL (L : grid1.Coords) : Fin 16 := Fin.cast bound_one (L 1)

variable [FloatOps F]

/-! ## The subcore's thread, its memrefs, its cells -/

section Tile

variable (m : (ℓ : Loc nD τ sig) → Buf (Elt F) ℓ) (d : Dev nD) (L : grid1.Coords)

abbrev VT (d : Dev nD) (L : grid1.Coords) : Thread nD τ := V d (cV L) (jV L)

abbrev s0V : Memref sig .scVector .vmem S400 .i32 := Memref.whole cc1_scratch0
abbrev s1V : Memref sig .scVector .vmem S400 .i32 := Memref.whole cc1_scratch1
abbrev s2V : Memref sig .scVector .vmem S400x128 .f32 := Memref.whole cc1_scratch2
abbrev s3V : Memref sig .scVector .vmem S400x128 .f32 := Memref.whole cc1_scratch3
/-- The whole padded table, as the gather's source names it. -/
abbrev tAllK : Memref sig .scVector .hbm S1000000x128 .f32 :=
  (tV).slice (Rect.unit (s := S1000000x128) ![0, 0] S1000000x128.size inb_S1000000x128_S1000000x128_0_0) (fun _ => rfl)

abbrev cell9 (d : Dev nD) (L : grid1.Coords) : GSem nD τ sig := (VT d L, .dma cc1_scratch4.sem)
abbrev cell10 (d : Dev nD) (L : grid1.Coords) : GSem nD τ sig := (VT d L, .dma cc1_scratch5.sem)
abbrev cellA (d : Dev nD) (L : grid1.Coords) : GSem nD τ sig := (VT d L, .dma cc1_scoped0.sem)
abbrev cellB (d : Dev nD) (L : grid1.Coords) : GSem nD τ sig := (VT d L, .dma cc1_scoped1.sem)
abbrev cellC (d : Dev nD) (L : grid1.Coords) : GSem nD τ sig := (VT d L, .dma cc1_scoped2.sem)
abbrev cellD (d : Dev nD) (L : grid1.Coords) : GSem nD τ sig := (VT d L, .dma cc1_scoped3.sem)
abbrev cellE (d : Dev nD) (L : grid1.Coords) : GSem nD τ sig := (VT d L, .dma cc1_scoped4.sem)

abbrev restCells (d : Dev nD) (L : grid1.Coords) : Finset (GSem nD τ sig) :=
  (((((((ownCells (VT d L)).erase (cell9 d L)).erase (cell10 d L)).erase (cellA d L)).erase (cellB d L)).erase (cellC d L)).erase (cellD d L)).erase (cellE d L)

omit [FloatOps F] in
theorem ownSems0_V :
    (ownSems0 (VT d L) : sProp 𝕄) = iprop(semVal (cell9 d L) 0 ∗ semVal (cell10 d L) 0 ∗ semVal (cellA d L) 0 ∗ semVal (cellB d L) 0 ∗ semVal (cellC d L) 0
      ∗ semVal (cellD d L) 0 ∗ semVal (cellE d L) 0 ∗ bigSep (restCells d L) fun g => semVal g 0) := by
  have hm : ∀ s : DmaSem sig, (SemLoc.dma s : SemLoc sig).isScoped .scVector = true →
      ((VT d L, SemLoc.dma s) : GSem nD τ sig) ∈ ownCells (VT d L) := fun s h => (mem_ownCells (g := (VT d L, SemLoc.dma s))).mpr ⟨rfl, h⟩
  have hne : ∀ s s' : DmaSem sig, s ≠ s' → ((VT d L, SemLoc.dma s) : GSem nD τ sig) ≠ (VT d L, SemLoc.dma s') :=
    fun s s' h e => h (by injection (Prod.mk.inj e).2)
  unfold SparseCore.Cfg.ownSems0
  rw [SparseCore.bigSep_erase' (hm cc1_scratch4.sem (by decide)),
    SparseCore.bigSep_erase' (Finset.mem_erase.mpr ⟨hne _ _ (by decide), hm cc1_scratch5.sem (by decide)⟩),
    SparseCore.bigSep_erase' (Finset.mem_erase.mpr ⟨hne _ _ (by decide), Finset.mem_erase.mpr ⟨hne _ _ (by decide), hm cc1_scoped0.sem (by decide)⟩⟩),
    SparseCore.bigSep_erase' (Finset.mem_erase.mpr ⟨hne _ _ (by decide), Finset.mem_erase.mpr ⟨hne _ _ (by decide), Finset.mem_erase.mpr ⟨hne _ _ (by decide),
      hm cc1_scoped1.sem (by decide)⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), hm cc1_scoped2.sem (by decide)⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), hm cc1_scoped3.sem (by decide)⟩⟩⟩⟩⟩),
    SparseCore.bigSep_erase' (Finset.mem_erase.mpr ⟨hne _ _ (by decide), Finset.mem_erase.mpr ⟨hne _ _ (by decide), Finset.mem_erase.mpr ⟨hne _ _ (by decide),
      Finset.mem_erase.mpr ⟨hne _ _ (by decide), Finset.mem_erase.mpr ⟨hne _ _ (by decide), Finset.mem_erase.mpr ⟨hne _ _ (by decide),
      hm cc1_scoped4.sem (by decide)⟩⟩⟩⟩⟩⟩)]

abbrev restRefs (L : grid1.Coords) : Finset (DevRef τ sig) :=
  ((((ownRefs (τ := τ) (.scVector (cV L) (jV L))).erase ((Proc.scVector (cV L) (jV L)).devRef cc1_scratch0)).erase
    ((Proc.scVector (cV L) (jV L)).devRef cc1_scratch1)).erase ((Proc.scVector (cV L) (jV L)).devRef cc1_scratch2)).erase
    ((Proc.scVector (cV L) (jV L)).devRef cc1_scratch3)

omit [FloatOps F] in
/-- The four scratch buffers are among the subcore's own: they are them, at some contents, and the rest. -/
theorem ownBufs_V :
    (ownBufs (VT d L) : sProp 𝕄)
      = iprop((∃ f, (VT d L).loc cc1_scratch0 ↦{fullShare} f) ∗ (∃ f, (VT d L).loc cc1_scratch1 ↦{fullShare} f)
          ∗ (∃ f, (VT d L).loc cc1_scratch2 ↦{fullShare} f) ∗ (∃ f, (VT d L).loc cc1_scratch3 ↦{fullShare} f)
          ∗ bigSep (restRefs L) fun b => iprop(∃ f, ((d, b) : Loc nD τ sig) ↦{fullShare} f)) := by
  have hm0 := SparseCore.Cfg.mem_ownRefs_of_owner (τ := τ) (p := Proc.scVector (cV L) (jV L)) (b := (Proc.scVector (cV L) (jV L)).devRef cc1_scratch0) rfl
  have hm1 := SparseCore.Cfg.mem_ownRefs_of_owner (τ := τ) (p := Proc.scVector (cV L) (jV L)) (b := (Proc.scVector (cV L) (jV L)).devRef cc1_scratch1) rfl
  have hm2 := SparseCore.Cfg.mem_ownRefs_of_owner (τ := τ) (p := Proc.scVector (cV L) (jV L)) (b := (Proc.scVector (cV L) (jV L)).devRef cc1_scratch2) rfl
  have hm3 := SparseCore.Cfg.mem_ownRefs_of_owner (τ := τ) (p := Proc.scVector (cV L) (jV L)) (b := (Proc.scVector (cV L) (jV L)).devRef cc1_scratch3) rfl
  have hne : ∀ r r' : Ref sig .scVector, r ≠ r' → (Proc.scVector (cV L) (jV L)).devRef r ≠ (Proc.scVector (cV L) (jV L)).devRef r' :=
    fun r r' h e => h (Proc.devRef_injective _ e)
  unfold SparseCore.Cfg.ownBufs
  refine (SparseCore.bigSep_erase' hm0).trans ?_
  rw [SparseCore.bigSep_erase' (Finset.mem_erase.mpr ⟨hne _ _ (by decide), hm1⟩),
    SparseCore.bigSep_erase' (Finset.mem_erase.mpr ⟨hne _ _ (by decide), Finset.mem_erase.mpr ⟨hne _ _ (by decide), hm2⟩⟩),
    SparseCore.bigSep_erase' (Finset.mem_erase.mpr ⟨hne _ _ (by decide), Finset.mem_erase.mpr ⟨hne _ _ (by decide), Finset.mem_erase.mpr ⟨hne _ _ (by decide),
      hm3⟩⟩⟩)]

/-! ## The trips, the chunks a trip writes, and the condition -/

omit [FloatOps F] in
theorem klt (k : Fin k1_t1_loop.trips) : k.val < 32 := Nat.lt_of_lt_of_le k.isLt k1_t1_abs.2.1
omit [FloatOps F] in
theorem trips_eq : k1_t1_loop.trips = 32 := by decide

/-- The even and the odd chunk of trip `k`. -/
abbrev gE (k : Fin k1_t1_loop.trips) : Fin 64 := ⟨2 * k.val, by have := klt k; omega⟩
abbrev gO (k : Fin k1_t1_loop.trips) : Fin 64 := ⟨2 * k.val + 1, by have := klt k; omega⟩

omit [FloatOps F] in
/-- The guard "another pair follows" holds on every trip but the last. -/
theorem cond1_iff : ∀ k : Fin k1_t1_loop.trips, k1_cond1 k = 1#1 ↔ k.val < 31 := by decide +kernel

abbrev oRect3 (L : grid1.Coords) (k : Fin k1_t1_loop.trips) : Rect S819200x128 :=
  Rect.unit (s := S819200x128) (k1_off3 L k) S400x128.size (k1_off3_inb L k)
abbrev oRect5 (L : grid1.Coords) (k : Fin k1_t1_loop.trips) : Rect S819200x128 :=
  Rect.unit (s := S819200x128) (k1_off5 L k) S400x128.size (k1_off5_inb L k)
/-- The output chunks of trip `k`, as the task slices them. -/
abbrev oSl3 (L : grid1.Coords) (k : Fin k1_t1_loop.trips) : Memref sig .scVector .hbm S400x128 .f32 := (oV).slice (oRect3 L k) (fun _ => rfl)
abbrev oSl5 (L : grid1.Coords) (k : Fin k1_t1_loop.trips) : Memref sig .scVector .hbm S400x128 .f32 := (oV).slice (oRect5 L k) (fun _ => rfl)

omit [FloatOps F] in
theorem oRect3_eq (k : Fin k1_t1_loop.trips) : oRect3 L k = oChunk (cn (cL L) (jL L) (gE k)) := by
  unfold oRect3 oChunk Rect.part Rect.block
  congr 1 <;> funext a
  · rw [k1_off3_eq]
    match a with
    | 0 => simp [Shape.partIx, Shape.partSize, cn]; omega
    | 1 => simp [Shape.partIx, Shape.partSize]
  · match a with
    | 0 => simp [Shape.partSize]
    | 1 => simp [Shape.partSize]
omit [FloatOps F] in
theorem oRect5_eq (k : Fin k1_t1_loop.trips) : oRect5 L k = oChunk (cn (cL L) (jL L) (gO k)) := by
  unfold oRect5 oChunk Rect.part Rect.block
  congr 1 <;> funext a
  · rw [k1_off5_eq]
    match a with
    | 0 => simp [Shape.partIx, Shape.partSize, cn]; omega
    | 1 => simp [Shape.partIx, Shape.partSize]
  · match a with
    | 0 => simp [Shape.partSize]
    | 1 => simp [Shape.partSize]

omit [FloatOps F] in
theorem set_oSl3 (k : Fin k1_t1_loop.trips) : (oSl3 L k).view.set = oChunkSet (cn (cL L) (jL L) (gE k)) := by
  show ((oV).view.slice (oRect3 L k)).set = ((oV).view.slice (oChunk (cn (cL L) (jL L) (gE k)))).set
  rw [oRect3_eq]
omit [FloatOps F] in
theorem set_oSl5 (k : Fin k1_t1_loop.trips) : (oSl5 L k).view.set = oChunkSet (cn (cL L) (jL L) (gO k)) := by
  show ((oV).view.slice (oRect5 L k)).set = ((oV).view.slice (oChunk (cn (cL L) (jL L) (gO k)))).set
  rw [oRect5_eq]

/-! ## The output chunks: done below the trip, untouched from it on -/

def DoneC (g : Fin 64) : sProp 𝕄 :=
  iprop(∃ f : Buf (Elt F) (v3Loc d), ⌜ChunkOK m d f (cn (cL L) (jL L) g)⌝ ∗ v3Loc d ↦[oChunkSet (cn (cL L) (jL L) g)]{fullShare} f)
def TodoC (g : Fin 64) : sProp 𝕄 := v3Loc d ↦[oChunkSet (cn (cL L) (jL L) g)]{fullShare} m (v3Loc d)
def OutC (k : ℕ) (g : Fin 64) : sProp 𝕄 := if g.val / 2 < k then DoneC m d L g else TodoC m d L g
def Out (k : ℕ) : sProp 𝕄 := bigSep Finset.univ (OutC m d L k)
abbrev OutRest (k : Fin k1_t1_loop.trips) : sProp 𝕄 := bigSep ((Finset.univ.erase (gE k)).erase (gO k)) (OutC m d L k.val)

theorem gO_mem (k : Fin k1_t1_loop.trips) : gO k ∈ (Finset.univ : Finset (Fin 64)).erase (gE k) :=
  Finset.mem_erase.mpr ⟨fun e => by have := congrArg Fin.val e; simp at this, Finset.mem_univ _⟩

theorem Out_split (k : Fin k1_t1_loop.trips) :
    Out m d L k.val = iprop(TodoC m d L (gE k) ∗ TodoC m d L (gO k) ∗ OutRest m d L k) := by
  unfold Out
  rw [BI.bigSep_univ_split (gE k), SparseCore.bigSep_erase' (gO_mem k)]
  have e1 : OutC m d L k.val (gE k) = TodoC m d L (gE k) := if_neg (by show ¬ (2 * k.val) / 2 < k.val; omega)
  have e2 : OutC m d L k.val (gO k) = TodoC m d L (gO k) := if_neg (by show ¬ (2 * k.val + 1) / 2 < k.val; omega)
  rw [e1, e2]; rfl

theorem Out_join (k : Fin k1_t1_loop.trips) :
    iprop(DoneC m d L (gE k) ∗ DoneC m d L (gO k) ∗ OutRest m d L k) = Out m d L (k.val + 1) := by
  unfold Out
  rw [BI.bigSep_univ_split (gE k), SparseCore.bigSep_erase' (gO_mem k)]
  have e1 : OutC m d L (k.val + 1) (gE k) = DoneC m d L (gE k) := if_pos (by show (2 * k.val) / 2 < k.val + 1; omega)
  have e2 : OutC m d L (k.val + 1) (gO k) = DoneC m d L (gO k) := if_pos (by show (2 * k.val + 1) / 2 < k.val + 1; omega)
  rw [e1, e2]
  congr 2
  refine bigSep_congr fun g hg => ?_
  have h1 : g ≠ gO k := (Finset.mem_erase.mp hg).1
  have h2 : g ≠ gE k := (Finset.mem_erase.mp (Finset.mem_erase.mp hg).2).1
  have h1' : g.val ≠ 2 * k.val + 1 := fun e => h1 (Fin.ext e)
  have h2' : g.val ≠ 2 * k.val := fun e => h2 (Fin.ext e)
  unfold OutC
  by_cases h : g.val / 2 < k.val
  · rw [if_pos h, if_pos (by omega)]
  · rw [if_neg h, if_neg (by omega)]

theorem Out_zero : Out m d L 0 = bigSep Finset.univ fun g : Fin 64 => v3Loc d ↦[oChunkSet (cn (cL L) (jL L) g)]{fullShare} m (v3Loc d) :=
  bigSep_congr fun g _ => if_neg (Nat.not_lt_zero _)
theorem Out_last : Out m d L 32 = tdA m d (cL L) (jL L) :=
  bigSep_congr fun g _ => if_pos (by have := g.isLt; omega)

/-! ## What the scratch buffers hold -/

/-- Row `r` of chunk `n`, as a row of the flat index array and of the output. -/
def rowOf (n : Fin 2048) (r : Fin 400) : Fin 819200 := ⟨400 * n.val + r.val, by have := n.isLt; have := r.isLt; omega⟩

/-- An index scratch holds chunk `n`'s words. -/
def IdxAt (n : Fin 2048) (fo : S400.Idx → BitVec 32) : Prop :=
  ∀ r : Fin 400, fo (ValueIdx.ix1 r) = (flatIdx m d : S819200.Idx → BitVec 32) (ValueIdx.ix1 (rowOf n r))

/-- A row scratch holds, in columns 0..99, the table's rows that chunk `n`'s words name. -/
def RowsOK (n : Fin 2048) (f : S400x128.Idx → Elt F .f32) : Prop :=
  ∀ (r : Fin 400) (e : Fin 100), f (ValueIdx.ix2 r (Fin.castLE (by decide) e))
    = (m (a1Loc d) : S1000000x100.Idx → Elt F .f32)
        (ValueIdx.ix2 (Cert.Spec.rowIx ((flatIdx m d : S819200.Idx → BitVec 32) (ValueIdx.ix1 (rowOf n r)))) e)

omit [FloatOps F] in
theorem pts_set {ℓ : Loc nD τ sig} {q : PosShare TreeShare} (f : Buf (Elt F) ℓ) {S : Finset (Idx ℓ)} (hS : S = Finset.univ) :
    (ℓ ↦{q} f : sProp 𝕄) = ℓ ↦[S]{q} f := by subst hS; rfl

omit [FloatOps F] in
/-- What a chunk's copy lands in an index scratch: the chunk's words. -/
theorem idx_land (n : Fin 2048) (off : Fin 1 → Nat) (hoff : ∀ a, off a + S400.size a ≤ S819200.size a) (hoff0 : off 0 = 400 * n.val)
    (pay : S400.Idx → Elt F .i32)
    (hpay : pay = ReadAs.same.apply (((iV).slice (Rect.unit (s := S819200) off S400.size hoff) (fun _ => rfl)).view.read (Elt F) (flatIdx m d))) :
    IdxAt m d n pay := by
  subst hpay
  intro r
  show ((iV).slice (Rect.unit (s := S819200) off S400.size hoff) (fun _ => rfl)).view.read (Elt F) (flatIdx m d) (ValueIdx.ix1 r) = _
  rw [View.read_apply]
  refine (cast_eq _ _).trans ?_
  congr 1
  funext a
  match a with
  | 0 => apply Fin.ext; show off 0 + 1 * r.val = 400 * n.val + r.val; omega

omit [FloatOps F] in
/-- Every word of the flat index array is below the table's row count. -/
theorem idx_in_range (hpre : PreOK m) (n : Fin 2048) (fo : S400.Idx → BitVec 32) (h : IdxAt m d n fo) :
    ∀ x, (fo x).toNat < 1000000 := by
  intro x
  have ex : x = ValueIdx.ix1 (x 0) := by funext a; match a with | 0 => rfl
  have e : fo x = (flatIdx m d : S819200.Idx → BitVec 32) (ValueIdx.ix1 (rowOf n (x 0))) := (congrArg fo ex).trans (h (x 0))
  rw [e]
  unfold flatIdx shapeCast
  exact Cert.Spec.toNat_lt_of_ok (hpre d _).1 (hpre d _).2

omit [FloatOps F] in
theorem rowsOK_congr (n : Fin 2048) {f g : S400x128.Idx → Elt F .f32} (h : ∀ x, f x = g x) (hg : RowsOK m d n g) : RowsOK m d n f :=
  fun r e => (h _).trans (hg r e)

omit [FloatOps F] in
theorem tAllK_read (fp : Buf (Elt F) (v2Loc d)) (y : S1000000x128.Idx) :
    (tAllK).view.read (Elt F) fp y = (fp : S1000000x128.Idx → Elt F .f32) y := by
  rw [View.read_apply]
  refine (cast_eq _ _).trans ?_
  congr 1
  funext a
  match a with
  | 0 => apply Fin.ext; show 0 + 1 * (y 0).val = (y 0).val; omega
  | 1 => apply Fin.ext; show 0 + 1 * (y 1).val = (y 1).val; omega

omit [FloatOps F] in
/-- The gather's payload at a chunk's words is the chunk's table rows. -/
theorem rowsOK_gather (fp : Buf (Elt F) (v2Loc d)) (hpre : PreOK m) (hpad : PadOK m d fp) (n : Fin 2048) (fo : S400.Idx → Elt F .i32) (h : IdxAt m d n fo)
    (hin : ∀ x, (fo x).toNat < S1000000x128.size gathers_S1000000x128_S400x128.axis) :
    RowsOK m d n (SparseCore.gatherPayload gathers_S1000000x128_S400x128 ((tAllK).view.read (Elt F) fp)
      (SparseCore.rows fo (rfl : S400.numel = S400x128.size gathers_S1000000x128_S400x128.axis') hin)) := by
  intro r e
  unfold SparseCore.gatherPayload
  rw [tAllK_read]
  -- the word of row r
  have hw : fo (S400.rowMajor.symm (Fin.cast (rfl : S400.numel = S400x128.size gathers_S1000000x128_S400x128.axis').symm r))
      = (flatIdx m d : S819200.Idx → BitVec 32) (ValueIdx.ix1 (rowOf n r)) := by
    have e1 : S400.rowMajor.symm (Fin.cast (rfl : S400.numel = S400x128.size gathers_S1000000x128_S400x128.axis').symm r) = ValueIdx.ix1 r := by
      rw [Equiv.symm_apply_eq]; apply Fin.ext
      exact (Shape.rowMajor_val_one (d := ![400]) (ValueIdx.ix1 r)).symm
    rw [e1]; exact h r
  have hok : Cert.Spec.IdxOK (m (a0Loc d) : S4096x200.Idx → BitVec 32) := hpre d
  have hrow : SparseCore.rows fo (rfl : S400.numel = S400x128.size gathers_S1000000x128_S400x128.axis') hin r
      = Cert.Spec.rowIx ((flatIdx m d : S819200.Idx → BitVec 32) (ValueIdx.ix1 (rowOf n r))) := by
    apply Fin.ext
    show (fo _).toNat = _
    rw [hw]
    unfold flatIdx shapeCast
    exact (Cert.Spec.rowIx_val (hok _).1 (hok _).2).symm
  have hidx : gathers_S1000000x128_S400x128.idx (SparseCore.rows fo (rfl : S400.numel = S400x128.size gathers_S1000000x128_S400x128.axis') hin)
      (ValueIdx.ix2 r (Fin.castLE (by decide) e)) = ValueIdx.ix2 (SparseCore.rows fo rfl hin r) (Fin.castLE (by decide) e) := by
    funext a
    match a with
    | 0 => exact Shape.Gathers.idx_axis gathers_S1000000x128_S400x128 _ _
    | 1 => apply Fin.ext; exact Shape.Gathers.idx_of_ne gathers_S1000000x128_S400x128 _ _ 1 (by decide)
  rw [hidx, hrow]
  exact hpad _ e

omit [FloatOps F] in
/-- A row scratch at a chunk's rows, copied out, makes the chunk right. -/
theorem chunkOK_of_rows (n : Fin 2048) (off : Fin 2 → Nat) (hoff : ∀ a, off a + S400x128.size a ≤ S819200x128.size a)
    (hoff0 : off 0 = 400 * n.val) (hoff1 : off 1 = 0) (f2 : S400x128.Idx → Elt F .f32) (h : RowsOK m d n f2)
    (f : Buf (Elt F) (v3Loc d))
    (hf : ∀ x : S400x128.Idx, (f : S819200x128.Idx → Elt F .f32) ((Rect.unit (s := S819200x128) off S400x128.size hoff).emb x) = f2 x) :
    ChunkOK m d f n := by
  intro k e
  have hx := hf (ValueIdx.ix2 k (Fin.castLE (by decide) e))
  rw [h k e] at hx
  refine Eq.trans (congrArg (f : S819200x128.Idx → Elt F .f32) ?_) hx
  funext a
  match a with
  | 0 => apply Fin.ext; show 400 * n.val + k.val = off 0 + 1 * k.val; omega
  | 1 => apply Fin.ext; show e.val = off 1 + 1 * e.val; omega

omit [FloatOps F] in
theorem waits_insert {W0 W : Waits sig (HIx 1)} {sm : SemLoc sig} (h : ∀ p ∈ W0, p ∈ W ∨ p.2 = none) :
    ∀ p ∈ insert (sm, (default : HIx 1)) W0, p ∈ W ∨ p.2 = none := by
  intro p hp
  rcases Finset.mem_insert.mp hp with hp | hp
  · exact .inr (hp ▸ rfl)
  · exact h p hp

omit [FloatOps F] in
/-- What the copy of a row scratch leaves in an output chunk reads back, at the chunk's elements, as what was copied. -/
theorem out_read (off : Fin 2 → Nat) (hoff : ∀ a, off a + S400x128.size a ≤ S819200x128.size a) (f0 : Buf (Elt F) (v3Loc d))
    (pay : S400x128.Idx → Elt F .f32) (x : S400x128.Idx) :
    ((((oV).slice (Rect.unit (s := S819200x128) off S400x128.size hoff) (fun _ => rfl)).view.writes (Elt F) f0 [⟨Rect.whole S400x128, pay⟩]
        : Buf (Elt F) (v3Loc d)) : S819200x128.Idx → Elt F .f32)
      ((Rect.unit (s := S819200x128) off S400x128.size hoff).emb x) = pay x := by
  have e := congrFun (View.read_writes_whole ((oV).slice (Rect.unit (s := S819200x128) off S400x128.size hoff) (fun _ => rfl)).view f0 pay) x
  rw [View.read_apply] at e
  exact (cast_eq _ _).symm.trans e

/-! ## The loop's invariant -/

abbrev qT (L : grid1.Coords) : PosShare TreeShare := tileShare (cL L) (jL L)
abbrev EC : UEmb Counters (MT nD τ sig (HIx 1) (Elt F) ℕ UU ℕ) := countersEmb

variable (fp : Buf (Elt F) (v2Loc d))

/-- What the gather on the first cell delivers: the first row scratch at chunk `n`'s rows, its share of the table and
    its index scratch back. -/
def D9 (n : Fin 2048) : sProp 𝕄 :=
  iprop(∃ f2 : Buf (Elt F) ((s2V).view.loc (VT d L)), ⌜RowsOK m d n f2⌝ ∗ ((s2V).view.loc (VT d L) ↦[(s2V).view.set]{fullShare} f2)
    ∗ ((tAllK).view.loc (VT d L) ↦[(tAllK).view.set]{(qT L).left} fp)
    ∗ ∃ fo : Buf (Elt F) ((s0V).view.loc (VT d L)), (s0V).view.loc (VT d L) ↦[(s0V).view.set]{fullShare} fo)
/-- The same for the second cell, second row scratch, second index scratch. -/
def D10 (n : Fin 2048) : sProp 𝕄 :=
  iprop(∃ f3 : Buf (Elt F) ((s3V).view.loc (VT d L)), ⌜RowsOK m d n f3⌝ ∗ ((s3V).view.loc (VT d L) ↦[(s3V).view.set]{fullShare} f3)
    ∗ ((tAllK).view.loc (VT d L) ↦[(tAllK).view.set]{(qT L).right} fp)
    ∗ ∃ fo : Buf (Elt F) ((s1V).view.loc (VT d L)), (s1V).view.loc (VT d L) ↦[(s1V).view.set]{fullShare} fo)

/-- The first cell before trip `k`: the gather of chunk `2k` in flight; after the last trip, everything back. -/
def G9 (k : ℕ) : sProp 𝕄 :=
  if h : k < 32 then
    Transfers.Flight (EC (F := F)) (VT d L) (.dma cc1_scratch4.sem) (default : HIx 1) (s2V).view.dmaCredit
      (D9 m d L fp (cn (cL L) (jL L) ⟨2 * k, by omega⟩))
  else iprop((∃ f, (s2V).view.loc (VT d L) ↦[(s2V).view.set]{fullShare} f) ∗ ((tAllK).view.loc (VT d L) ↦[(tAllK).view.set]{(qT L).left} fp)
    ∗ (∃ fo, (s0V).view.loc (VT d L) ↦[(s0V).view.set]{fullShare} fo) ∗ semVal (cell9 d L) 0)

def Inv (O : CellTallies nD τ sig (HIx 1)) (W : Waits sig (HIx 1)) (k : ℕ) (_ : Unit) : sProp 𝕄 :=
  iprop(Transfers.MayWaits (VT d L) (default : HIx 1) O
    ∗ ((iV).view.loc (VT d L) ↦{qT L} flatIdx m d)
    ∗ G9 m d L fp k
    ∗ ((tAllK).view.loc (VT d L) ↦[Finset.univ \ (tAllK).view.set]{(qT L).left} fp)
    ∗ ((tAllK).view.loc (VT d L) ↦{(qT L).right} fp)
    ∗ (∃ f, (s1V).view.loc (VT d L) ↦{fullShare} f)
    ∗ (∃ f, (s3V).view.loc (VT d L) ↦{fullShare} f)
    ∗ semVal (cell10 d L) 0 ∗ semVal (cellB d L) 0 ∗ semVal (cellC d L) 0 ∗ semVal (cellD d L) 0 ∗ semVal (cellE d L) 0
    ∗ Out m d L k
    ∗ ∃ W', ⌜∀ p ∈ W', p ∈ W ∨ p.2 = none⌝ ∗ owes (VT d L) O W')

/-! ## Opening the invariant before a trip, closing it after -/

theorem Inv_open (O : CellTallies nD τ sig (HIx 1)) (W : Waits sig (HIx 1)) (k : Fin k1_t1_loop.trips) (acc : Unit) :
    Inv m d L fp O W k.val acc ⊢ iprop(Transfers.MayWaits (VT d L) (default : HIx 1) O
      ∗ ((iV).view.loc (VT d L) ↦{qT L} flatIdx m d)
      ∗ Transfers.Flight (EC (F := F)) (VT d L) (.dma cc1_scratch4.sem) (default : HIx 1) (s2V).view.dmaCredit (D9 m d L fp (cn (cL L) (jL L) (gE k)))
      ∗ ((tAllK).view.loc (VT d L) ↦[Finset.univ \ (tAllK).view.set]{(qT L).left} fp)
      ∗ ((tAllK).view.loc (VT d L) ↦{(qT L).right} fp)
      ∗ (∃ f, (s1V).view.loc (VT d L) ↦{fullShare} f)
      ∗ (∃ f, (s3V).view.loc (VT d L) ↦{fullShare} f)
      ∗ semVal (cell10 d L) 0 ∗ semVal (cellB d L) 0 ∗ semVal (cellC d L) 0 ∗ semVal (cellD d L) 0 ∗ semVal (cellE d L) 0
      ∗ (((oSl3 L k).view.loc (VT d L) ↦[(oSl3 L k).view.set]{fullShare} m (v3Loc d))
        ∗ ((oSl5 L k).view.loc (VT d L) ↦[(oSl5 L k).view.set]{fullShare} m (v3Loc d)) ∗ OutRest m d L k)
      ∗ ∃ W', ⌜∀ p ∈ W', p ∈ W ∨ p.2 = none⌝ ∗ owes (VT d L) O W') := by
  unfold Inv G9
  rw [dif_pos (klt k), Out_split]
  unfold TodoC
  rw [set_oSl3, set_oSl5]

/-- After a trip: whatever the first cell's state `G` is, as long as it is the invariant's for the next trip. -/
theorem close_trip (O : CellTallies nD τ sig (HIx 1)) (W : Waits sig (HIx 1)) (k : Fin k1_t1_loop.trips) (acc : Unit)
    (G : sProp 𝕄) (hG : G ⊢ G9 m d L fp (k.val + 1))
    (f2 f3 : S400x128.Idx → Elt F .f32) (hf2 : RowsOK m d (cn (cL L) (jL L) (gE k)) f2) (hf3 : RowsOK m d (cn (cL L) (jL L) (gO k)) f3) :
    iprop(Transfers.MayWaits (VT d L) (default : HIx 1) O
      ∗ ((iV).view.loc (VT d L) ↦{qT L} flatIdx m d)
      ∗ G
      ∗ ((tAllK).view.loc (VT d L) ↦[Finset.univ \ (tAllK).view.set]{(qT L).left} fp)
      ∗ ((tAllK).view.loc (VT d L) ↦[(tAllK).view.set]{(qT L).right} fp)
      ∗ ((tAllK).view.loc (VT d L) ↦[Finset.univ \ (tAllK).view.set]{(qT L).right} fp)
      ∗ (∃ f, (s1V).view.loc (VT d L) ↦[(s1V).view.set]{fullShare} f)
      ∗ (∃ f, (s3V).view.loc (VT d L) ↦[(s3V).view.set]{fullShare} f)
      ∗ semVal (cell10 d L) 0 ∗ semVal (cellB d L) 0 ∗ semVal (cellC d L) 0 ∗ semVal (cellD d L) 0 ∗ semVal (cellE d L) 0
      ∗ (∃ fE : Buf (Elt F) (v3Loc d), ⌜∀ x : S400x128.Idx, (fE : S819200x128.Idx → Elt F .f32) ((oRect3 L k).emb x) = f2 x⌝
          ∗ (oSl3 L k).view.loc (VT d L) ↦[(oSl3 L k).view.set]{fullShare} fE)
      ∗ (∃ fO : Buf (Elt F) (v3Loc d), ⌜∀ x : S400x128.Idx, (fO : S819200x128.Idx → Elt F .f32) ((oRect5 L k).emb x) = f3 x⌝
          ∗ (oSl5 L k).view.loc (VT d L) ↦[(oSl5 L k).view.set]{fullShare} fO)
      ∗ OutRest m d L k
      ∗ ∃ W', ⌜∀ p ∈ W', p ∈ W ∨ p.2 = none⌝ ∗ owes (VT d L) O W')
    ⊢ Inv m d L fp O W (k.val + 1) acc := by
  have h3s : (s3V).view.set = Finset.univ := View.set_whole _
  have h1s : (s1V).view.set = Finset.univ := View.set_whole _
  unfold Inv
  rw [← Out_join]
  iintro ⟨#Hmw, Hi, HG, Htr, Hts, Htr10, ⟨%f1, H1⟩, ⟨%f3', H3⟩, Hs10, HcB, HcC, HcD, HcE, ⟨%fE, %hE, HoE⟩, ⟨%fO, %hO', HoO⟩, Hout, HW⟩
  isplitr; · iexact Hmw
  isplitl [Hi]; · iexact Hi
  isplitl [HG]; · iapply hG; iexact HG
  isplitl [Htr]; · iexact Htr
  isplitl [Hts Htr10]
  · iapply (pointsTo_split_subset (q := (qT L).right) (f := fp) (S := Finset.univ) (Finset.subset_univ (tAllK).view.set)).2
    isplitl [Hts] <;> iassumption
  isplitl [H1]; · iexists f1; iapply (Entails.of_eq (pts_set (F := F) f1 h1s).symm); iexact H1
  isplitl [H3]; · iexists f3'; iapply (Entails.of_eq (pts_set (F := F) f3' h3s).symm); iexact H3
  isplitl [Hs10]; · iexact Hs10
  isplitl [HcB]; · iexact HcB
  isplitl [HcC]; · iexact HcC
  isplitl [HcD]; · iexact HcD
  isplitl [HcE]; · iexact HcE
  isplitr [HW]
  · isplitl [HoE]
    · unfold DoneC; iexists fE; isplitr
      · ipureintro
        exact chunkOK_of_rows m d _ (k1_off3 L k) (k1_off3_inb L k) (by rw [k1_off3_eq]; simp [cn]; omega) (by rw [k1_off3_eq]; simp) f2 hf2 fE hE
      · iapply (Entails.of_eq (show ((oSl3 L k).view.loc (VT d L) ↦[(oSl3 L k).view.set]{fullShare} fE : sProp 𝕄)
            = (v3Loc d ↦[oChunkSet (cn (cL L) (jL L) (gE k))]{fullShare} fE) by rw [set_oSl3]))
        iexact HoE
    isplitl [HoO]
    · unfold DoneC; iexists fO; isplitr
      · ipureintro
        exact chunkOK_of_rows m d _ (k1_off5 L k) (k1_off5_inb L k) (by rw [k1_off5_eq]; simp [cn]; omega) (by rw [k1_off5_eq]; simp) f3 hf3 fO hO'
      · iapply (Entails.of_eq (show ((oSl5 L k).view.loc (VT d L) ↦[(oSl5 L k).view.set]{fullShare} fO : sProp 𝕄)
            = (v3Loc d ↦[oChunkSet (cn (cL L) (jL L) (gO k))]{fullShare} fO) by rw [set_oSl5]))
        iexact HoO
    iexact Hout
  iexact HW

/-! ## One trip -/

set_option maxHeartbeats 4000000 in
/-- Trip `k`: chunk 2k+1's words fetched and its gather fired; chunk 2k's rows awaited and written out; chunk 2k+2's words
    fetched and its gather fired, if there is one; chunk 2k+1's rows awaited and written out. -/
theorem trip (hpre : PreOK m) (hpad : PadOK m d fp) (O : CellTallies nD τ sig (HIx 1)) (W : Waits sig (HIx 1))
    (v2 : BitVec 32) (k : Fin k1_t1_loop.trips) (acc : Unit) :
    Inv m d L fp O W k.val acc
      ⊢ wp frame (wpE (defs₀ (F := F)) 𝒱₀ (VT d L) none) Set.univ
          (k1_t1_body L iV (Memref.isWhole_whole _) tV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1 cc1_scoped2 cc1_scoped3 cc1_scoped4 v2 k acc)
          (Inv m d L fp O W (k.val + 1)) := by
  have hk := klt k
  unfold k1_t1_body
  simp only [k1_part1_eq_skeleton]; unfold k1_part1_skel
  refine (Inv_open m d L fp O W k acc).trans ?_
  iintro ⟨#Hmw, Hi, Hfl9, Htr, Ht10, ⟨%f1, H1⟩, ⟨%f3, H3⟩, Hs10, HcB, HcC, HcD, HcE, ⟨HoE', HoO', Hout⟩, %W', %hW', HO⟩
  sl_exec
  -- the second gather: chunk 2k+1's rows into the second row scratch
  ihave Hts := (pointsTo_split_subset (q := (qT L).right) (f := fp) (S := Finset.univ) (Finset.subset_univ (tAllK).view.set)).1 $$ Ht10
  icases Hts with ⟨Hts, Htr10⟩
  have h3s : (s3V).view.set = Finset.univ := View.set_whole _
  have h1s : (s1V).view.set = Finset.univ := View.set_whole _
  have h2s : (s2V).view.set = Finset.univ := View.set_whole _
  have h0s : (s0V).view.set = Finset.univ := View.set_whole _
  ihave H3'' := (Entails.of_eq (pts_set (F := F) _ h3s)) $$ H3
  ihave H1'' := (Entails.of_eq (pts_set (F := F) _ h1s)) $$ H1
  have hN10 : ∑ j, ((s3V).slice (S400x128.rowRect gathers_S1000000x128_S400x128.axis' j) (S400x128.stride_rowRect _ j)).view.dmaCredit = (s3V).view.dmaCredit :=
    SparseCore.sum_rowCredit_eq_dmaCredit (s3V) _ (fun _ => rfl)
  have hidx1 : IdxAt m d (cn (cL L) (jL L) (gO k)) ((s1V).view.read (Elt F) (View.write (Elt F) (s1V).view f1 (trip.sl.dma0 m d L k) Finset.univ)) := by
    rw [View.read_write_univ]
    exact idx_land m d _ (k1_off2 L k) (k1_off2_inb L k) (by rw [k1_off2_eq]; simp [cn]; omega) _ rfl
  have hin1 := idx_in_range m d hpre _ _ hidx1
  iapply (SparseCore.wp_indirectGatherLocal (EC (F := F)) 𝒱₀ (VT d L) none (hg := gathers_S1000000x128_S400x128) (default : HIx 1)
      (s3V).view.dmaCredit hN10 (by decide) hin1) $$ [Hts H3'' H1'' Hs10]
  · isplitl [Hts]; · iexact Hts
    isplitl [H3'']; · iexact H3''
    isplitl [H1'']; · iexact H1''
    iexact Hs10
  iintro Hfl10
  -- its flight delivers the second row scratch at chunk 2k+1's rows
  ihave Hfl10' := (Transfers.Flight_mono (EC (F := F)) (VT d L) (D' := D10 m d L fp (cn (cL L) (jL L) (gO k))) (by
      unfold D10
      iintro ⟨Hd, Hs, Ho⟩
      iexists _
      isplitr
      · ipureintro
        exact rowsOK_congr m d _ (fun x => congrFun (View.write_whole_univ (Val := Elt F) cc1_scratch3 f3 _) x)
          (rowsOK_gather m d fp hpre hpad _ _ hidx1 hin1)
      isplitl [Hd]; · iexact Hd
      isplitl [Hs]; · iexact Hs
      iexists _; iexact Ho)) $$ Hfl10
  sl_exec
  -- the wait for the first gather: the first row scratch at chunk 2k's rows
  iapply (Transfers.wp_waitLocalO (EC (F := F)) 𝒱₀ (VT d L) none (default : HIx 1) (rfl : (s2V).view.dmaCredit = _)) $$ [Hfl9 HO]
  · isplitl [Hfl9]; · iexact Hfl9
    isplitl [HO]; · iexact HO
    iapply (Transfers.MayWaits.elim (SemLoc.dma cc1_scratch4.sem)) $$ Hmw
  iintro ⟨HD9, Hs9, HO⟩
  unfold D9
  icases HD9 with ⟨%f2, %hf2, H2, Ht9, %fo0, H0⟩
  sl_exec
  rcases Classical.em (k1_cond1 k = 1#1) with hc | hc
  · have hlt : k.val + 1 < 32 := by have := (cond1_iff k).mp hc; omega
    sl_exec (disch := first | sl_exact hc | omega)
    -- the next first gather: chunk 2k+2's rows into the first row scratch
    ihave H2'' := (Entails.of_eq (show ((s2V).view.loc (VT d L) ↦[(Memref.whole cc1_scratch2).view.set]{fullShare} f2 : sProp 𝕄)
        = (s2V).view.loc (VT d L) ↦[(s2V).view.set]{fullShare} f2 from rfl)) $$ H2
    have hN9 : ∑ j, ((s2V).slice (S400x128.rowRect gathers_S1000000x128_S400x128.axis' j) (S400x128.stride_rowRect _ j)).view.dmaCredit = (s2V).view.dmaCredit :=
      SparseCore.sum_rowCredit_eq_dmaCredit (s2V) _ (fun _ => rfl)
    have hidx0 : IdxAt m d (cn (cL L) (jL L) ⟨2 * (k.val + 1), by omega⟩)
        ((s0V).view.read (Elt F) ((s0V).view.writes (Elt F) (s0V).view.junk [⟨Rect.whole S400, trip.sl.dma0_3 m d L k hc⟩])) := by
      rw [View.read_writes_whole]
      exact idx_land m d _ (k1_off4 L k) (k1_off4_inb L k hc) (by rw [k1_off4_eq]; simp [cn]; omega) _ rfl
    have hin0 := idx_in_range m d hpre _ _ hidx0
    iapply (SparseCore.wp_indirectGatherLocal (EC (F := F)) 𝒱₀ (VT d L) none (hg := gathers_S1000000x128_S400x128) (default : HIx 1)
        (s2V).view.dmaCredit hN9 (by decide) hin0) $$ [Ht9 H2'' H0 Hs9]
    · isplitl [Ht9]; · iexact Ht9
      isplitl [H2'']; · iexact H2''
      isplitl [H0]; · iexact H0
      iexact Hs9
    iintro Hfl9n
    ihave Hfl9n := (Transfers.Flight_mono (EC (F := F)) (VT d L) (D' := D9 m d L fp (cn (cL L) (jL L) ⟨2 * (k.val + 1), by omega⟩)) (by
        unfold D9
        iintro ⟨Hd, Hs, Ho⟩
        iexists _
        isplitr
        · ipureintro
          exact rowsOK_congr m d _ (fun x => congrFun (View.write_whole_univ (Val := Elt F) cc1_scratch2 f2 _) x)
            (rowsOK_gather m d fp hpre hpad _ _ hidx0 hin0)
        isplitl [Hd]; · iexact Hd
        isplitl [Hs]; · iexact Hs
        iexists _; iexact Ho)) $$ Hfl9n
    have hG : (Transfers.Flight (EC (F := F)) (VT d L) (.dma cc1_scratch4.sem) (default : HIx 1) (s2V).view.dmaCredit
        (D9 m d L fp (cn (cL L) (jL L) ⟨2 * (k.val + 1), by omega⟩)) : sProp 𝕄) ⊢ G9 m d L fp (k.val + 1) := by
      unfold G9; rw [dif_pos hlt]
    sl_exec
    -- the wait for the second gather: the second row scratch at chunk 2k+1's rows
    iapply (Transfers.wp_waitLocalO (EC (F := F)) 𝒱₀ (VT d L) none (default : HIx 1) (rfl : (s3V).view.dmaCredit = _)) $$ [Hfl10' HO]
    · isplitl [Hfl10']; · iexact Hfl10'
      isplitl [HO]; · iexact HO
      iapply (Transfers.MayWaits.elim (SemLoc.dma cc1_scratch5.sem)) $$ Hmw
    iintro ⟨HD10, Hs10, HO⟩
    unfold D10
    icases HD10 with ⟨%f3', %hf3', H3, Hts, %fo1, H1⟩
    sl_exec
    sl_step
    iapply (close_trip m d L fp O W k _ _ hG f2 f3' hf2 hf3')
    isplitr; · iexact Hmw
    isplitl [Hi]; · iexact Hi
    isplitl [Hfl9n]; · iexact Hfl9n
    isplitl [Htr]; · iexact Htr
    isplitl [Hts]; · iexact Hts
    isplitl [Htr10]; · iexact Htr10
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [HoE']
    · iexists _; isplitr
      swap; · iexact HoE'
      ipureintro; exact fun x => out_read d (k1_off3 L k) (k1_off3_inb L k) _ _ x
    isplitl [HoO']
    · iexists _; isplitr
      swap; · iexact HoO'
      ipureintro; exact fun x => out_read d (k1_off5 L k) (k1_off5_inb L k) _ _ x
    isplitl [Hout]; · iexact Hout
    iexists _; isplitr
    swap; · iexact HO
    ipureintro
    repeat (refine waits_insert ?_)
    exact hW'
  · have hge : ¬ k.val + 1 < 32 := by have := (cond1_iff k).not.mp hc; omega
    have hG : (iprop((∃ f, (s2V).view.loc (VT d L) ↦[(s2V).view.set]{fullShare} f) ∗ ((tAllK).view.loc (VT d L) ↦[(tAllK).view.set]{(qT L).left} fp)
        ∗ (∃ fo, (s0V).view.loc (VT d L) ↦[(s0V).view.set]{fullShare} fo) ∗ semVal (cell9 d L) 0) : sProp 𝕄) ⊢ G9 m d L fp (k.val + 1) := by
      unfold G9; rw [dif_neg hge]
    sl_exec (disch := first | sl_exact hc | omega)
    -- the wait for the second gather: the second row scratch at chunk 2k+1's rows
    iapply (Transfers.wp_waitLocalO (EC (F := F)) 𝒱₀ (VT d L) none (default : HIx 1) (rfl : (s3V).view.dmaCredit = _)) $$ [Hfl10' HO]
    · isplitl [Hfl10']; · iexact Hfl10'
      isplitl [HO]; · iexact HO
      iapply (Transfers.MayWaits.elim (SemLoc.dma cc1_scratch5.sem)) $$ Hmw
    iintro ⟨HD10, Hs10, HO⟩
    unfold D10
    icases HD10 with ⟨%f3', %hf3', H3, Hts, %fo1, H1⟩
    sl_exec
    sl_step
    iapply (close_trip m d L fp O W k _ _ hG f2 f3' hf2 hf3')
    isplitr; · iexact Hmw
    isplitl [Hi]; · iexact Hi
    isplitl [H2 Ht9 H0 Hs9]
    · isplitl [H2]; · iexists _; iexact H2
      isplitl [Ht9]; · iexact Ht9
      isplitl [H0]; · iexists _; iexact H0
      iexact Hs9
    isplitl [Htr]; · iexact Htr
    isplitl [Hts]; · iexact Hts
    isplitl [Htr10]; · iexact Htr10
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [HoE']
    · iexists _; isplitr
      swap; · iexact HoE'
      ipureintro; exact fun x => out_read d (k1_off3 L k) (k1_off3_inb L k) _ _ x
    isplitl [HoO']
    · iexists _; isplitr
      swap; · iexact HoO'
      ipureintro; exact fun x => out_read d (k1_off5 L k) (k1_off5_inb L k) _ _ x
    isplitl [Hout]; · iexact Hout
    iexists _; isplitr
    swap; · iexact HO
    ipureintro
    repeat (refine waits_insert ?_)
    exact hW'

end Tile

/-! ## The task -/

set_option maxHeartbeats 4000000 in
theorem tile_body (m : (ℓ : Loc nD τ sig) → Buf (Elt F) ℓ) (d : Dev nD) (L : grid1.Coords) (hF : (K (F := F)).Facts) (hpre : PreOK m)
    (O : CellTallies nD τ sig (HIx 1)) (W : Waits sig (HIx 1)) (hO : ∀ g, O g none = 0) :
    iprop(levAts (K (F := F)).L (K (F := F)).lev ∗ emp
        ∗ goA m d (cL L) (jL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_kernel L iV (Memref.isWhole_whole _) tV (Memref.isWhole_whole _) oV (Memref.isWhole_whole _)
            (Memref.whole cc1_scratch0) (Memref.isWhole_whole _) (Memref.whole cc1_scratch1) (Memref.isWhole_whole _)
            (Memref.whole cc1_scratch2) (Memref.isWhole_whole _) (Memref.whole cc1_scratch3) (Memref.isWhole_whole _)
            cc1_scratch4 cc1_scratch5 cc1_scoped0 cc1_scoped1 cc1_scoped2 cc1_scoped3 cc1_scoped4)
          fun _ => iprop(tdA m d (cL L) (jL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_kernel_eq_skeleton]; unfold cc1__gather_kernel_skel
  rw [(K (F := F)).scopedBufs_V hF d (cV L) (jV L), SparseCore.Cfg.scopedSems0_V (Val := Elt F) d (cV L) (jV L), ownSems0_V, ownBufs_V]
  iintro ⟨#Hlv, -, ⟨%fp, %hpad, Hi, Ht, Hout⟩, ⟨⟨%f0, H0⟩, ⟨%f1, H1⟩, ⟨%f2, H2⟩, ⟨%f3, H3⟩, Hbufs⟩, ⟨Hs9, Hs10, HcA, HcB, HcC, HcD, HcE, Hsems⟩, HO⟩
  ihave Hmw := (show levAts (K (F := F)).L (K (F := F)).lev ⊢ Transfers.MayWaits (VT d L) (default : HIx 1) O from
    (K (F := F)).mayWaits_none (thr := VT d L) hO) $$ Hlv
  ihave Hi' := (Entails.of_eq (show (v0Loc d ↦{qT L} flatIdx m d : sProp 𝕄) = ((iV).view.loc (VT d L) ↦{qT L} flatIdx m d) from rfl)) $$ Hi
  ihave H0' := (Entails.of_eq (show ((VT d L).loc cc1_scratch0 ↦{fullShare} f0 : sProp 𝕄) = ((s0V).view.loc (VT d L) ↦{fullShare} f0) from rfl)) $$ H0
  -- chunk 0's words into the first index scratch
  sl_exec
  -- the table's share in two, one half per cell
  ihave Ht' := (pointsTo_share (PosShare.mem_left_op_right (qT L))).1 $$ Ht
  icases Ht' with ⟨HtL, HtR⟩
  ihave HtL' := (Entails.of_eq (show (v2Loc d ↦{(qT L).left} fp : sProp 𝕄) = ((tAllK).view.loc (VT d L) ↦{(qT L).left} fp) from rfl)) $$ HtL
  ihave Hts := (pointsTo_split_subset (q := (qT L).left) (f := fp) (S := Finset.univ) (Finset.subset_univ (tAllK).view.set)).1 $$ HtL'
  icases Hts with ⟨Ht9, Htr⟩
  have h2s : (s2V).view.set = Finset.univ := View.set_whole _
  have h0s : (s0V).view.set = Finset.univ := View.set_whole _
  ihave H2' := (Entails.of_eq (show ((VT d L).loc cc1_scratch2 ↦{fullShare} f2 : sProp 𝕄) = ((s2V).view.loc (VT d L) ↦{fullShare} f2) from rfl)) $$ H2
  ihave H2'' := (Entails.of_eq (pts_set (F := F) _ h2s)) $$ H2'
  ihave H0'' := (Entails.of_eq (pts_set (F := F) _ h0s)) $$ H0'
  have hN9 : ∑ j, ((s2V).slice (S400x128.rowRect gathers_S1000000x128_S400x128.axis' j) (S400x128.stride_rowRect _ j)).view.dmaCredit = (s2V).view.dmaCredit :=
    SparseCore.sum_rowCredit_eq_dmaCredit (s2V) _ (fun _ => rfl)
  have hidx0 : IdxAt m d (cn (cL L) (jL L) ⟨2 * 0, by omega⟩)
      ((s0V).view.read (Elt F) (View.write (Elt F) (s0V).view f0 (tile_body.sl.dma0 m d L) Finset.univ)) := by
    rw [View.read_write_univ]
    exact idx_land m d _ (k1_off1 L) (k1_off1_inb L) (by rw [k1_off1_eq]; simp [cn]; omega) _ rfl
  have hin0 := idx_in_range m d hpre _ _ hidx0
  -- the first gather: chunk 0's rows into the first row scratch
  iapply (SparseCore.wp_indirectGatherLocal (EC (F := F)) 𝒱₀ (VT d L) none (hg := gathers_S1000000x128_S400x128) (default : HIx 1)
      (s2V).view.dmaCredit hN9 (by decide) hin0) $$ [Ht9 H2'' H0'' Hs9]
  · isplitl [Ht9]; · iexact Ht9
    isplitl [H2'']; · iexact H2''
    isplitl [H0'']; · iexact H0''
    iexact Hs9
  iintro Hfl9
  ihave Hfl9 := (Transfers.Flight_mono (EC (F := F)) (VT d L) (D' := D9 m d L fp (cn (cL L) (jL L) ⟨2 * 0, by omega⟩)) (by
      unfold D9
      iintro ⟨Hd, Hs, Ho⟩
      iexists _
      isplitr
      · ipureintro
        exact rowsOK_congr m d _ (fun x => congrFun (View.write_whole_univ (Val := Elt F) cc1_scratch2 f2 _) x)
          (rowsOK_gather m d fp hpre hpad _ _ hidx0 hin0)
      isplitl [Hd]; · iexact Hd
      isplitl [Hs]; · iexact Hs
      iexists _; iexact Ho)) $$ Hfl9
  -- the 32 trips
  sl_for (Inv m d L fp O W) $$ [Hmw Hi' Hfl9 Htr HtR H1 H3 Hs10 HcB HcC HcD HcE Hout HO]
  case region =>
    intro k acc
    exact trip m d L fp hpre hpad O W _ k acc
  · unfold Inv G9
    rw [dif_pos (by decide : (0 : ℕ) < 32), Out_zero]
    isplitl [Hmw]; · iexact Hmw
    isplitl [Hi']; · iexact Hi'
    isplitl [Hfl9]; · iexact Hfl9
    isplitl [Htr]; · iexact Htr
    isplitl [HtR]; · iexact HtR
    isplitl [H1]; · iexists _; iexact H1
    isplitl [H3]; · iexists _; iexact H3
    isplitl [Hs10]; · iexact Hs10
    isplitl [HcB]; · iexact HcB
    isplitl [HcC]; · iexact HcC
    isplitl [HcD]; · iexact HcD
    isplitl [HcE]; · iexact HcE
    isplitl [Hout]; · iexact Hout
    iexists _; isplitr
    swap; · iexact HO
    ipureintro
    repeat (refine waits_insert ?_)
    exact fun p hp => .inl hp
  iintro %acc HI
  unfold Inv G9
  rw [dif_neg (by decide)]
  icases HI with ⟨-, -, ⟨⟨%f2', H2⟩, -, ⟨%f0', H0⟩, Hs9⟩, -, -, ⟨%f1', H1⟩, ⟨%f3', H3⟩, Hs10, HcB, HcC, HcD, HcE, Hout, %W', %hW', HO⟩
  sl_exec
  sl_step
  isplitl [Hout]; · iapply (Entails.of_eq (Out_last m d L)); iexact Hout
  isplitl [H0 H1 H2 H3 Hbufs]
  · isplitl [H0]; · iexists _; iapply (Entails.of_eq (pts_set (F := F) _ h0s).symm); iexact H0
    isplitl [H1]; · iexists _; iexact H1
    isplitl [H2]; · iexists _; iapply (Entails.of_eq (pts_set (F := F) _ h2s).symm); iexact H2
    isplitl [H3]; · iexists _; iexact H3
    iexact Hbufs
  isplitl [Hs9 Hs10 HcA HcB HcC HcD HcE Hsems]
  · isplitl [Hs9]; · iexact Hs9
    isplitl [Hs10]; · iexact Hs10
    isplitl [HcA]; · iexact HcA
    isplitl [HcB]; · iexact HcB
    isplitl [HcC]; · iexact HcC
    isplitl [HcD]; · iexact HcD
    isplitl [HcE]; · iexact HcE
    iexact Hsems
  iexists _; isplitr
  swap; · iexact HO
  ipureintro; exact hW'

end Cert.KernelIdeal.Hand

end
-- ==== Proof.KIPadData.lean ====
/-
  The table-padding pipeline's proof data: what each window's staging buffer holds around the body at every point of
  the grid, the body's three memory operations, and the blocks of the two windows in closed form.
-/
import proofs.«206924_g7387343749612_cont_9to1c4b_603_14_alg».proof.Proof.KICommon
import Idealize.ShloMosaic.Lib.ValueLayout

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (RDat Cfg Window cellOf)

/-- The (absent) prefetched tables' one admissible contents. -/
abbrev adm0 : (p : Fin 1) → (pcfgs (F := F) p).Adm := fun p => (cfgs p).toPCfg_adm

variable (fA : (c : Dev nD) → Buf (Elt F) (v1Loc c)) (fB : (c : Dev nD) → Buf (Elt F) (v2Loc c))
  (O : CellTallies nD τ sig (HIx 1)) (W : Waits sig (HIx 1))

/-- the padded table is the transposed table in its first 100 columns -/
def PadOK1 (d : Dev nD) (f1 : Buf (Elt F) (v1Loc d)) (fp : Buf (Elt F) (v2Loc d)) : Prop :=
  ∀ (r : Fin 1000000) (e : Fin 100), (fp : S1000000x128.Idx → Elt F .f32) (ValueIdx.ix2 r (Fin.castLE (by decide) e)) = (f1 : S100x1000000.Idx → Elt F .f32) (ValueIdx.ix2 e r)

/-- What the body leaves in the output's staging buffer at point t: on the rows of block t that lie inside the
    table, the first 100 columns hold the transposed table's entries. -/
def PadAfter (c : Dev nD) (t : Fin cfg0.N) (X : S4096x128.Idx → Elt F .f32) : Prop :=
  ∀ (a : Fin 4096) (e : Fin 100) (h : 4096 * t.val + a.val < 1000000),
    X (ValueIdx.ix2 a (Fin.castLE (by decide) e)) = (fA c : S100x1000000.Idx → Elt F .f32) (ValueIdx.ix2 e ⟨4096 * t.val + a.val, h⟩)

/-- The pipeline's proof data on device c. -/
def rdats (_ : Fin 1) (c : Dev nD) : RDat τ (Elt F) (HIx 1) ℕ UU ℕ cfg0 c where
  A w := match w with
    | ⟨0, _⟩ => fA c
    | ⟨1, _⟩ => fB c
  after w t := match w with
    | ⟨0, _⟩ => fun _ _ => True
    | ⟨1, _⟩ => fun _ X => PadAfter fA c t X
  Φ _ := iprop(emp)
  q _ := fullShare
  owed _ := O
  recorded _ := (↑W : Set (SemLoc sig × HIx 1))

/-- The stored payload is the transposed block. -/
theorem k0_pay1_apply (v : S100x4096.Idx → Elt F .f32) (a : Fin 4096) (e : Fin 100) :
    k0_pay1 (F := F) v (ValueIdx.ix2 a e) = v (ValueIdx.ix2 e a) := by
  unfold k0_pay1
  rw [shapeCast_self]
  exact ValueIdx.transpose_ix2_apply v _ a e

/-- Entry (a, e) of the stored [4096,100] rectangle is entry (a, e) of the [4096,128] staging buffer. -/
theorem pad_written_0 (c : Dev nD) (f1 : Buf (Elt F) ((SparseCore.T (τ := τ) c).loc cc0_stg1_0)) (w : S4096x100.Idx → Elt F .f32) (a : Fin 4096) (e : Fin 100) :
    View.write (Elt F) ((Memref.whole cc0_stg1_0 : Memref sig .tc _ _ _).access (Rect.unit (s := S4096x128) ![0, 0] S4096x100.size Facts₀.inb_S4096x128_S4096x100_0_0)) f1 w Finset.univ
      (ValueIdx.ix2 a (Fin.castLE (by decide) e)) = w (ValueIdx.ix2 a e) := by
  have he : ((Memref.whole cc0_stg1_0 : Memref sig .tc _ _ _).access (Rect.unit (s := S4096x128) ![0, 0] S4096x100.size Facts₀.inb_S4096x128_S4096x100_0_0)).emb (ValueIdx.ix2 a e)
      = (ValueIdx.ix2 a (Fin.castLE (by decide) e) : S4096x128.Idx) := by
    funext ax; match ax with
    | ⟨0, _⟩ => exact Fin.ext (show 0 + 1 * a.val = a.val by omega)
    | ⟨1, _⟩ => exact Fin.ext (show 0 + 1 * e.val = e.val by omega)
  rw [← he, View.write_emb_of_mem _ _ (Finset.mem_univ _)]; rfl

theorem pad_written_1 (c : Dev nD) (f1 : Buf (Elt F) ((SparseCore.T (τ := τ) c).loc cc0_stg1_1)) (w : S4096x100.Idx → Elt F .f32) (a : Fin 4096) (e : Fin 100) :
    View.write (Elt F) ((Memref.whole cc0_stg1_1 : Memref sig .tc _ _ _).access (Rect.unit (s := S4096x128) ![0, 0] S4096x100.size Facts₀.inb_S4096x128_S4096x100_0_0)) f1 w Finset.univ
      (ValueIdx.ix2 a (Fin.castLE (by decide) e)) = w (ValueIdx.ix2 a e) := by
  have he : ((Memref.whole cc0_stg1_1 : Memref sig .tc _ _ _).access (Rect.unit (s := S4096x128) ![0, 0] S4096x100.size Facts₀.inb_S4096x128_S4096x100_0_0)).emb (ValueIdx.ix2 a e)
      = (ValueIdx.ix2 a (Fin.castLE (by decide) e) : S4096x128.Idx) := by
    funext ax; match ax with
    | ⟨0, _⟩ => exact Fin.ext (show 0 + 1 * a.val = a.val by omega)
    | ⟨1, _⟩ => exact Fin.ext (show 0 + 1 * e.val = e.val by omega)
  rw [← he, View.write_emb_of_mem _ _ (Finset.mem_univ _)]; rfl

theorem sound_body (c : Dev nD) (i : grid0.Coords) (s0 s1 : Fin 2) (X0 : S100x4096.Idx → Elt F .f32) (X1 : S4096x128.Idx → Elt F .f32)
    (Kp : PUnit → sProp 𝕄) :
    iprop((owns (SparseCore.T (τ := τ) c) (stage0_0 s0) fullShare X0 ∗ owns (SparseCore.T (τ := τ) c) (stage0_1 s1) fullShare X1)
          ∗ (iprop(owns (SparseCore.T (τ := τ) c) (stage0_0 s0) fullShare X0
              ∗ ∃ X1' : S4096x128.Idx → Elt F .f32, ⌜∀ (a : Fin 4096) (e : Fin 100), X1' (ValueIdx.ix2 a (Fin.castLE (by decide) e)) = X0 (ValueIdx.ix2 e a)⌝
                  ∗ owns (SparseCore.T (τ := τ) c) (stage0_1 s1) fullShare X1') -∗ Kp ⟨⟩))
      ⊢ wp frame (wpE (defs₀ (F := F)) 𝒱₀ (SparseCore.T (τ := τ) c) none) Set.univ
          (cc0__tp_pad_body i (stage0_0 s0) (Facts₀.hstage0_0 s0) (stage0_1 s1) (Facts₀.hstage0_1 s1)) Kp := by
  have hz : (![0, 0] : Fin 2 → Nat) = fun _ => 0 := funext fun a => by fin_cases a <;> rfl
  fin_cases s0 <;> fin_cases s1 <;>
  · simp only [owns_whole_eq, cc0__tp_pad_body_eq_skeleton]; unfold cc0__tp_pad_body_skel
    simp only [Prog.lift, Prog.bind_op, Prog.bind_ret]
    iintro ⟨⟨⟨%f0, %hf0, H0⟩, ⟨%f1, %hf1, H1⟩⟩, Hk⟩
    sl_steps
    iapply Hk
    isplitl [H0]
    · iexists f0; isplitr; · ipureintro; exact hf0
      iexact H0
    iexists _
    isplitr; swap
    · iexists _; isplitr; swap
      · iexact H1
      · ipureintro; rfl
    · ipureintro; intro a e
      subst hf0
      first
        | rw [pad_written_0 c, k0_pay1_apply]
        | rw [pad_written_1 c, k0_pay1_apply]
      first
        | exact congrFun (Memref.readAt_unit_zero (Elt F) cc0_stg0_0 hz _ f0) _
        | exact congrFun (Memref.readAt_unit_zero (Elt F) cc0_stg0_1 hz _ f0) _

/-! ## The windows' blocks in closed form -/

/-- Block t of the input window: rows 0..99, columns from 4096 t, cut at column 1000000. -/
theorem win0_0_facts : ∀ t : Fin grid0.N, win0_0.index t 0 = 0 ∧ win0_0.index t 1 = t.val
    ∧ win0_0.xsize (grid0.coords t) 0 = 100 ∧ win0_0.xsize (grid0.coords t) 1 = min 4096 (1000000 - 4096 * t.val) := by
  decide +kernel
/-- Block t of the output window: rows from 4096 t, cut at row 1000000, columns 0..127. -/
theorem win0_1_facts : ∀ t : Fin grid0.N, win0_1.index t 0 = t.val ∧ win0_1.index t 1 = 0
    ∧ win0_1.xsize (grid0.coords t) 0 = min 4096 (1000000 - 4096 * t.val) ∧ win0_1.xsize (grid0.coords t) 1 = 128 := by
  decide +kernel

/-- What the input's staging buffer holds once block t is fetched, at an entry inside the table. -/
theorem fetched0_apply (c : Dev nD) (t : Fin cfg0.N) (d : S100x4096.Idx → Elt F .f32) (a : Fin 4096) (e : Fin 100) (h : 4096 * t.val + a.val < 1000000) :
    (rdats fA fB O W 0 c).fetched (0 : Fin 2) t d (ValueIdx.ix2 e a) = (fA c : S100x1000000.Idx → Elt F .f32) (ValueIdx.ix2 e ⟨4096 * t.val + a.val, h⟩) := by
  obtain ⟨hi0, hi1, hx0, hx1⟩ := win0_0_facts t
  have hm : win0_0.moved (grid0.coords t) (ValueIdx.ix2 e a) = true := (win0_0.moved_iff _ _).mpr fun ax => by
    match ax with
    | ⟨0, _⟩ => show e.val < win0_0.xsize (grid0.coords t) 0; rw [hx0]; exact e.isLt
    | ⟨1, _⟩ => show a.val < win0_0.xsize (grid0.coords t) 1; rw [hx1]; have := a.isLt; omega
  unfold RDat.fetched
  show win0_0.fill (grid0.coords t) d _ (ValueIdx.ix2 e a) = _
  unfold Window.fill
  rw [dif_pos hm]
  unfold RDat.blockOf
  rw [View.read_apply]
  dsimp only [rdats]
  refine (cast_eq _ _).trans (congrArg (fA c : S100x1000000.Idx → Elt F .f32) (funext fun ax => ?_))
  match ax with
  | ⟨0, _⟩ => exact Fin.ext (show win0_0.index t 0 * 100 + 1 * e.val = e.val by rw [hi0]; omega)
  | ⟨1, _⟩ => exact Fin.ext (show win0_0.index t 1 * 4096 + 1 * a.val = 4096 * t.val + a.val by rw [hi1]; omega)

/-! ## The body obligation -/

/-- At every point: the input's buffer holds block t of the transposed table where the block lies inside it; the body
    stores its transpose into columns 0..99 of the output's buffer. -/
theorem body_obligation (c : Dev nD) : (rdats fA fB O W 0 c).BodyObligation (defs₀ (F := F)) 𝒱₀ none Set.univ := fun t Y hY => by
  rw [bigSep_W0, bigSep_W0, show (rdats fA fB O W 0 c).Φ t.castSucc = iprop(emp) from rfl, show (rdats fA fB O W 0 c).Φ t.succ = iprop(emp) from rfl,
    show (rdats fA fB O W 0 c).owesAt none t.succ = (rdats fA fB O W 0 c).owesAt none t.castSucc from rfl]
  obtain ⟨d, hd⟩ := ((rdats fA fB O W 0 c).finds_of_fetch (w := (0 : Fin 2)) (fetch0_0 t) (Y 0)).mp (hY 0)
  iintro ⟨HΦ, HO, H0, H1⟩
  iapply (sound_body c (grid0.coords t) (cfg0.slots t 0) (cfg0.slots t 1) (Y 0) (Y 1))
  isplitl [H0 H1]
  · isplitl [H0] <;> iassumption
  iintro ⟨H0, ⟨%X1', %hX, H1⟩⟩
  isplitl [HΦ]; · iexact HΦ
  isplitl [HO]; · iexact HO
  isplitl [H0]
  · iexists (Y 0); isplitr; · ipureintro; dsimp only [rdats]
    iexact H0
  iexists X1'; isplitr; swap; (· iexact H1)
  ipureintro
  dsimp only [rdats]
  intro a e h
  rw [hX a e, hd]
  exact fetched0_apply fA fB O W c t d a e h

end Cert.KernelIdeal.Hand

end
-- ==== Proof.KIPadValue.lean ====
/-
  The padded table after the pipeline. Block u of the output window covers rows 4096u … of the padded table (cut at row
  1000000), all 128 columns; its write-back writes, in columns 0..99, the transposed table's entries and touches no row of
  an earlier block. By induction on the points, after the write-backs below point t every row below 4096t holds the
  table's row in its first 100 columns; at t = 245 that is every row.
-/
import proofs.«206924_g7387343749612_cont_9to1c4b_603_14_alg».proof.Proof.KIPadData

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

open Idealize.ShloMosaic.Pipeline (RDat Cfg Window cellOf)

variable (fA : (c : Dev nD) → Buf (Elt F) (v1Loc c)) (fB : (c : Dev nD) → Buf (Elt F) (v2Loc c))
  (O : CellTallies nD τ sig (HIx 1)) (W : Waits sig (HIx 1))

omit [FloatOps F] in
/-- An index of the padded table is in block u iff its row is among the block's rows inside the table. -/
theorem mem_blk1 (u : Fin cfg0.N) (i : S1000000x128.Idx) :
    i ∈ (win0_1.blk u).view.setOn Finset.univ ↔ 4096 * u.val ≤ (i 0 : Nat) ∧ (i 0 : Nat) < 4096 * u.val + min 4096 (1000000 - 4096 * u.val) := by
  obtain ⟨hi0, hi1, hx0, hx1⟩ := win0_1_facts u
  rw [View.setOn_univ]
  show i ∈ ((View.whole main_v2).slice (win0_1.rect u)).set ↔ _
  rw [View.set_slice_whole, Rect.mem_set_unit]
  have h1 : (i 1 : Nat) < 128 := (i 1).isLt
  refine ⟨fun h => ?_, fun h a => ?_⟩
  · have h0 := h 0
    change win0_1.index u 0 * 4096 ≤ (i 0 : Nat) ∧ (i 0 : Nat) < win0_1.index u 0 * 4096 + win0_1.xsize (grid0.coords u) 0 at h0
    rw [hi0, hx0] at h0; omega
  · match a with
    | ⟨0, _⟩ =>
      change win0_1.index u 0 * 4096 ≤ (i 0 : Nat) ∧ (i 0 : Nat) < win0_1.index u 0 * 4096 + win0_1.xsize (grid0.coords u) 0
      rw [hi0, hx0]; omega
    | ⟨1, _⟩ =>
      change win0_1.index u 1 * 128 ≤ (i 1 : Nat) ∧ (i 1 : Nat) < win0_1.index u 1 * 128 + win0_1.xsize (grid0.coords u) 1
      rw [hi1, hx1]; omega

/-- After the write-backs below point t, every row below 4096t is right. -/
theorem pad_inv (c : Dev nD) : ∀ (t : Nat), t ≤ 245 → ∀ (G : Buf (Elt F) (v2Loc c)), (rdats fA fB O W 0 c).ArrAt (1 : Fin 2) t G →
    ∀ (r : Fin 1000000) (e : Fin 100), r.val < 4096 * t →
      (G : S1000000x128.Idx → Elt F .f32) (ValueIdx.ix2 r (Fin.castLE (by decide) e)) = (fA c : S100x1000000.Idx → Elt F .f32) (ValueIdx.ix2 e r)
  | 0, _, G, _ => fun r e h => absurd h (by omega)
  | t + 1, ht, G, h => by
    have hu : t < cfg0.N := by show t < grid0.N; rw [N_0]; omega
    have h' : (rdats fA fB O W 0 c).ArrAt (1 : Fin 2) ((⟨t, hu⟩ : Fin cfg0.N).val + 1) G := h
    rw [RDat.ArrAt_succ, if_pos (flush0_1 ⟨t, hu⟩)] at h'
    obtain ⟨G₀, X, hG₀, ⟨Y, _, hX⟩, rfl⟩ := h'
    have ih := pad_inv c t (by omega) G₀ hG₀
    have hX' : PadAfter fA c ⟨t, hu⟩ X := hX
    obtain ⟨hi0, hi1, hx0, hx1⟩ := win0_1_facts ⟨t, hu⟩
    intro r e hr
    have hr' := r.isLt
    by_cases hlt : r.val < 4096 * t
    · -- a row of an earlier block: block t's write-back does not touch it
      have hnm : (ValueIdx.ix2 r (Fin.castLE (by decide) e) : S1000000x128.Idx) ∉ (win0_1.blk ⟨t, hu⟩).view.setOn Finset.univ := by
        rw [mem_blk1]
        show ¬(4096 * t ≤ r.val ∧ r.val < 4096 * t + min 4096 (1000000 - 4096 * t))
        omega
      exact (View.write_of_not_mem _ _ _ hnm).trans (ih r e hlt)
    · -- a row of block t
      have ha : r.val - 4096 * t < 4096 := by omega
      let x : (win0_1.xblock (grid0.coords ⟨t, hu⟩)).Idx := fun ax => match ax with
        | ⟨0, _⟩ => ⟨r.val - 4096 * t, by show r.val - 4096 * t < win0_1.xsize (grid0.coords ⟨t, hu⟩) 0; rw [hx0]; show r.val - 4096 * t < min 4096 (1000000 - 4096 * t); omega⟩
        | ⟨1, _⟩ => ⟨e.val, by show e.val < win0_1.xsize (grid0.coords ⟨t, hu⟩) 1; rw [hx1]; have := e.isLt; omega⟩
      have hemb : (win0_1.blk ⟨t, hu⟩).view.emb x = (ValueIdx.ix2 r (Fin.castLE (by decide) e) : S1000000x128.Idx) := by
        funext ax
        match ax with
        | ⟨0, _⟩ => exact Fin.ext (show win0_1.index ⟨t, hu⟩ 0 * 4096 + 1 * (r.val - 4096 * t) = r.val by rw [hi0]; show t * 4096 + 1 * (r.val - 4096 * t) = r.val; omega)
        | ⟨1, _⟩ => exact Fin.ext (show win0_1.index ⟨t, hu⟩ 1 * 128 + 1 * e.val = e.val by rw [hi1]; omega)
      rw [← hemb]
      refine (View.write_emb_of_mem _ _ (Finset.mem_univ x)).trans ((cast_eq _ _).trans ?_)
      have hp := hX' ⟨r.val - 4096 * t, ha⟩ e (by show 4096 * t + (r.val - 4096 * t) < 1000000; omega)
      have er : (⟨4096 * t + (r.val - 4096 * t), by omega⟩ : Fin 1000000) = r := Fin.ext (by show 4096 * t + (r.val - 4096 * t) = r.val; omega)
      rw [er] at hp
      refine Eq.trans ?_ hp
      show X ((win0_1).xinj (grid0.coords ⟨t, hu⟩) x) = _
      refine congrArg X (funext fun ax => ?_)
      match ax with
      | ⟨0, _⟩ => exact Fin.ext rfl
      | ⟨1, _⟩ => exact Fin.ext rfl

/-- After the pipeline the padded table holds the transposed table in its first 100 columns. -/
theorem pad_value (c : Dev nD) (G : Buf (Elt F) (v2Loc c)) (h : (rdats fA fB O W 0 c).ArrAt (1 : Fin 2) cfg0.N G) : PadOK1 c (fA c) G := by
  have hN : cfg0.N = 245 := N_0
  intro r e
  refine pad_inv fA fB O W c 245 (le_refl _) G (hN ▸ h) r e ?_
  have := r.isLt; omega

end Cert.KernelIdeal.Hand

end
-- ==== Proof.KIPad.lean ====
/-
  The table-padding pipeline inside the SparseCore program: the TensorCore pallas_call that writes the transposed table,
  block by block, into the first 100 columns of the 128-column padded table, run as a kernel region of @main — the
  region's record around the proof data, and the call as @main meets it.
-/
import proofs.«206924_g7387343749612_cont_9to1c4b_603_14_alg».proof.Proof.KIPadValue

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

open Idealize.ShloMosaic.Pipeline (RDat Cfg Window cellOf)

variable (fA : (c : Dev nD) → Buf (Elt F) (v1Loc c)) (fB : (c : Dev nD) → Buf (Elt F) (v2Loc c))
  (O : CellTallies nD τ sig (HIx 1)) (W : Waits sig (HIx 1))

/-! ## The arrays as the region holds them -/

theorem arrays_eq (c : Dev nD) : (rdats fA fB O W 0 c).arrays (rdats fA fB O W 0 c).A = iprop((v1Loc c ↦{fullShare} fA c) ∗ (v2Loc c ↦{fullShare} fB c)) := by
  unfold Pipeline.RDat.arrays; rw [bigSep_W0]
  dsimp only [rdats, Pipeline.RDat.share]
  simp only [View.set_whole, ite_self]

theorem arraysAt_eq (c : Dev nD) (n : Nat) : (rdats fA fB O W 0 c).arraysAt n
    = iprop((∃ G : Buf (Elt F) (v1Loc c), ⌜(rdats fA fB O W 0 c).ArrAt (0 : Fin 2) n G⌝ ∗ v1Loc c ↦{fullShare} G)
        ∗ (∃ G : Buf (Elt F) (v2Loc c), ⌜(rdats fA fB O W 0 c).ArrAt (1 : Fin 2) n G⌝ ∗ v2Loc c ↦{fullShare} G)) := by
  unfold Pipeline.RDat.arraysAt; rw [bigSep_W0]
  dsimp only [rdats, Pipeline.RDat.share]
  simp only [View.set_whole, ite_self]

/-- The input array is never written. -/
theorem arrAt_in (c : Dev nD) (n : Nat) (G : Buf (Elt F) (v1Loc c)) (h : (rdats fA fB O W 0 c).ArrAt (0 : Fin 2) n G) : G = fA c := by
  rw [(rdats fA fB O W 0 c).ArrAt_in (0 : Fin 2) (by decide)] at h
  exact h

/-! ## The region -/

/-- The thread state the region leaves: the transposed table as it was, the padded table right in its first 100
    columns, and what the thread owes unchanged, its recorded pairs grown by the pipeline's own waits only. -/
abbrev padPost (c : Dev nD) : sProp 𝕄 :=
  iprop((v1Loc c ↦{fullShare} fA c) ∗ (∃ fp, ⌜PadOK1 c (fA c) fp⌝ ∗ v2Loc c ↦{fullShare} fp)
    ∗ ∃ W', ⌜∀ p ∈ W', p ∈ W ∨ p.2 = none⌝ ∗ owes (T c) O W')

set_option backward.isDefEq.respectTransparency.types false in
/-- The region's record: the generated layout, no semaphore of the kernel's own, the body obligation, the waits'
    evidence (the pipeline waits at the index nothing is owed at), and the thread states around it. -/
def reg0 (hO : ∀ g, O g none = 0) :
    Pipeline.RDat.RegionSeg (pcfgs (F := F)) adm0 (rdats fA fB O W) none defs₀ 𝒱₀ (K (F := F)).L (K (F := F)).lev 0 where
  win := launch0.win.to₀
  block_pos := launch0.block_pos
  stage_whole := launch0.stage_whole
  K := PEmpty
  osem := fun k => k.elim
  ho := Pipeline.OwnSemFacts.none _
  hbody c := body_obligation fA fB O W c
  hwaits c := Pipeline.RDat.cellsWaits_intro _ _ _ 0 c fun w s t => (K (F := F)).mayWait_none _ hO
  pre c := iprop((v1Loc c ↦{fullShare} fA c) ∗ (v2Loc c ↦{fullShare} fB c) ∗ owes (T c) O W)
  post c := padPost fA O W c
  X _ := iprop(emp)
  Y _ := iprop(emp)
  Z _ := iprop(emp)
  hentry c := by
    rw [Pipeline.ownSems0_none]
    iintro ⟨⟨H1, H2, HO⟩, -, -⟩
    imodintro
    isplitl [H1 H2]
    · rw [arrays_eq]
      isplitl [H1]
      · iexact H1
      · iexact H2
    isplitr; · unfold Pipeline.prefHeld; rw [show (Finset.univ : Finset (Fin 0)) = ∅ from rfl, BI.bigSep_empty]; iempintro
    isplitl [HO]
    · iexists W; isplitr; · ipureintro; exact fun _ h => Or.inl h
      iexact HO
    isplitr <;> iempintro
  hin c := by rw [scopedRest0_eq]; iintro -; iempintro
  hout c := by
    rw [scopedRest0_eq, Pipeline.ownSems0_none]; iintro -
    isplitr; · iempintro
    isplitr <;> iempintro
  hexit c := by
    rw [arraysAt_eq]
    iintro ⟨⟨⟨%F0, %hF0, H1⟩, ⟨%F1, %hF1, H2⟩⟩, ⟨%W', %hW', HO⟩, -, -⟩
    imodintro
    obtain rfl := arrAt_in fA fB O W c _ F0 hF0
    isplitl [H1]; · iexact H1
    isplitl [H2]
    · iexists F1; isplitr; · ipureintro; exact pad_value fA fB O W c F1 hF1
      iexact H2
    iexists W'; isplitr
    · ipureintro; intro p hp
      rcases hW' hp with h | ⟨w, s, rfl⟩
      · exact Or.inl h
      · exact Or.inr rfl
    iexact HO

/-! ## The call -/

/-- One device's contents as a family over the devices: there is one device. -/
def famOf {β : Dev nD → Type} (d : Dev nD) (x : β d) : (c : Dev nD) → β c := fun c => (Subsingleton.elim d c) ▸ x

/-- the launch element's component for the pipeline's staging cells -/
def uP₀ : UP := initOf (Pipeline.cells (nD := nD) (τ := τ) cfgs cellOf_inj) (Pipeline.launchToks (nD := nD) (τ := τ) cfgs cellOf_inj)

/-- what @main's proof holds of the pipeline's ghost state on device d before the region -/
abbrev padGhost (d : Dev nD) : sProp 𝕄 := iprop(Pipeline.cellsGhost cfgs (EP (F := F)) 0 d ∗ Pipeline.toksInit cfgs (EP (F := F)) 0 d)

theorem padGhost_fund : (BI.own ((EP (F := F)) uP₀) : sProp 𝕄) ⊢ iprop(|==> bigSep Finset.univ fun d : Dev nD => padGhost (F := F) d) := by
  unfold uP₀
  iintro H
  imod (Pipeline.fund_ghost (nD := nD) (τ := τ) cfgs (EP (F := F)) cellOf_inj) $$ H with ⟨HA, HB⟩
  imodintro
  rw [bigSep_sep']
  isplitl [HA]
  · iapply (Entails.of_eq (bigSep_congr fun d _ => (bigSep_univ_of_subsingleton (0 : Fin 1) (Φ := fun p => (Pipeline.cellsGhost cfgs (EP (F := F)) p d : sProp 𝕄))))); iexact HA
  · iapply (Entails.of_eq (bigSep_congr fun d _ => (bigSep_univ_of_subsingleton (0 : Fin 1) (Φ := fun p => (Pipeline.toksInit cfgs (EP (F := F)) p d : sProp 𝕄))))); iexact HB

/-- What the call leaves. -/
abbrev padQ (d : Dev nD) (f1 : Buf (Elt F) (v1Loc d)) (O : CellTallies nD τ sig (HIx 1)) (W : Waits sig (HIx 1)) : PUnit → sProp 𝕄 :=
  fun _ => iprop(boundary (T d) ∗ (v1Loc d ↦{fullShare} f1) ∗ (∃ fp, ⌜PadOK1 d f1 fp⌝ ∗ v2Loc d ↦{fullShare} fp)
            ∗ ∃ W', ⌜∀ p ∈ W', p ∈ W ∨ p.2 = none⌝ ∗ owes (T d) O W')

/-- From what @main holds before the call to what the region rule asks. -/
theorem pad_pre (d : Dev nD) (f1 : Buf (Elt F) (v1Loc d)) (f2 : Buf (Elt F) (v2Loc d)) (O : CellTallies nD τ sig (HIx 1)) (W : Waits sig (HIx 1)) :
    iprop(levAts (K (F := F)).L (K (F := F)).lev ∗ boundary (T d) ∗ (v1Loc d ↦{fullShare} f1) ∗ (v2Loc d ↦{fullShare} f2) ∗ padGhost d ∗ owes (T d) O W)
      ⊢ iprop((iprop(boundary (T d) ∗ ((v1Loc d ↦{fullShare} f1) ∗ (∃ fp, ⌜PadOK1 d f1 fp⌝ ∗ v2Loc d ↦{fullShare} fp)
                ∗ ∃ W', ⌜∀ p ∈ W', p ∈ W ∨ p.2 = none⌝ ∗ owes (T d) O W'))
              -∗ wp frame (wpE (D (F := F)) 𝒱 (T d) none) Set.univ (Prog.ret ⟨⟩ : Prog (TpuEff nD τ sig (Elt F) (ΛP (F := F)) .tc) PUnit) (padQ d f1 O W))
          ∗ boundary (T d) ∗ ((v1Loc d ↦{fullShare} f1) ∗ (v2Loc d ↦{fullShare} f2) ∗ owes (T d) O W) ∗ levAts (K (F := F)).L (K (F := F)).lev
          ∗ Pipeline.cellsGhost cfgs (EP (F := F)) 0 d ∗ Pipeline.toksInit cfgs (EP (F := F)) 0 d) := by
  iintro ⟨Hl, Hb, H1, H2, ⟨Hg, Ht⟩, HO⟩
  isplitr
  · iintro ⟨Hb, H1, H2, HO⟩
    rw [wp_ret]
    imodintro
    isplitl [Hb]; · iexact Hb
    isplitl [H1]; · iexact H1
    isplitl [H2]; · iexact H2
    iexact HO
  isplitl [Hb]; · iexact Hb
  isplitl [H1 H2 HO]
  · isplitl [H1]; · iexact H1
    isplitl [H2]; · iexact H2
    iexact HO
  isplitl [Hl]; · iexact Hl
  isplitl [Hg]; · iexact Hg
  iexact Ht

set_option backward.isDefEq.respectTransparency.types false in
theorem pad_region (d : Dev nD) (f1 : Buf (Elt F) (v1Loc d)) (f2 : Buf (Elt F) (v2Loc d)) (O : CellTallies nD τ sig (HIx 1)) (W : Waits sig (HIx 1)) (hO : ∀ g, O g none = 0) :
    iprop(levAts (K (F := F)).L (K (F := F)).lev ∗ boundary (T d) ∗ (v1Loc d ↦{fullShare} f1) ∗ (v2Loc d ↦{fullShare} f2) ∗ padGhost d ∗ owes (T d) O W)
      ⊢ wp frame (wpE ((K (F := F)).defs (D (F := F))) 𝒱 (T d) none) Set.univ (Prog.lift (.customCall (SparseCore.inner (Pipeline.entry 0)) ()))
          fun _ => iprop(boundary (T d) ∗ (v1Loc d ↦{fullShare} f1) ∗ (∃ fp, ⌜PadOK1 d f1 fp⌝ ∗ v2Loc d ↦{fullShare} fp)
            ∗ ∃ W', ⌜∀ p ∈ W', p ∈ W ∨ p.2 = none⌝ ∗ owes (T d) O W') := by
  have key := Pipeline.RDat.RegionSeg.wp (pcfgs (F := F)) adm0 (rdats (famOf (β := fun c => Buf (Elt F) (v1Loc c)) d f1) (famOf (β := fun c => Buf (Elt F) (v2Loc c)) d f2) O W) none
    cellOf_inj (EP (F := F)) defs₀ 𝒱₀ (K (F := F)).L (K (F := F)).lev
    (reg0 (famOf (β := fun c => Buf (Elt F) (v1Loc c)) d f1) (famOf (β := fun c => Buf (Elt F) (v2Loc c)) d f2) O W hO) d none (fun _ h => nomatch h)
    (fun _ => (Prog.ret ⟨⟩ : Prog (TpuEff nD τ sig (Elt F) (ΛP (F := F)) .tc) PUnit))
    (padQ d f1 O W)
  exact (pad_pre d f1 f2 O W).trans (key.trans ((K (F := F)).wp_liftProg (D (F := F)) 𝒱 (T d) Set.univ none _ _))

end Cert.KernelIdeal.Hand

end
-- ==== Proof.KILaunch.lean ====
/-
  The program's run. Every weakly fair execution of @main on the TensorCore and of the lookup kernel on the 32 vector
  subcores terminates, nothing faulting, with the index array and the table unchanged and the result the lookup
  `Spec.G` of them. @main: the index array is flattened and the table transposed (host operations), the padding
  pipeline writes the transposed table back row by row into 128 columns, the SparseCore call hands every vector subcore
  read shares of the flat indices and of the padded table and its 64 chunks of the output, and gets the chunks back,
  each right; the output's first 100 columns, regrouped, are the result.
-/
import proofs.«206924_g7387343749612_cont_9to1c4b_603_14_alg».proof.Proof.KICommon
import proofs.«206924_g7387343749612_cont_9to1c4b_603_14_alg».proof.Proof.KISplit
import proofs.«206924_g7387343749612_cont_9to1c4b_603_14_alg».proof.Proof.KIValue
import proofs.«206924_g7387343749612_cont_9to1c4b_603_14_alg».proof.Proof.KITile
import proofs.«206924_g7387343749612_cont_9to1c4b_603_14_alg».proof.Proof.KIPad

noncomputable section

namespace Cert.KernelIdeal.Hand

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

instance EH_landsIn : (EH : Emb UH (MT nD τ sig (HIx 1) (Elt F) ℕ UU ℕ)).LandsIn (upEmb : UEmb _ (MT nD τ sig (HIx 1) (Elt F) ℕ UU ℕ)) := by
  unfold EH EHC embR; infer_instance

variable [FloatOps F]
variable (m : (ℓ : Loc nD τ sig) → Buf (Elt F) ℓ) (ρ : Dev nD → PrngReg)

/-! ## The vector subcore's obligation -/

def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_kernel (coordsV c s)
          iV (Memref.isWhole_whole _) tV (Memref.isWhole_whole _) oV (Memref.isWhole_whole _)
          (Memref.whole cc1_scratch0) (Memref.isWhole_whole _) (Memref.whole cc1_scratch1) (Memref.isWhole_whole _)
          (Memref.whole cc1_scratch2) (Memref.isWhole_whole _) (Memref.whole cc1_scratch3) (Memref.isWhole_whole _)
          cc1_scratch4 cc1_scratch5 cc1_scoped0 cc1_scoped1 cc1_scoped2 cc1_scoped3 cc1_scoped4) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF hpre O W hO).trans (wp_mono frame _ _ fun _ => obl_post)

/-! ## A core's operands are its subcores' -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show (bigSep Finset.univ fun i : Fin 16 => goA m d (Fin.cast nCore_zero c) i) ⊢ |={Set.univ}=> iprop(
      (bigSep Finset.univ fun i : Fin ((K (F := F)).nSub 0) => goA m d (Fin.cast nCore_zero c) (Fin.cast nSub_zero i))
      ∗ ((bigSep Finset.univ fun i : Fin ((K (F := F)).nSub 0) => tdA m d (Fin.cast nCore_zero c) (Fin.cast nSub_zero i))
          -∗ bigSep Finset.univ fun i : Fin 16 => tdA m d (Fin.cast nCore_zero c) i))
  rw [bigSep_tasks (F := F) (fun i => goA m d (Fin.cast nCore_zero c) i), bigSep_tasks (F := F) (fun i => tdA m d (Fin.cast nCore_zero c) i)]
  iintro H; imodintro
  isplitl [H]; · iexact H
  iintro H; iexact H

/-! ## The launch element -/

def u₀ : UU := (uP₀, (initOf (K (F := F)).hsCells (K (F := F)).hsToks, 1))

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => padGhost (F := F) d)
        ∗ bigSep Finset.univ fun thr : Thread nD τ => bigSep Finset.univ fun q : Fin 1 => (P m).x q thr) := by
  unfold u₀
  iintro Hu
  ihave H := (ownU_pair uP₀ ((initOf (K (F := F)).hsCells (K (F := F)).hsToks, (1 : Counters)) : UH × Counters)) $$ Hu
  icases H with ⟨HP, HHC⟩
  ihave H2 := (own_pair_emb (EHC (F := F)) (initOf (K (F := F)).hsCells (K (F := F)).hsToks) (1 : Counters)) $$ HHC
  icases H2 with ⟨HH, -⟩
  imod (padGhost_fund (F := F)) $$ HP with HG
  imodintro
  isplitl [HH]; · iexact HH
  isplitl [HG]; · iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
/-- @main's eight arrays; the last three. -/
abbrev S8 : Finset (DevRef τ sig) := {a0', a1', r0', r1', r2', r3', r4', r5'}
abbrev S3 : Finset (DevRef τ sig) := {r3', r4', r5'}

/-- The four host operations: flatten the index array, transpose the table, take the output's first 100 columns, regroup its rows. -/
abbrev opFlat : HloOp τ sig (Elt F) := StableHlo.reshape main_arg0 main_v0 rfl shapeCasts_S4096x200_S819200
abbrev opTr : HloOp τ sig (Elt F) := StableHlo.unary main_arg1 main_v1 ((transpose S100x1000000 [1, 0] · transposes_S1000000x100_S100x1000000_1_0) : (⟨S1000000x100, .f32⟩ : BufTy).Contents (Elt F) → (⟨S100x1000000, .f32⟩ : BufTy).Contents (Elt F))
abbrev opSl : HloOp τ sig (Elt F) := StableHlo.unary main_v3 main_v4 ((extractStridedSlice S819200x100 ![0, 0] · slices_S819200x128_S819200x100_0_0) : (⟨S819200x128, .f32⟩ : BufTy).Contents (Elt F) → (⟨S819200x100, .f32⟩ : BufTy).Contents (Elt F))
abbrev opRs : HloOp τ sig (Elt F) := StableHlo.reshape main_v4 main_v5 rfl shapeCasts_S819200x100_S4096x200x100

omit [FloatOps F] in
theorem held_S8 (d : Dev nD) (W : Valuation τ sig (Elt F)) :
    (held (T d) S8 W : sProp 𝕄)
      = iprop((a0Loc d ↦{fullShare} W a0') ∗ (a1Loc d ↦{fullShare} W a1') ∗ (v0Loc d ↦{fullShare} W r0') ∗ (v1Loc d ↦{fullShare} W r1')
          ∗ (v2Loc d ↦{fullShare} W r2') ∗ (v3Loc d ↦{fullShare} W r3') ∗ (v4Loc d ↦{fullShare} W r4') ∗ v5Loc d ↦{fullShare} W r5') := by
  unfold held S8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

omit [FloatOps F] in
theorem held_S3 (d : Dev nD) (W : Valuation τ sig (Elt F)) :
    (held (T d) S3 W : sProp 𝕄) = iprop((v3Loc d ↦{fullShare} W r3') ∗ (v4Loc d ↦{fullShare} W r4') ∗ v5Loc d ↦{fullShare} W r5') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄)
      = iprop((a0Loc d ↦{fullShare} W main_arg0) ∗ (a1Loc d ↦{fullShare} W main_arg1) ∗ (v0Loc d ↦{fullShare} W main_v0) ∗ (v1Loc d ↦{fullShare} W main_v1)
          ∗ (v2Loc d ↦{fullShare} W main_v2) ∗ (v3Loc d ↦{fullShare} W main_v3) ∗ (v4Loc d ↦{fullShare} W main_v4) ∗ v5Loc d ↦{fullShare} W main_v5) := by
  unfold unscopedBufs
  rw [show (Finset.univ.filter fun b : Ref sig .tc => ¬ b.isScoped) = {main_arg0, main_arg1, main_v0, main_v1, main_v2, main_v3, main_v4, main_v5} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]

/-- The launch valuation; after the flattening; after the transposition. -/
def V0 (d : Dev nD) : Valuation τ sig (Elt F) := fun b => m (d, b)
def V1 (d : Dev nD) : Valuation τ sig (Elt F) := (opFlat (F := F)).result (V0 m d)
def V2 (d : Dev nD) : Valuation τ sig (Elt F) := (opTr (F := F)).result (V1 m d)

theorem unscoped_held (d : Dev nD) : (unscopedBufs d (fun b => m ((SparseCore.T d).loc b)) : sProp 𝕄) = held (T d) S8 (V0 m d) := by
  rw [unscopedBufs_eq, held_S8]; rfl

/-- The transposed table. -/
abbrev trTab (d : Dev nD) : Buf (Elt F) (v1Loc d) :=
  (transpose S100x1000000 [1, 0] (m (a1Loc d) : FVec F S1000000x100 .f32) transposes_S1000000x100_S100x1000000_1_0 : FVec F S100x1000000 .f32)

theorem V2_keep (d : Dev nD) (b : DevRef τ sig) (h0 : b ∉ ({r0'} : Finset (DevRef τ sig))) (h1 : b ∉ ({r1'} : Finset (DevRef τ sig))) :
    V2 m d b = m (d, b) := by
  unfold V2 V1
  rw [(opTr (F := F)).result_of_not_mem _ h1, (opFlat (F := F)).result_of_not_mem _ h0]
  rfl
theorem V2_r0 (d : Dev nD) : V2 m d r0' = flatIdx m d := by
  unfold V2 V1
  rw [(opTr (F := F)).result_of_not_mem _ (show r0' ∉ ({r1'} : Finset (DevRef τ sig)) by decide)]
  exact (StableHlo.reshape_result _ _ _ _ _ _ _).trans rfl
theorem V2_r1 (d : Dev nD) : V2 m d r1' = trTab m d := by
  unfold V2
  refine (StableHlo.unary_result _ _ _ _ _ _).trans ?_
  unfold V1
  rw [(opFlat (F := F)).result_of_not_mem _ (show a1' ∉ ({r0'} : Finset (DevRef τ sig)) by decide)]
  rfl

theorem held_V2 (d : Dev nD) :
    (held (T d) S8 ((opTr (F := F)).result ((opFlat (F := F)).result (V0 m d))) : sProp 𝕄)
      = iprop((a0Loc d ↦{fullShare} m (a0Loc d)) ∗ (a1Loc d ↦{fullShare} m (a1Loc d)) ∗ (v0Loc d ↦{fullShare} flatIdx m d) ∗ (v1Loc d ↦{fullShare} trTab m d)
          ∗ (v2Loc d ↦{fullShare} m (v2Loc d)) ∗ (v3Loc d ↦{fullShare} m (v3Loc d)) ∗ (v4Loc d ↦{fullShare} m (v4Loc d)) ∗ v5Loc d ↦{fullShare} m (v5Loc d)) := by
  show held (SparseCore.T d) S8 (V2 m d) = _
  rw [held_S8, V2_r0, V2_r1, V2_keep m d a0' (by decide) (by decide), V2_keep m d a1' (by decide) (by decide), V2_keep m d r2' (by decide) (by decide),
    V2_keep m d r3' (by decide) (by decide), V2_keep m d r4' (by decide) (by decide), V2_keep m d r5' (by decide) (by decide)]

theorem hFlat : (opFlat (F := F)).bufs ⊆ S8 := show ({a0', r0'} : Finset (DevRef τ sig)) ⊆ S8 by decide
theorem hTr : (opTr (F := F)).bufs ⊆ S8 := show ({a1', r1'} : Finset (DevRef τ sig)) ⊆ S8 by decide
theorem hSl : (opSl (F := F)).bufs ⊆ S3 := show ({r3', r4'} : Finset (DevRef τ sig)) ⊆ S3 by decide
theorem hRs : (opRs (F := F)).bufs ⊆ S3 := show ({r4', r5'} : Finset (DevRef τ sig)) ⊆ S3 by decide

/-- The padded table right against the transposed table is right against the table. -/
theorem padOK_of_padOK1 (d : Dev nD) (fp : Buf (Elt F) (v2Loc d)) (h : PadOK1 d (trTab m d) fp) : PadOK m d fp := by
  intro r e
  rw [h r e]
  refine transpose_apply [1, 0] (m (a1Loc d) : S1000000x100.Idx → Elt F .f32) _ (ValueIdx.ix2 e r) (ValueIdx.ix2 r e) fun b => ?_
  match b with
  | ⟨0, _⟩ => rfl
  | ⟨1, _⟩ => rfl

/-- The valuation after the SparseCore call: the output at `g`. -/
def V3 (d : Dev nD) (g : Buf (Elt F) (v3Loc d)) : Valuation τ sig (Elt F) := Function.update (V0 m d) r3' g
theorem V3_r3 (d : Dev nD) (g : Buf (Elt F) (v3Loc d)) : V3 m d g r3' = g := Function.update_self _ _ _
theorem V3_r4 (d : Dev nD) (g : Buf (Elt F) (v3Loc d)) : V3 m d g r4' = m (v4Loc d) := Function.update_of_ne (show r4' ≠ r3' by decide) _ _
theorem V3_r5 (d : Dev nD) (g : Buf (Elt F) (v3Loc d)) : V3 m d g r5' = m (v5Loc d) := Function.update_of_ne (show r5' ≠ r3' by decide) _ _

/-- The result: the lookup of the launch arrays. -/
abbrev resG (d : Dev nD) : Buf (Elt F) (v5Loc d) :=
  (Cert.Spec.G (m (a0Loc d) : S4096x200.Idx → BitVec 32) (m (a1Loc d) : S1000000x100.Idx → Elt F .f32) : S4096x200x100.Idx → Elt F .f32)

/-- After the last two operations the result array holds the lookup, when every chunk of the output is right. -/
theorem V5_r5 (d : Dev nD) (g : Buf (Elt F) (v3Loc d)) (hg : ∀ n, ChunkOK m d g n) :
    (opRs (F := F)).result ((opSl (F := F)).result (V3 m d g)) r5' = resG m d := by
  refine (StableHlo.reshape_result _ _ _ _ _ _ _).trans ?_
  have e4 : (opSl (F := F)).result (V3 m d g) r4'
      = (extractStridedSlice S819200x100 ![0, 0] (g : S819200x128.Idx → Elt F .f32) slices_S819200x128_S819200x100_0_0 : S819200x100.Idx → Elt F .f32) := by
    refine (StableHlo.unary_result _ _ _ _ _ _).trans ?_
    rw [V3_r3]
  show (fun i => shapeCast S4096x200x100 ((opSl (F := F)).result (V3 m d g) r4' : S819200x100.Idx → Elt F .f32) shapeCasts_S819200x100_S4096x200x100 i) = _
  rw [e4]
  refine result_eq_G (m (a0Loc d) : S4096x200.Idx → BitVec 32) (m (a1Loc d) : S1000000x100.Idx → Elt F .f32) (g : S819200x128.Idx → Elt F .f32) fun r e => ?_
  have hr : r.val / 400 < 2048 := by have := r.isLt; omega
  have hk : r.val % 400 < 400 := Nat.mod_lt _ (by decide)
  have := hg ⟨r.val / 400, hr⟩ ⟨r.val % 400, hk⟩ e
  have er : (⟨400 * (r.val / 400) + r.val % 400, by omega⟩ : Fin 819200) = r := Fin.ext (by show 400 * (r.val / 400) + r.val % 400 = r.val; omega)
  rw [er] at this
  exact this

theorem held_V5 (d : Dev nD) (g : Buf (Elt F) (v3Loc d)) (hg : ∀ n, ChunkOK m d g n) :
    (held (T d) S3 ((opRs (F := F)).result ((opSl (F := F)).result (V3 m d g))) : sProp 𝕄)
      = iprop((v5Loc d ↦{fullShare} resG m d) ∗ held (T d) (S3 \ {r5'}) ((opRs (F := F)).result ((opSl (F := F)).result (V3 m d g)))) := by
  unfold held
  rw [show S3 = insert r5' (S3 \ {r5'}) by decide, SparseCore.bigSep_insert' (by decide), V5_r5 m d g hg]
  rfl

/-- The TensorCore's handshake state, its `owes` taken out and put back at other recorded pairs. -/
theorem tcSt_open (d : Dev nD) (n : ℕ) :
    ((K (F := F)).tcSt EH d n : sProp 𝕄) ⊢ iprop(∃ W, ⌜(K (F := F)).WBelow (T d) W (8 * n)⌝ ∗ owes (T d) ((K (F := F)).Otc d n) W
      ∗ (∀ W', ⌜(K (F := F)).WBelow (T d) W' (8 * n)⌝ -∗ owes (T d) ((K (F := F)).Otc d n) W' -∗ (K (F := F)).tcSt EH d n)) := by
  unfold SparseCore.Cfg.tcSt
  iintro ⟨⟨%W, %hW, HO⟩, Hrest⟩
  iexists W
  isplitr; · ipureintro; exact hW
  isplitl [HO]; · iexact HO
  iintro %W' %hW' HO'
  isplitl [HO']
  · iexists W'; isplitr
    · ipureintro; exact hW'
    · iexact HO'
  · iexact Hrest

theorem Otc_none (d : Dev nD) (n : ℕ) (g : GSem nD τ sig) : (K (F := F)).Otc d n g none = 0 :=
  Nat.eq_zero_of_not_pos fun h => by have := (K (F := F)).lev_of_Otc_pos h; rw [SparseCore.Cfg.lev_none] at this; omega

theorem st0_eq (d : Dev nD) :
    (bigSep Finset.univ fun c : Fin ((K (F := F)).nCore 0) => (P m).st 0 d c) = bigSep Finset.univ fun c : Fin 2 => bigSep Finset.univ fun i : Fin 16 => goA m d c i :=
  bigSep_congr fun _ _ => rfl
theorem dn0_eq (d : Dev nD) :
    (bigSep Finset.univ fun c : Fin ((K (F := F)).nCore 0) => (P m).dn 0 d c) = bigSep Finset.univ fun c : Fin 2 => bigSep Finset.univ fun i : Fin 16 => tdA m d c i :=
  bigSep_congr fun _ _ => rfl

/-- The call's operands, dealt: from the flat indices, a right padded table and the output, every subcore's hand. -/
theorem deal (d : Dev nD) (fp : Buf (Elt F) (v2Loc d)) (hfp : PadOK m d fp) :
    iprop((v0Loc d ↦{fullShare} flatIdx m d) ∗ (v2Loc d ↦{fullShare} fp) ∗ (v3Loc d ↦{fullShare} m (v3Loc d)))
      ⊢ (bigSep Finset.univ fun c : Fin 2 => bigSep Finset.univ fun i : Fin 16 => goA m d c i : sProp 𝕄) := by
  rw [v3_chunks d (m (v3Loc d))]
  iintro ⟨H0, H2, H3⟩
  ihave H0' := (shares_split (F := F) (flatIdx m d)) $$ H0
  ihave H2' := (shares_split (F := F) fp) $$ H2
  ihave H := (show iprop((bigSep Finset.univ fun c : Fin 2 => bigSep Finset.univ fun i : Fin 16 => v0Loc d ↦{tileShare c i} flatIdx m d)
      ∗ (bigSep Finset.univ fun c : Fin 2 => bigSep Finset.univ fun i : Fin 16 => v2Loc d ↦{tileShare c i} fp)
      ∗ (bigSep Finset.univ fun c : Fin 2 => bigSep Finset.univ fun i : Fin 16 => bigSep Finset.univ fun g : Fin 64 => v3Loc d ↦[oChunkSet (cn c i g)]{fullShare} m (v3Loc d)))
      ⊢ (bigSep Finset.univ fun c : Fin 2 => bigSep Finset.univ fun i : Fin 16 => goA m d c i : sProp 𝕄) from by
    rw [← bigSep_sep', ← bigSep_sep']
    refine bigSep_mono fun c _ => ?_
    rw [← bigSep_sep', ← bigSep_sep']
    refine bigSep_mono fun i _ => ?_
    show iprop((v0Loc d ↦{tileShare c i} flatIdx m d) ∗ (v2Loc d ↦{tileShare c i} fp)
        ∗ bigSep Finset.univ fun g : Fin 64 => v3Loc d ↦[oChunkSet (cn c i g)]{fullShare} m (v3Loc d))
      ⊢ iprop(∃ fp : Buf (Elt F) (v2Loc d), ⌜PadOK m d fp⌝ ∗ (v0Loc d ↦{tileShare c i} flatIdx m d) ∗ (v2Loc d ↦{tileShare c i} fp)
        ∗ bigSep Finset.univ fun g : Fin 64 => v3Loc d ↦[oChunkSet (cn c i g)]{fullShare} m (v3Loc d))
    iintro ⟨Ha, Hb, Hc⟩
    iexists fp
    isplitr; · ipureintro; exact hfp
    isplitl [Ha]; · iexact Ha
    isplitl [Hb]; · iexact Hb
    iexact Hc) $$ [H0' H2' H3]
  · isplitl [H0']; · iexact H0'
    isplitl [H2']; · iexact H2'
    iexact H3
  iexact H

/-- What @main leaves the claim: the arguments at their launch contents, the result at the lookup. -/
abbrev FIN (d : Dev nD) : sProp 𝕄 := iprop((a0Loc d ↦{fullShare} m (a0Loc d)) ∗ (a1Loc d ↦{fullShare} m (a1Loc d)) ∗ v5Loc d ↦{fullShare} resG m d)

set_option maxRecDepth 16384 in
/-- @main on device `d`'s TensorCore. -/
theorem hmain (κ : GSem nD τ sig → ℕ) (d : Dev nD) :
    iprop((K (F := F)).ctx EH (P m) κ ∗ (K (F := F)).tcSt EH d 0 ∗ (K (F := F)).tcRes m ρ d ∗ padGhost (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, HG⟩
  -- the flattening and the transposition
  iapply (wp_hlo_within 𝒱 (SparseCore.T d) none Set.univ (op := opFlat) (S := S8) hFlat (V := V0 m d)) $$ [Hb Hheld]
  · isplitl [Hb] <;> iassumption
  iintro ⟨Hb, Hheld⟩
  rw [wp_ret]; imodintro
  iapply (wp_hlo_within 𝒱 (SparseCore.T d) none Set.univ (op := opTr) (S := S8) hTr (V := (opFlat (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Ha0, Ha1, Hv0, Hv1, Hv2, Hv3, Hv4, Hv5⟩
  -- the padding pipeline
  ihave Hst' := (tcSt_open (F := F) d 0) $$ Hst
  icases Hst' with ⟨%W, %hW, HO, Hcl⟩
  ihave Hlev := ((K (F := F)).ctx_levAts (EH := EH) (P := P m) κ) $$ Hctx
  iapply (wp_wand_r frame _ Set.univ) $$ [Hlev Hb Hv1 Hv2 HG HO Ha0 Ha1 Hv0 Hv3 Hv4 Hv5 Hcl]
  isplitl [Hlev Hb Hv1 Hv2 HG HO]
  · iapply (pad_region (F := F) d (trTab m d) (m (v2Loc d)) ((K (F := F)).Otc d 0) W (Otc_none (F := F) d 0))
    isplitl [Hlev]; · iexact Hlev
    isplitl [Hb]; · iexact Hb
    isplitl [Hv1]; · iexact Hv1
    isplitl [Hv2]; · iexact Hv2
    isplitl [HG]; · iexact HG
    iexact HO
  iintro %_u ⟨Hb, Hv1, ⟨%fp, %hfp, Hv2⟩, %W', %hW', HO⟩
  have hWB : (K (F := F)).WBelow (T d) W' (8 * 0) := by
    intro p hp
    rcases hW' p hp with h | h
    · exact hW p h
    · rw [h, SparseCore.Cfg.lev_none]
  ihave Hst := Hcl $$ %W' %hWB HO
  -- the SparseCore call
  iapply ((K (F := F)).wp_run (D (F := F)) 𝒱 (EH := EH) (P := P m) κ d 0) $$ [Hst Hv0 Hv2 Hv3 Hb Ha0 Ha1 Hv4 Hv5]
  isplitr; · iexact Hctx
  isplitl [Hst]; · iexact Hst
  isplitl [Hv0 Hv2 Hv3]
  · rw [st0_eq]
    iapply (deal m d fp (padOK_of_padOK1 m d fp hfp))
    isplitl [Hv0]; · iexact Hv0
    isplitl [Hv2]; · iexact Hv2
    iexact Hv3
  iintro ⟨Hst, Hdn⟩
  ihave Hdn' := (Entails.of_eq (dn0_eq m d)) $$ Hdn
  ihave Hj := (v3_join m d) $$ Hdn'
  icases Hj with ⟨%g, %hg, Hv3⟩
  -- the output's first 100 columns, regrouped
  iapply (wp_hlo_within 𝒱 (SparseCore.T d) none Set.univ (op := opSl) (S := S3) hSl (V := V3 m d g)) $$ [Hb Hv3 Hv4 Hv5]
  · isplitl [Hb]; · iexact Hb
    rw [held_S3, V3_r3, V3_r4, V3_r5]
    isplitl [Hv3]; · iexact Hv3
    isplitl [Hv4]; · iexact Hv4
    iexact Hv5
  iintro ⟨Hb, Hheld⟩
  rw [wp_ret]; imodintro
  iapply (wp_hlo_within 𝒱 (SparseCore.T d) none Set.univ (op := opRs) (S := S3) hRs (V := (opSl (F := F)).result (V3 m d g))) $$ [Hb Hheld]
  · isplitl [Hb] <;> iassumption
  iintro ⟨Hb, Hheld⟩
  ihave Hh := (Entails.of_eq (held_V5 (F := F) m d g hg)) $$ Hheld
  icases Hh with ⟨Hv5, -⟩
  rw [wp_ret]; imodintro; imodintro
  isplitl [Hst]; · iexact Hst
  isplitl [Ha0]; · iexact Ha0
  isplitl [Ha1]; · iexact Ha1
  iexact Hv5

/-- What the claim reads of device `d`'s final state. -/
def fq (d : Dev nD) (s' : Phys nD τ sig (Elt F)) : Prop :=
  s'.mem.mem (v5Loc d) = resG m d ∧ s'.mem.mem (a0Loc d) = m (a0Loc d) ∧ s'.mem.mem (a1Loc d) = m (a1Loc d)

set_option maxRecDepth 16384 in
theorem hfin (d : Dev nD) (s' : Phys nD τ sig (Elt F)) : iprop(FIN m d ∗ SI s') ⊢ (⌜fq m d s'⌝ : sProp 𝕄) := by
  iintro ⟨⟨H0, H1, H5⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v5Loc d) (I := Finset.univ) (q := fullShare) (f := resG m d)) $$ [HSI H5]
  · isplitl [HSI] <;> iassumption
  icases H with %h5
  ipureintro
  exact ⟨funext fun i => h5 i (Finset.mem_univ i), funext fun i => h0 i (Finset.mem_univ i), funext fun i => h1 i (Finset.mem_univ i)⟩

/-! ## The program's run -/

def QC : PUnit × MemSt nD τ sig (Elt F) → Prop := fun r => ∀ c : Dev nD,
  r.2.mem (v5Loc c) = resG m c ∧ r.2.mem (a0Loc c) = m (a0Loc c) ∧ r.2.mem (a1Loc c) = m (a1Loc c)

theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m facts hpre)
    (fun q _ => match q with | 0 => SparseCore.Cfg.VecSplit.of_plain (vecSplit m))
    m ρ main (fun d => padGhost (F := F) d) (FIN m) (u₀ (F := F)) (sep_elim_left.trans (hu₀ m)) (hmain m ρ) (fq m) (hfin m) (QC m) (fun _ h => h)

end Cert.KernelIdeal.Hand

end
-- ==== Proof.lean ====
/-
  The claim. The lookup kernel (at the word level and idealized) runs to the end with its arguments unchanged and its
  result the lookup `Spec.G` of them (Proof/KBLaunch.lean, Proof/KILaunch.lean: the same proof at the two float
  instances, the program moving data only); the reference runs to the end with the same result (Proof/RefRun.lean); the
  precondition gives what both need, that every index word names a row of the table (Proof/PreIdx.lean). The idealization
  rewrote nothing, so there is nothing to preserve.
-/
import proofs.«206924_g7387343749612_cont_9to1c4b_603_14_alg».proof.Defs
import proofs.«206924_g7387343749612_cont_9to1c4b_603_14_alg».proof.Proof.Gen.Kernel
import proofs.«206924_g7387343749612_cont_9to1c4b_603_14_alg».proof.Proof.Gen.KernelIdeal
import proofs.«206924_g7387343749612_cont_9to1c4b_603_14_alg».proof.Proof.Gen.ReferenceIdeal
import proofs.«206924_g7387343749612_cont_9to1c4b_603_14_alg».proof.Proof.Gen.Pre_input_domain
import proofs.«206924_g7387343749612_cont_9to1c4b_603_14_alg».proof.Proof.PreIdx
import proofs.«206924_g7387343749612_cont_9to1c4b_603_14_alg».proof.Proof.RefRun
import proofs.«206924_g7387343749612_cont_9to1c4b_603_14_alg».proof.Proof.KBLaunch
import proofs.«206924_g7387343749612_cont_9to1c4b_603_14_alg».proof.Proof.KILaunch

noncomputable section

namespace Cert.Proof

open Idealize.ShloMosaic Idealize.SL.Sem

/-- The word-level kernel's frame: its run, the values dropped. -/
theorem frame_p : Cert.frame_Kernel (hKernel := Cert.Kernel.Gen.facts) (hPre_input_domain := Cert.Pre_input_domain.Gen.facts) := fun m ρ hpre =>
  (θ_run Cert.Kernel.defs _ _).mono (fun _ h c => ⟨(h c).2.1, (h c).2.2⟩)
    (Cert.Kernel.Hand.run_main (F := Bits) m ρ (fun d => Cert.PreIdx.idxOK_of_fn _ _ (hpre d)))

/-- The idealized kernel's frame. -/
theorem frame_pi : Cert.frame_KernelIdeal (hKernelIdeal := Cert.KernelIdeal.Gen.facts) (hPre_input_domain := Cert.Pre_input_domain.Gen.facts) := fun m ρ hpre =>
  (θ_run Cert.KernelIdeal.defs _ _).mono (fun _ h c => ⟨(h c).2.1, (h c).2.2⟩)
    (Cert.KernelIdeal.Hand.run_main (F := Ideal) m ρ (fun d => Cert.PreIdx.idxOK_of_fn _ _ (hpre d)))

/-- The reference's frame. -/
theorem frame_ri : Cert.frame_ReferenceIdeal (hReferenceIdeal := Cert.ReferenceIdeal.Gen.facts) (hPre_input_domain := Cert.Pre_input_domain.Gen.facts) := fun m ρ hpre =>
  (θ_run Cert.ReferenceIdeal.defs _ _).mono (fun _ h c => ⟨(h c).2.1, (h c).2.2⟩)
    (Cert.RefSide.run m ρ (fun c => Cert.PreIdx.idxOK_of_fn _ _ (hpre c)))

/-- Both programs end at the lookup of arguments that agree. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) := by
  intro m ρ m' ρ' hpre hagree
  have hok : ∀ d, Cert.Spec.IdxOK _ := fun d => Cert.PreIdx.idxOK_of_fn _ _ (hpre d)
  refine ⟨fun c => Cert.KernelIdeal.Hand.resG m c, (θ_run Cert.KernelIdeal.defs _ _).mono (fun _ h c => h c) (Cert.KernelIdeal.Hand.run_main (F := Ideal) m ρ hok), ?_⟩
  refine (θ_run Cert.ReferenceIdeal.defs _ _).mono (fun _ h c => ⟨(h c).1.trans ?_, (h c).2.1, (h c).2.2⟩)
    (Cert.RefSide.run m' ρ' (fun c => by rw [(hagree c).1]; exact hok c))
  rw [(hagree c).1, (hagree c).2]

theorem claim : Cert.Claim := ⟨Cert.Kernel.Gen.facts, Cert.KernelIdeal.Gen.facts, Cert.ReferenceIdeal.Gen.facts, Cert.Pre_input_domain.Gen.facts,
  frame_p, frame_pi, frame_ri, trivial, algebraic⟩

end Cert.Proof

end
